-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x64 : Shape := ⟨2, ![8192, 64]⟩
abbrev S1024x64 : Shape := ⟨2, ![1024, 64]⟩
abbrev S64 : Shape := ⟨1, ![64]⟩
abbrev S64x1024 : Shape := ⟨2, ![64, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S64x1024 .f32) (main_arg5 : FVec F S1024 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8192x1024 .f32) (main_arg1 : FVec F S8192x64 .f32) (main_arg2 : FVec F S1024x64 .f32) (main_arg3 : FVec F S64 .f32) (main_arg4 : FVec F S64x1024 .f32) (main_arg5 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8192x1024 : Shape := ⟨2, ![8192, 1024]⟩
abbrev S8192x64 : Shape := ⟨2, ![8192, 64]⟩
abbrev S1024x64 : Shape := ⟨2, ![1024, 64]⟩
abbrev S64 : Shape := ⟨1, ![64]⟩
abbrev S64x1024 : Shape := ⟨2, ![64, 1024]⟩
abbrev S1024 : Shape := ⟨1, ![1024]⟩
abbrev S1x64 : Shape := ⟨2, ![1, 64]⟩
abbrev S1x1024 : Shape := ⟨2, ![1, 1024]⟩
abbrev S1024x1024 : Shape := ⟨2, ![1024, 1024]⟩
abbrev S8x128 : Shape := ⟨2, ![8, 128]⟩
abbrev S512x64 : Shape := ⟨2, ![512, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1 : Shape := ⟨1, ![1]⟩
abbrev S1x1 : Shape := ⟨2, ![1, 1]⟩
abbrev S_ : Shape := ⟨0, ![]⟩

abbrev nBuf : Space → Nat
  | .hbm => 29
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x64, .f32⟩
  | .hbm, ⟨2, _⟩ => ⟨S1024x64, .f32⟩
  | .hbm, ⟨3, _⟩ => ⟨S64, .f32⟩
  | .hbm, ⟨4, _⟩ => ⟨S64x1024, .f32⟩
  | .hbm, ⟨5, _⟩ => ⟨S1024, .f32⟩
  | .hbm, ⟨6, _⟩ => ⟨S1x64, .f32⟩
  | .hbm, ⟨7, _⟩ => ⟨S1x1024, .f32⟩
  | .hbm, ⟨8, _⟩ => ⟨S8192x64, .f32⟩
  | .hbm, ⟨9, _⟩ => ⟨S8192x1024, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1x64, .f32⟩
  | .local _ .vmem, ⟨4, _⟩ => ⟨S64x1024, .f32⟩
  | .local _ .vmem, ⟨5, _⟩ => ⟨S1x1024, .f32⟩
  | .local _ .vmem, ⟨6, _⟩ => ⟨S1024x64, .f32⟩
  | .local _ .vmem, ⟨7, _⟩ => ⟨S1024x64, .f32⟩
  | .local _ .vmem, ⟨8, _⟩ => ⟨S1024x1024, .f32⟩
  | .local _ .vmem, ⟨9, _⟩ => ⟨S1024x1024, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 16], ![false, false]⟩

def k1_cond2 (i : grid1.Coords) : BitVec 1 :=
  let arg0 : BitVec 32 := BitVec.ofNat 32 (i 0).val
  let c15_i32 : BitVec 32 := 15#32
  let v98 : BitVec 1 := Scalar.cmpi .eq arg0 c15_i32
  let arg1 : BitVec 32 := BitVec.ofNat 32 (i 1).val
  let c15_i32_42 : BitVec 32 := 15#32
  let v99 : BitVec 1 := Scalar.cmpi .eq arg1 c15_i32_42
  let v100 : BitVec 1 := Scalar.andi v98 v99
  let v101 : BitVec 32 := Scalar.extui v100
  let c0_i32_43 : BitVec 32 := 0#32
  let v102 : BitVec 1 := Scalar.cmpi .ne v101 c0_i32_43
  v102

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

class Facts₀ : Prop where
  shapeCasts_S64_S1x64 : S64.ShapeCasts S1x64
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x1024_S64x1024_0_0 : ∀ a, (![0, 0] : Fin 2 → Nat) a + S64x1024.size a ≤ S64x1024.size a
  h_S64x1024 : 0 < S64x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S512x64_S512x64_0_0 : ∀ a, (![0, 0] : Fin 2 → Nat) a + S512x64.size a ≤ S512x64.size a
  h_S512x64 : 0 < S512x64.numel
  shapeCasts_S512x64_S512x64 : S512x64.ShapeCasts S512x64
  reduces_S512x64_S512 : S512x64.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  reduces_S512x1_S1 : S512x1.Reduces [0] S1
  shapeCasts_S1_S1x1 : S1.ShapeCasts S1x1
  shapeCasts_S1x1_S1x1 : S1x1.ShapeCasts S1x1
  broadcasts_S1x1_S8x128 : S1x1.Broadcasts S8x128
  slices_S8x128_S1x1_0_0 : S8x128.Slices ![0, 0] S1x1
  shapeCasts_S1x1_S_ : S1x1.ShapeCasts S_
  dot_S1024x1024_S1024x64_S1024x64_1_0_0_1_n_n_wf : DotDims.WF S1024x1024 S1024x64 S1024x64 [1] [0] [0] [1] [] []
  dot_S1024x64_S64x1024_S1024x1024_1_0_0_1_n_n_wf : DotDims.WF S1024x64 S64x1024 S1024x1024 [1] [0] [0] [1] [] []
  dot_S512x64_S512x64_S512x512_1_1_0_0_n_n_wf : DotDims.WF S512x64 S512x64 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S8192x64.size a
  hwx0_5 : ∀ i : grid0.Coords, EltTy.bits .f32 = 32 ∨ (Rect.block (s := S8192x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .f32 = 32 ∨ (Rect.block (s := S8192x1024) S1024x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S8192x64.size a
  hwx1_0 : ∀ i : grid1.Coords, EltTy.bits .f32 = 32 ∨ (Rect.block (s := S8192x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S8192x64.size a
  hwx1_1 : ∀ i : grid1.Coords, EltTy.bits .f32 = 32 ∨ (Rect.block (s := S8192x64) S512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S8192x64.size a
  hwx1_2 : ∀ i : grid1.Coords, EltTy.bits .f32 = 32 ∨ (Rect.block (s := S8192x64) S512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S8192x64.size a
  hwx1_3 : ∀ i : grid1.Coords, EltTy.bits .f32 = 32 ∨ (Rect.block (s := S8192x64) S512x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S8x128.size a
  hwx1_5 : ∀ i : grid1.Coords, EltTy.bits .f32 = 32 ∨ (Rect.block (s := S8x128) S8x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S8x128.size a
  hwx1_6 : ∀ i : grid1.Coords, EltTy.bits .f32 = 32 ∨ (Rect.block (s := S8x128) S8x128.size (cc1_transform_6 i) (hinb1_6 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S8x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S8x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3_2) S8x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun i => !(k1_cond2 i == 1#1) | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x64 : Shape := ⟨2, ![8192, 64]⟩
abbrev S1024x64 : Shape := ⟨2, ![1024, 64]⟩
abbrev S64 : Shape := ⟨1, ![64]⟩
abbrev S64x1024 : Shape := ⟨2, ![64, 1024]⟩
abbrev S1024 : Shape := ⟨1, ![1024]⟩
abbrev S1x64 : Shape := ⟨2, ![1, 64]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x64, .f32⟩
  | .hbm, ⟨2, _⟩ => ⟨S1024x64, .f32⟩
  | .hbm, ⟨3, _⟩ => ⟨S64, .f32⟩
  | .hbm, ⟨4, _⟩ => ⟨S64x1024, .f32⟩
  | .hbm, ⟨5, _⟩ => ⟨S1024, .f32⟩
  | .hbm, ⟨6, _⟩ => ⟨S8192x64, .f32⟩
  | .hbm, ⟨7, _⟩ => ⟨S1x64, .f32⟩
  | .hbm, ⟨8, _⟩ => ⟨S8192x64, .f32⟩
  | .hbm, ⟨9, _⟩ => ⟨S8192x64, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x64, .f32⟩
  | .hbm, ⟨19, _⟩ => ⟨S_, .f32⟩
  | .hbm, ⟨20, _⟩ => ⟨S8192, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S64x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x64, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x64, .f32⟩
  | .hbm, ⟨45, _⟩ => ⟨S_, .f32⟩
  | .hbm, ⟨46, _⟩ => ⟨S8192, .f32⟩
  | .hbm, ⟨47, _⟩ => ⟨S1x8192, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S64x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192x64, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x64, .f32⟩
  | .hbm, ⟨72, _⟩ => ⟨S_, .f32⟩
  | .hbm, ⟨73, _⟩ => ⟨S8192, .f32⟩
  | .hbm, ⟨74, _⟩ => ⟨S1x8192, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S64x8192, .f32⟩
  | .hbm, ⟨79, _⟩ => ⟨S8192x8192, .f32⟩
  | .hbm, ⟨80, _⟩ => ⟨S_, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_cst_16 : Ref sig .tc := ⟨.hbm, 91, rfl⟩
abbrev main_v68 : Ref sig .tc := ⟨.hbm, 92, rfl⟩
abbrev main_cst_17 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x1024_S1024x64_S8192x64_1_0_0_1_n_n_wf : DotDims.WF S8192x1024 S1024x64 S8192x64 [1] [0] [0] [1] [] []
  dot_S8192x64_S64x1024_S8192x1024_1_0_0_1_n_n_wf : DotDims.WF S8192x64 S64x1024 S8192x1024 [1] [0] [0] [1] [] []
  dot_S8192x64_S64x8192_S8192x8192_1_0_0_1_n_n_wf : DotDims.WF S8192x64 S64x8192 S8192x8192 [1] [0] [0] [1] [] []

variable [Facts₀]

def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S8192x64_S64x1024_S8192x1024_1_0_0_1_n_n : DotDims S8192x64 S64x1024 S8192x1024 where
  lhsContracting := [1]
  rhsContracting := [0]
  lhsNonContracting := [0]
  rhsNonContracting := [1]
  lhsBatch := []
  rhsBatch := []
  wf := dot_S8192x64_S64x1024_S8192x1024_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Bits.EncDecBody.lean ====
/- Region 0 (the fused encoder/decoder pallas_call): the body's accesses, what the body leaves in each output
   window's staging buffer as a function of the input blocks, and the body's triple on whole staging memrefs.
   Generic in the float instance. -/
import proofs.«125475_j62268435857718_1_alg».proof.Proof.Gen.Kernel.Launch
import proofs.«125475_j62268435857718_1_alg».proof.Proof.Gen.Kernel.Skeleton
import proofs.«125475_j62268435857718_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is through the whole-block rectangle at offset zero -/

/-- The offsets of every access of the body are zero on both axes. -/
theorem hz0 : (![0, 0] : Fin 2 → Nat) = fun _ => 0 := funext fun a => by fin_cases a <;> rfl

abbrev r0_0 : Rect S1024x1024 := Rect.unit (s := S1024x1024) ![0, 0] S1024x1024.size inb_S1024x1024_S1024x1024_0_0
abbrev r0_1 : Rect S1024x64 := Rect.unit (s := S1024x64) ![0, 0] S1024x64.size inb_S1024x64_S1024x64_0_0
abbrev r0_2 : Rect S1x64 := Rect.unit (s := S1x64) ![0, 0] S1x64.size inb_S1x64_S1x64_0_0
abbrev r0_3 : Rect S64x1024 := Rect.unit (s := S64x1024) ![0, 0] S64x1024.size inb_S64x1024_S64x1024_0_0
abbrev r0_4 : Rect S1x1024 := Rect.unit (s := S1x1024) ![0, 0] S1x1024.size inb_S1x1024_S1x1024_0_0

/-! ## What the body leaves in each output window's buffer -/

/-- The latent window's staging buffer after the body, from the input windows' blocks: its one store, of the
    encoder payload of the loaded blocks. -/
def out0_5 (x0 : Vec F S1024x1024 .f32) (x1 : Vec F S1024x64 .f32) (x2 : Vec F S1x64 .f32) : Vec F S1024x64 .f32 :=
  View.canon [⟨r0_1, k0_pay1 (View.ld x0 r0_0) (View.ld x1 r0_1) (View.ld x2 r0_2)⟩]

/-- Its one store is through the whole block, so it covers it. -/
theorem cover0_5 (p0 : Vec F S1024x64 .f32) (y : S1024x64.Idx) :
    ∃ pc ∈ ([⟨r0_1, p0⟩] : List (View.Piece (Elt F) S1024x64 .f32)), y ∈ pc.1.set :=
  ⟨_, List.mem_singleton_self _, View.mem_set_unit_zero (S := S1024x64) hz0 inb_S1024x64_S1024x64_0_0 y⟩

/-- The reconstruction window's staging buffer after the body, from the input windows' blocks: its one store, of
    the decoder payload of the loaded blocks. -/
def out0_6 (x0 : Vec F S1024x1024 .f32) (x1 : Vec F S1024x64 .f32) (x2 : Vec F S1x64 .f32) (x3 : Vec F S64x1024 .f32)
    (x4 : Vec F S1x1024 .f32) : Vec F S1024x1024 .f32 :=
  View.canon [⟨r0_0, k0_pay2 (View.ld x0 r0_0) (View.ld x1 r0_1) (View.ld x2 r0_2) (View.ld x3 r0_3) (View.ld x4 r0_4)⟩]

/-- Its one store is through the whole block, so it covers it. -/
theorem cover0_6 (p0 : Vec F S1024x1024 .f32) (y : S1024x1024.Idx) :
    ∃ pc ∈ ([⟨r0_0, p0⟩] : List (View.Piece (Elt F) S1024x1024 .f32)), y ∈ pc.1.set :=
  ⟨_, List.mem_singleton_self _, View.mem_set_unit_zero (S := S1024x1024) hz0 inb_S1024x1024_S1024x1024_0_0 y⟩

/-! ## The value-facing closed forms: one whole-block store of a payload of whole-block loads -/

/-- The latent block the body leaves is the encoder payload of the input blocks. -/
theorem out0_5_eq (x0 : Vec F S1024x1024 .f32) (x1 : Vec F S1024x64 .f32) (x2 : Vec F S1x64 .f32) :
    out0_5 x0 x1 x2 = k0_pay1 x0 x1 x2 := by
  unfold out0_5
  rw [View.canon_unit_zero (S := S1024x64) hz0]
  simp only [View.ld_unit_zero (S := S1024x1024) hz0, View.ld_unit_zero (S := S1024x64) hz0,
    View.ld_unit_zero (S := S1x64) hz0]

/-- The reconstruction block the body leaves is the decoder payload of the input blocks. -/
theorem out0_6_eq (x0 : Vec F S1024x1024 .f32) (x1 : Vec F S1024x64 .f32) (x2 : Vec F S1x64 .f32)
    (x3 : Vec F S64x1024 .f32) (x4 : Vec F S1x1024 .f32) :
    out0_6 x0 x1 x2 x3 x4 = k0_pay2 x0 x1 x2 x3 x4 := by
  unfold out0_6
  rw [View.canon_unit_zero (S := S1024x1024) hz0]
  simp only [View.ld_unit_zero (S := S1024x1024) hz0, View.ld_unit_zero (S := S1024x64) hz0,
    View.ld_unit_zero (S := S1x64) hz0, View.ld_unit_zero (S := S64x1024) hz0, View.ld_unit_zero (S := S1x1024) hz0]

/-! ## The body's triple -/

set_option maxHeartbeats 1000000 in
/-- The kernel body on whole staging memrefs, the inputs' at read contents and the outputs' at anything, runs to
    the continuation holding the inputs' as they were and each output's at its closed form of the inputs'. -/
theorem sound_kernel0 (c : Dev nD) (E : Set ℕ) (i : grid0.Coords)
    (arg1 : Memref sig .tc .vmem S1024x1024 .f32) (harg1 : arg1.IsWhole) (arg2 : Memref sig .tc .vmem S1024x64 .f32) (harg2 : arg2.IsWhole)
    (arg3 : Memref sig .tc .vmem S1x64 .f32) (harg3 : arg3.IsWhole) (arg4 : Memref sig .tc .vmem S64x1024 .f32) (harg4 : arg4.IsWhole)
    (arg5 : Memref sig .tc .vmem S1x1024 .f32) (harg5 : arg5.IsWhole) (arg6 : Memref sig .tc .vmem S1024x64 .f32) (harg6 : arg6.IsWhole)
    (arg7 : Memref sig .tc .vmem S1024x1024 .f32) (harg7 : arg7.IsWhole)
    (x0 : Vec F S1024x1024 .f32) (x1 : Vec F S1024x64 .f32) (x2 : Vec F S1x64 .f32) (x3 : Vec F S64x1024 .f32)
    (x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E
          (cc0__enc_dec_kernel i arg1 harg1 arg2 harg2 arg3 harg3 arg4 harg4 arg5 harg5 arg6 harg6 arg7 harg7) K := by
  simp only [cc0__enc_dec_kernel_eq_skeleton]; unfold cc0__enc_dec_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

end Cert.Kernel.Hand

end
-- ==== Proof.Bits.EncDec.lean ====
/- Region 0 (the fused encoder/decoder pallas_call) at a parameter `V`, the TensorCore's buffer contents when the
   region is entered: each window's block at a point, the pipeline's proof data, and the body obligation at every
   point of the grid. Generic in the float instance. -/
import proofs.«125475_j62268435857718_1_alg».proof.Proof.Bits.EncDecBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents' (`hA`) and whose body leaves the block in place (`hafter`): unfetched,
    the block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is the entry contents' (`hA`) and whose body leaves the block in place (`hafter`): unfetched,
    the block index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is the entry contents' (`hA`) and whose body leaves the block in place (`hafter`): unfetched,
    the block index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is the entry contents' (`hA`) and whose body leaves the block in place (`hafter`): unfetched,
    the block index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is the entry contents' (`hA`) and whose body leaves the block in place (`hafter`): unfetched,
    the block index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at point `t`
    each input's buffer at its block, the latent window's at the encoder's closed form of the input blocks and the
    reconstruction window's at the decoder's; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.MmdRuns.lean ====
/- Region 1 of @main — the tiled Gaussian-kernel sums (pallas_call 1, grid 16 × 16) — at the contents `V` the
   TensorCore's buffers hold when the region is entered: what the three runs of its body (first point, middle
   points, last point) share. The blocks each window stages, the two branch conditions of the body in closed
   form over the 256 grid points, where the three output windows are idle, the staging and scratch memrefs the
   body is called with, and the region's invariant with the three scratch accumulators named. -/
import proofs.«125475_j62268435857718_1_alg».proof.Proof.Gen.Kernel.Launch
import proofs.«125475_j62268435857718_1_alg».proof.Proof.Gen.Kernel.Skeleton
import proofs.«125475_j62268435857718_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-! ## The windows' blocks -/

/-- Window `w`'s block at point `t`, read off its array as the region finds it (`V`). Windows 0 and 2 read row
    block `i` and column block `j` of one array, windows 1 and 3 of another. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (it is fetched only when the row index moves, and between two fetches the block index stands still), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (it is fetched only when the row index moves, and between two fetches the block index stands still), for any
    proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (it is fetched at every point), for any
    proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (it is fetched at every point), for any
    proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first `scf.if` (zero the three accumulators), from the grid coordinates:
    `i = 0 ∧ j = 0` as the kernel computes it on 32-bit words. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

/-- The condition of the body's second `scf.if` (copy the accumulators out): `i = 15 ∧ j = 15`. -/
abbrev cond1_1 (i : grid1.Coords) : Prop := k1_cond2 i = 1#1
/-- It holds at the last point only — decided over the grid. -/
theorem hcond1_1 : ∀ t : Fin cfg1.N, cond1_1 (grid1.coords t) ↔ t.val = 255 :=
  (by decide +kernel : ∀ t : Fin grid1.N, cond1_1 (grid1.coords t) ↔ t.val = 255)

/-! ## Where the windows are idle -/
/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- At the first point output 4 is idle: the body stores nothing into it, -/
theorem idleAt1_4_A : ∀ t : Fin cfg1.N, cond1_0 (grid1.coords t) → ¬cond1_1 (grid1.coords t) → cfg1.idle 4 (grid1.coords t) = true := by decide +kernel
/-- and the pipeline does not write its block back. -/
theorem noFlush1_4_A : ∀ t : Fin cfg1.N, cond1_0 (grid1.coords t) → ¬cond1_1 (grid1.coords t) → (cfg1.win 4).flush t = false := by decide +kernel
/-- The same at the middle points. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At the last point output 4 is live: the body stores the accumulator into it. -/
theorem liveAt1_4_C : ∀ t : Fin cfg1.N, ¬cond1_0 (grid1.coords t) → cond1_1 (grid1.coords t) → cfg1.idle 4 (grid1.coords t) = false := by decide +kernel
/-- At the first point output 5 is idle: the body stores nothing into it, -/
theorem idleAt1_5_A : ∀ t : Fin cfg1.N, cond1_0 (grid1.coords t) → ¬cond1_1 (grid1.coords t) → cfg1.idle 5 (grid1.coords t) = true := by decide +kernel
/-- and the pipeline does not write its block back. -/
theorem noFlush1_5_A : ∀ t : Fin cfg1.N, cond1_0 (grid1.coords t) → ¬cond1_1 (grid1.coords t) → (cfg1.win 5).flush t = false := by decide +kernel
/-- The same at the middle points. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At the last point output 5 is live: the body stores the accumulator into it. -/
theorem liveAt1_5_C : ∀ t : Fin cfg1.N, ¬cond1_0 (grid1.coords t) → cond1_1 (grid1.coords t) → cfg1.idle 5 (grid1.coords t) = false := by decide +kernel
/-- At the first point output 6 is idle: the body stores nothing into it, -/
theorem idleAt1_6_A : ∀ t : Fin cfg1.N, cond1_0 (grid1.coords t) → ¬cond1_1 (grid1.coords t) → cfg1.idle 6 (grid1.coords t) = true := by decide +kernel
/-- and the pipeline does not write its block back. -/
theorem noFlush1_6_A : ∀ t : Fin cfg1.N, cond1_0 (grid1.coords t) → ¬cond1_1 (grid1.coords t) → (cfg1.win 6).flush t = false := by decide +kernel
/-- The same at the middle points. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At the last point output 6 is live: the body stores the accumulator into it. -/
theorem liveAt1_6_C : ∀ t : Fin cfg1.N, ¬cond1_0 (grid1.coords t) → cond1_1 (grid1.coords t) → cfg1.idle 6 (grid1.coords t) = false := by decide +kernel

/-! ## The staging and scratch memrefs the body is called with -/
/-- The staging buffer of output window 4, as a view: its contents are stated through it. -/
abbrev VO1_4 : View sig .tc .vmem S8x128 .f32 := (Memref.whole cc1_stg4_0 : Memref sig .tc .vmem S8x128 .f32).view
/-- The staging buffer of output window 5, as a view: its contents are stated through it. -/
abbrev VO1_5 : View sig .tc .vmem S8x128 .f32 := (Memref.whole cc1_stg5_0 : Memref sig .tc .vmem S8x128 .f32).view
/-- The staging buffer of output window 6, as a view: its contents are stated through it. -/
abbrev VO1_6 : View sig .tc .vmem S8x128 .f32 := (Memref.whole cc1_stg6_0 : Memref sig .tc .vmem S8x128 .f32).view
abbrev ms1_0 (t : Fin cfg1.N) : Memref sig .tc .vmem S512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x128 .f32 := win1_6.stage (cfg1.slots t 6)
abbrev hs1_6 (t : Fin cfg1.N) : (ms1_6 t).IsWhole := hstage1_6 ((cfg1.slots t 6).cast nbuf1_6)
/-- Scratch accumulator 0: a whole scoped buffer of the kernel's own, carried from point to point. -/
abbrev scM1_0 : Memref sig .tc .vmem S8x128 .f32 := Memref.whole cc1_scratch0
abbrev VS1_0 : View sig .tc .vmem S8x128 .f32 := scM1_0.view
/-- Scratch accumulator 1: a whole scoped buffer of the kernel's own, carried from point to point. -/
abbrev scM1_1 : Memref sig .tc .vmem S8x128 .f32 := Memref.whole cc1_scratch1
abbrev VS1_1 : View sig .tc .vmem S8x128 .f32 := scM1_1.view
/-- Scratch accumulator 2: a whole scoped buffer of the kernel's own, carried from point to point. -/
abbrev scM1_2 : Memref sig .tc .vmem S8x128 .f32 := Memref.whole cc1_scratch2
abbrev VS1_2 : View sig .tc .vmem S8x128 .f32 := scM1_2.view

/-- The region's invariant with the three accumulators as memrefs owned at some contents; the other scoped
    buffers — the staging buffers of the first pallas_call, which this region never touches — ride along, each at
    some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.Bits.MmdRunA.lean ====
/- Region 1 of @main, the body's run at the first point: the accumulators are zeroed, then the block's three sums added. -/
import proofs.«125475_j62268435857718_1_alg».proof.Proof.Bits.MmdRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref and in each scratch accumulator, as pieces (last
    first), at the first point: the accumulators are zeroed, then the block's three sums added; WITH the proof that on whole memrefs — the four inputs' at their
    contents, the three outputs' (idle here) at contents handed back untouched, the three accumulators' at anything — the body runs to the
    continuation holding the inputs' as they were and each accumulator with its pieces written. The
    printed functions are their skeletons; each `scf.if` is decided by the case's hypotheses; the pieces are the
    witness the run finds. -/
noncomputable def kernelRun1_A (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) :
    Σ' (L4 : List (View.Piece (Elt F) S8x128 .f32)) (L5 : List (View.Piece (Elt F) S8x128 .f32)) (L6 : List (View.Piece (Elt F) S8x128 .f32)) (LS0 : List (View.Piece (Elt F) S8x128 .f32)) (LS1 : List (View.Piece (Elt F) S8x128 .f32)), { LS2 : List (View.Piece (Elt F) S8x128 .f32) //
      ∀ (xi4 : Vec F S8x128 .f32) (xi5 : Vec F S8x128 .f32) (xi6 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__mmd_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc1__mmd_kernel_eq_skeleton]; unfold cc1__mmd_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.Bits.MmdRunB.lean ====
/- Region 1 of @main, the body's run at a middle point: the block's three sums are added to the accumulators. -/
import proofs.«125475_j62268435857718_1_alg».proof.Proof.Bits.MmdRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref and in each scratch accumulator, as pieces (last
    first), at a middle point: the block's three sums are added to the accumulators; WITH the proof that on whole memrefs — the four inputs' at their
    contents, the three outputs' (idle here) at contents handed back untouched, the three accumulators' at what the point before left — the body runs to the
    continuation holding the inputs' as they were and each accumulator with its pieces written. The
    printed functions are their skeletons; each `scf.if` is decided by the case's hypotheses; the pieces are the
    witness the run finds. -/
noncomputable def kernelRun1_B (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    Σ' (L4 : List (View.Piece (Elt F) S8x128 .f32)) (L5 : List (View.Piece (Elt F) S8x128 .f32)) (L6 : List (View.Piece (Elt F) S8x128 .f32)) (LS0 : List (View.Piece (Elt F) S8x128 .f32)) (LS1 : List (View.Piece (Elt F) S8x128 .f32)), { LS2 : List (View.Piece (Elt F) S8x128 .f32) //
      ∀ (xi4 : Vec F S8x128 .f32) (xi5 : Vec F S8x128 .f32) (xi6 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__mmd_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc1__mmd_kernel_eq_skeleton]; unfold cc1__mmd_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.Bits.MmdRunC.lean ====
/- Region 1 of @main, the body's run at the last point: the block's three sums are added, then the accumulators copied into the three outputs. -/
import proofs.«125475_j62268435857718_1_alg».proof.Proof.Bits.MmdRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref and in each scratch accumulator, as pieces (last
    first), at the last point: the block's three sums are added, then the accumulators copied into the three outputs; WITH the proof that on whole memrefs — the four inputs' at their
    contents, the three outputs' at anything, the three accumulators' at what the point before left — the body runs to the
    continuation holding the inputs' as they were, each output's buffer with its pieces written and each accumulator with its pieces written. The
    printed functions are their skeletons; each `scf.if` is decided by the case's hypotheses; the pieces are the
    witness the run finds. -/
noncomputable def kernelRun1_C (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    Σ' (L4 : List (View.Piece (Elt F) S8x128 .f32)) (L5 : List (View.Piece (Elt F) S8x128 .f32)) (L6 : List (View.Piece (Elt F) S8x128 .f32)) (LS0 : List (View.Piece (Elt F) S8x128 .f32)) (LS1 : List (View.Piece (Elt F) S8x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__mmd_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc1__mmd_kernel_eq_skeleton]; unfold cc1__mmd_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.Kernel.Hand

end
-- ==== Proof.Bits.SharedArrays.lean ====
/-
  The second call hands each of two arrays to two of its input windows (a row window and a column window). The five
  distinct buffers behind its seven windows, each held whole at the full share, are the same resource as the seven
  per-window holdings of the call's proof data, once each twice-read buffer is dealt to its two windows by the two
  halves of the full share; and conversely the halves join back.
-/
import proofs.«125475_j62268435857718_1_alg».proof.Proof.Gen.Kernel.Launch
import proofs.«125475_j62268435857718_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares at which the second call's proof data hold the arrays behind its input windows: the row window and the
    column window of one array take the two halves of the full share. -/
def q1 : Fin cfg1.W → PosShare TreeShare := fun
  | ⟨0, _⟩ => fullShare.left | ⟨1, _⟩ => fullShare.left | ⟨2, _⟩ => fullShare.right | ⟨3, _⟩ => fullShare.right
  | ⟨4, _⟩ => fullShare | ⟨5, _⟩ => fullShare | ⟨6, _⟩ => fullShare
  | ⟨_ + 7, h⟩ => absurd h (Nat.not_lt.2 (Nat.le_add_left _ _))

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v2_0) ↦{fullShare} V main_v2_0)
          ∗ (((c : Thread nD τ).loc main_v3_0) ↦{fullShare} V main_v3_0) ∗ (((c : Thread nD τ).loc main_v3_1) ↦{fullShare} V main_v3_1)
          ∗ (((c : Thread nD τ).loc main_v3_2) ↦{fullShare} V main_v3_2)) := by
  unfold Pipeline.arrBufs
  exact bigSep_eq_bigSepL_of_eq [main_arg1, main_v2_0, main_v3_0, main_v3_1, main_v3_2] (by decide) (by decide) _

section
variable (c : Dev nD) (d : Dat τ (Elt F) Unit ℕ (UR sig nD τ) ℕ cfg1 c) (hq : d.q = q1)
include hq
theorem share1_0 : d.share 0 = fullShare.left := by unfold Dat.share; rw [hq]; rfl
theorem share1_1 : d.share 1 = fullShare.left := by unfold Dat.share; rw [hq]; rfl
theorem share1_2 : d.share 2 = fullShare.right := by unfold Dat.share; rw [hq]; rfl
theorem share1_3 : d.share 3 = fullShare.right := by unfold Dat.share; rw [hq]; rfl
theorem share1_4 : d.share 4 = fullShare := by unfold Dat.share; rw [hq]; rfl
theorem share1_5 : d.share 5 = fullShare := by unfold Dat.share; rw [hq]; rfl
theorem share1_6 : d.share 6 = fullShare := by unfold Dat.share; rw [hq]; rfl

/-- The second call's arrays, window by window, each a whole buffer at its share. -/
theorem arrays1_eq (G : (w : Fin cfg1.W) → Buf (Elt F) ((cfg1.win w).arr.view.loc (c : Thread nD τ))) :
    (d.arrays G : sProp 𝕄) = iprop(
      (((c : Thread nD τ).loc main_arg1) ↦{fullShare.left} G 0) ∗ (((c : Thread nD τ).loc main_v2_0) ↦{fullShare.left} G 1)
      ∗ (((c : Thread nD τ).loc main_arg1) ↦{fullShare.right} G 2) ∗ (((c : Thread nD τ).loc main_v2_0) ↦{fullShare.right} G 3)
      ∗ (((c : Thread nD τ).loc main_v3_0) ↦{fullShare} G 4) ∗ (((c : Thread nD τ).loc main_v3_1) ↦{fullShare} G 5)
      ∗ (((c : Thread nD τ).loc main_v3_2) ↦{fullShare} G 6)) := by
  unfold Dat.arrays
  rw [bigSep_W1, share1_0 c d hq, share1_1 c d hq, share1_2 c d hq, share1_3 c d hq, share1_4 c d hq, share1_5 c d hq, share1_6 c d hq,
    (arr_whole1 0).set_eq_univ, (arr_whole1 1).set_eq_univ,
    (arr_whole1 4).set_eq_univ, (arr_whole1 5).set_eq_univ, (arr_whole1 6).set_eq_univ]

/-- ENTRY: the five distinct buffers behind the second call's seven windows, each whole at the full share, are the
    proof data's arrays — the two buffers read through a row window and a column window dealt to them by halves. -/
theorem arrays1_split (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ d.arrays G := by
  rw [arrBufs1_eq, arrays1_eq c d hq, hG 0, hG 1, hG 2, hG 3, hG 4, hG 5, hG 6]
  iintro ⟨Ha, Hl, H4, H5, H6⟩
  have ha : ((((c : Thread nD τ).loc main_arg1) ↦{fullShare} V main_arg1) : sProp 𝕄)
      ⊢ iprop((((c : Thread nD τ).loc main_arg1) ↦{fullShare.left} V main_arg1) ∗ (((c : Thread nD τ).loc main_arg1) ↦{fullShare.right} V main_arg1)) :=
    (pointsTo_share (PosShare.mem_left_op_right fullShare)).1
  have hl : ((((c : Thread nD τ).loc main_v2_0) ↦{fullShare} V main_v2_0) : sProp 𝕄)
      ⊢ iprop((((c : Thread nD τ).loc main_v2_0) ↦{fullShare.left} V main_v2_0) ∗ (((c : Thread nD τ).loc main_v2_0) ↦{fullShare.right} V main_v2_0)) :=
    (pointsTo_share (PosShare.mem_left_op_right fullShare)).1
  ihave Ha2 := ha $$ Ha
  ihave Hl2 := hl $$ Hl
  icases Ha2 with ⟨Ha0, Ha1⟩
  icases Hl2 with ⟨Hl0, Hl1⟩
  isplitl [Ha0]; · iexact Ha0
  isplitl [Hl0]; · iexact Hl0
  isplitl [Ha1]; · iexact Ha1
  isplitl [Hl1]; · iexact Hl1
  isplitl [H4]; · iexact H4
  isplitl [H5]; · iexact H5
  iexact H6

/-- EXIT: the converse — the halves joined back into whole buffers. -/
theorem arrays1_join (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    d.arrays G ⊢ (Pipeline.arrBufs (Ix := Unit) (Name := ℕ) (U := UR sig nD τ) (Lvl := ℕ) spec1 c V : sProp 𝕄) := by
  rw [arrBufs1_eq, arrays1_eq c d hq, hG 0, hG 1, hG 2, hG 3, hG 4, hG 5, hG 6]
  iintro ⟨Ha0, Hl0, Ha1, Hl1, H4, H5, H6⟩
  have ha : iprop((((c : Thread nD τ).loc main_arg1) ↦{fullShare.left} V main_arg1) ∗ (((c : Thread nD τ).loc main_arg1) ↦{fullShare.right} V main_arg1))
      ⊢ ((((c : Thread nD τ).loc main_arg1) ↦{fullShare} V main_arg1) : sProp 𝕄) :=
    (pointsTo_share (PosShare.mem_left_op_right fullShare)).2
  have hl : iprop((((c : Thread nD τ).loc main_v2_0) ↦{fullShare.left} V main_v2_0) ∗ (((c : Thread nD τ).loc main_v2_0) ↦{fullShare.right} V main_v2_0))
      ⊢ ((((c : Thread nD τ).loc main_v2_0) ↦{fullShare} V main_v2_0) : sProp 𝕄) :=
    (pointsTo_share (PosShare.mem_left_op_right fullShare)).2
  isplitl [Ha0 Ha1]
  · iapply ha
    isplitl [Ha0]; · iexact Ha0
    iexact Ha1
  isplitl [Hl0 Hl1]
  · iapply hl
    isplitl [Hl0]; · iexact Hl0
    iexact Hl1
  isplitl [H4]; · iexact H4
  isplitl [H5]; · iexact H5
  iexact H6
end

end Cert.Kernel.Hand

end
-- ==== Proof.Bits.Mmd.lean ====
/- Region 1 of @main — the tiled Gaussian-kernel sums — at the entry contents `V`: what the three output
   staging buffers and the three scratch accumulators hold after each of the 256 grid points (`outsAt1`, by
   recursion on the point over the pieces each case's run found), the region's invariant with the accumulators at
   those contents, the pipeline's proof data, and the body obligation at a generic point. Then each accumulator's
   new contents in each case as the skeleton's payload of the four input blocks and the old contents. -/
import proofs.«125475_j62268435857718_1_alg».proof.Proof.Bits.MmdRunC
import proofs.«125475_j62268435857718_1_alg».proof.Proof.Bits.SharedArrays
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the outputs and the accumulators -/

/-- Case A stores nothing into output 4 (idle there, not written back): no pieces — a placeholder nothing consults. -/
def out1_A_4 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) : Vec F S8x128 .f32 :=
  VO1_4.read (Elt F) (VO1_4.writes (Elt F) VO1_4.junk (kernelRun1_A c i arg2 harg2 arg3 harg3 arg4 harg4 arg5 harg5 arg6 harg6 arg7 harg7 arg8 harg8 arg9 harg9 arg10 harg10 arg11 harg11 hc0 hc1 x0 x1 x2 x3).1)

/-- Case A stores nothing into output 5 (idle there, not written back): no pieces — a placeholder nothing consults. -/
def out1_A_5 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) : Vec F S8x128 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 arg11 harg11 hc0 hc1 x0 x1 x2 x3).2.1)

/-- Case A stores nothing into output 6 (idle there, not written back): no pieces — a placeholder nothing consults. -/
def out1_A_6 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) : Vec F S8x128 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 hc1 x0 x1 x2 x3).2.2.1)

/-- Case A's stores into accumulator 0 cover it (each is a store of the whole buffer). -/
theorem scover1_A_0 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) (y : S8x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3).2.2.2.1 S8x128.size (by sl_kernel_rfl) y

/-- What case A leaves in accumulator 0: its pieces read back over junk. -/
def sout1_A_0 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) : Vec F S8x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3).2.2.2.1)

/-- Case A's stores into accumulator 1 cover it (each is a store of the whole buffer). -/
theorem scover1_A_1 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) (y : S8x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3).2.2.2.2.1 S8x128.size (by sl_kernel_rfl) y

/-- What case A leaves in accumulator 1: its pieces read back over junk. -/
def sout1_A_1 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) : Vec F S8x128 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3).2.2.2.2.1)

/-- Case A's stores into accumulator 2 cover it (each is a store of the whole buffer). -/
theorem scover1_A_2 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) (y : S8x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3).2.2.2.2.2.1 S8x128.size (by sl_kernel_rfl) y

/-- What case A leaves in accumulator 2: its pieces read back over junk. -/
def sout1_A_2 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) : Vec F S8x128 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 hc0 hc1 x0 x1 x2 x3).2.2.2.2.2.1)

/-- Case B stores nothing into output 4 (idle there, not written back): no pieces — a placeholder nothing consults. -/
def out1_B_4 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VO1_4.read (Elt F) (VO1_4.writes (Elt F) VO1_4.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).1)

/-- Case B stores nothing into output 5 (idle there, not written back): no pieces — a placeholder nothing consults. -/
def out1_B_5 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.1)

/-- Case B stores nothing into output 6 (idle there, not written back): no pieces — a placeholder nothing consults. -/
def out1_B_6 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case B's stores into accumulator 0 cover it (each is a store of the whole buffer). -/
theorem scover1_B_0 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.1 S8x128.size (by sl_kernel_rfl) y

/-- What case B leaves in accumulator 0: its pieces read back over junk. -/
def sout1_B_0 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case B's stores into accumulator 1 cover it (each is a store of the whole buffer). -/
theorem scover1_B_1 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S8x128.size (by sl_kernel_rfl) y

/-- What case B leaves in accumulator 1: its pieces read back over junk. -/
def sout1_B_1 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case B's stores into accumulator 2 cover it (each is a store of the whole buffer). -/
theorem scover1_B_2 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S8x128.size (by sl_kernel_rfl) y

/-- What case B leaves in accumulator 2: its pieces read back over junk. -/
def sout1_B_2 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-- Case C's one store into output 4 covers its block. -/
theorem cover1_C_4 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).1 S8x128.size (by sl_kernel_rfl) y

/-- What case C leaves in output 4's staging buffer: its pieces read back over junk. -/
def out1_C_4 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VO1_4.read (Elt F) (VO1_4.writes (Elt F) VO1_4.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).1)

/-- Case C's one store into output 5 covers its block. -/
theorem cover1_C_5 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.1 S8x128.size (by sl_kernel_rfl) y

/-- What case C leaves in output 5's staging buffer: its pieces read back over junk. -/
def out1_C_5 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.1)

/-- Case C's one store into output 6 covers its block. -/
theorem cover1_C_6 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.1 S8x128.size (by sl_kernel_rfl) y

/-- What case C leaves in output 6's staging buffer: its pieces read back over junk. -/
def out1_C_6 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case C's stores into accumulator 0 cover it (each is a store of the whole buffer). -/
theorem scover1_C_0 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.1 S8x128.size (by sl_kernel_rfl) y

/-- What case C leaves in accumulator 0: its pieces read back over junk. -/
def sout1_C_0 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case C's stores into accumulator 1 cover it (each is a store of the whole buffer). -/
theorem scover1_C_1 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S8x128.size (by sl_kernel_rfl) y

/-- What case C leaves in accumulator 1: its pieces read back over junk. -/
def sout1_C_1 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case C's stores into accumulator 2 cover it (each is a store of the whole buffer). -/
theorem scover1_C_2 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S8x128.size (by sl_kernel_rfl) y

/-- What case C leaves in accumulator 2: its pieces read back over junk. -/
def sout1_C_2 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

section Region1

-- the TensorCore's buffer contents when the region is entered
variable (V : (c : Dev nD) → (b : Ref sig .tc) → Buf (Elt F) ((c : Thread nD τ).loc b))

/-! ## What the outputs and the accumulators hold after each point -/

/-- THE ACCUMULATION. What the three outputs' staging buffers and the three scratch accumulators hold after the body
    at position `n` (a tuple: outputs 4, 5, 6, then accumulators 0, 1, 2): the case the closed forms select at `n`
    — the first point, the last point, or a point between —, run at the point's memrefs and input blocks, the
    accumulators at what the point before left. -/
def outsAt1 (c : Dev nD) : (n : ℕ) → n < cfg1.N → Vec F S8x128 .f32 × Vec F S8x128 .f32 × Vec F S8x128 .f32 × Vec F S8x128 .f32 × Vec F S8x128 .f32 × Vec F S8x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
        out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
        out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
        sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : n + 1 = 0 then
      False.elim (Nat.succ_ne_zero n h0)
    else
      if h1 : n + 1 = 255 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2)

/-- `outsAt1` at the first point: case A's contents. -/
theorem outsAt1_A (c : Dev nD) (t : Fin cfg1.N) (h0 : t.val = 0) (h1 : ¬t.val = 255) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
        out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
        out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
        sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
        sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
        sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- `outsAt1` at a middle point: case B's contents, over what the point before left in the accumulators. -/
theorem outsAt1_B (c : Dev nD) (t : Fin cfg1.N) (h0 : ¬t.val = 0) (h1 : ¬t.val = 255) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact absurd rfl h0
  | succ n => exact (dif_neg h0).trans ((dif_neg h1).trans rfl)

/-- `outsAt1` at the last point: case C's contents, over what the point before left in the accumulators. -/
theorem outsAt1_C (c : Dev nD) (t : Fin cfg1.N) (h0 : ¬t.val = 0) (h1 : t.val = 255) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact absurd rfl h0
  | succ n => exact (dif_neg h0).trans ((dif_pos h1).trans rfl)

/-- The region's invariant before position `n`: before the first point the class's (every scoped buffer at
    anything); afterwards the same with each accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.2.2.1) ∗ owns (c : Thread nD τ) scM1_1 fullShare ((outsAt1 V c n hn).2.2.2.2.1) ∗ owns (c : Thread nD τ) scM1_2 fullShare ((outsAt1 V c n hn).2.2.2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.2.2.1) ∗ owns (c : Thread nD τ) scM1_1 fullShare ((outsAt1 V c n hn).2.2.2.2.1) ∗ owns (c : Thread nD τ) scM1_2 fullShare ((outsAt1 V c n hn).2.2.2.2.2)) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2.2.2.1) ∗ owns (c : Thread nD τ) scM1_1 fullShare ((outsAt1 V c (n - 1) (by omega)).2.2.2.2.1) ∗ owns (c : Thread nD τ) scM1_2 fullShare ((outsAt1 V c (n - 1) (by omega)).2.2.2.2.2)) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the outputs' at `outsAt1`; the invariant `PhiS1`; nothing owed; the
    two arrays that two windows read are held half by each of their windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q := q1
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms say which case the point is in;
    the invariant hands the body the accumulators at what the point before left (at anything at the first point)
    and takes them back at this point's contents; the other scoped buffers, the generator register and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  by_cases h0 : t.val = 0
  · by_cases h1 : t.val = 255
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1 sout1_A_2; (try dsimp only)
      rw [PhiS1_castSucc V c t, PhiS1_zero V c _ _ h0, PhiA1_eq]
      iintro ⟨⟨⟨Hr0, Hr1, Hr2, Hr3, Hr4, Hr5, Hr6, Hr7, Hr8, Hr9, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [Hr0 Hr1 Hr2 Hr3 Hr4 Hr5 Hr6 Hr7 Hr8 Hr9 HS0 HS1 HS2 Hg]
      · isplitl [Hr0 Hr1 Hr2 Hr3 Hr4 Hr5 Hr6 Hr7 Hr8 Hr9 HS0 HS1 HS2]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

  · by_cases h1 : t.val = 255
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_4 out1_C_5 out1_C_6 sout1_C_0 sout1_C_1 sout1_C_2; (try dsimp only)
      rw [PhiS1_castSucc V c t, PhiS1_pos V c _ _ h0]
      iintro ⟨⟨⟨Hr0, Hr1, Hr2, Hr3, Hr4, Hr5, Hr6, Hr7, Hr8, Hr9, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%es0, HS0⟩, ⟨%es1, HS1⟩, ⟨%es2, HS2⟩⟩
      isplitl [Hr0 Hr1 Hr2 Hr3 Hr4 Hr5 Hr6 Hr7 Hr8 Hr9 HS0 HS1 HS2 Hg]
      · isplitl [Hr0 Hr1 Hr2 Hr3 Hr4 Hr5 Hr6 Hr7 Hr8 Hr9 HS0 HS1 HS2]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _ _)

    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1 sout1_B_2; (try dsimp only)
      rw [PhiS1_castSucc V c t, PhiS1_pos V c _ _ h0]
      iintro ⟨⟨⟨Hr0, Hr1, Hr2, Hr3, Hr4, Hr5, Hr6, Hr7, Hr8, Hr9, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [Hr0 Hr1 Hr2 Hr3 Hr4 Hr5 Hr6 Hr7 Hr8 Hr9 HS0 HS1 HS2 Hg]
      · isplitl [Hr0 Hr1 Hr2 Hr3 Hr4 Hr5 Hr6 Hr7 Hr8 Hr9 HS0 HS1 HS2]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, Hr6, Hr7, Hr8, Hr9, HS0, HS1, HS2⟩, Hg⟩
  isplitl [Hr0 Hr1 Hr2 Hr3 Hr4 Hr5 Hr6 Hr7 Hr8 Hr9 HS0 HS1 HS2]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Region1

end Cert.Kernel.Hand

end
-- ==== Proof.Bits.WholeRun.lean ====
/-
  The whole run of the entry computation: two reshapes of the bias vectors, the encoder/decoder call, the
  pairwise-kernel-sum call, and sixteen scalar operations. The contents of every unscoped buffer are followed from
  the launch through each of the four items; each call is entered by splitting its arrays out of the unscoped buffers
  and left by putting them back at what its write-backs leave. The second call reads two arrays through two windows
  each, so those two buffers are dealt to their windows by halves of the full share.
-/
import proofs.«125475_j62268435857718_1_alg».proof.Proof.Bits.EncDec
import proofs.«125475_j62268435857718_1_alg».proof.Proof.Bits.Mmd
import proofs.«125475_j62268435857718_1_alg».proof.Proof.Bits.SharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => (s₀ m ρ).mem ((c : Dev nD), b)
/-- After the two reshapes of the bias vectors: the first call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its three output arrays at what its write-backs leave, every other buffer as entered
    (its four input windows read two arrays and write none). -/
def W3 (c : Dev nD) : Valuation τ sig (Elt F) :=
  Function.update (Function.update (Function.update (W2 m ρ c)
    (Proc.devRef .tc main_v3_0) ((dat1 (V2 m ρ) c).arrAt 4 cfg1.N))
    (Proc.devRef .tc main_v3_1) ((dat1 (V2 m ρ) c).arrAt 5 cfg1.N))
    (Proc.devRef .tc main_v3_2) ((dat1 (V2 m ρ) c).arrAt 6 cfg1.N)
abbrev V3 : (c : Dev nD) → (b : Ref sig .tc) → Buf (Elt F) ((c : Thread nD τ).loc b) := fun c b => W3 m ρ c b
theorem W3_out4 (c : Dev nD) : W3 m ρ c (Proc.devRef .tc main_v3_0) = (dat1 (V2 m ρ) c).arrAt 4 cfg1.N := by
  unfold W3
  rw [Function.update_of_ne (StableHlo.devRef_ne_of_ne (by decide)), Function.update_of_ne (StableHlo.devRef_ne_of_ne (by decide)), Function.update_self]
theorem W3_out5 (c : Dev nD) : W3 m ρ c (Proc.devRef .tc main_v3_1) = (dat1 (V2 m ρ) c).arrAt 5 cfg1.N := by
  unfold W3
  rw [Function.update_of_ne (StableHlo.devRef_ne_of_ne (by decide)), Function.update_self]
theorem W3_out6 (c : Dev nD) : W3 m ρ c (Proc.devRef .tc main_v3_2) = (dat1 (V2 m ρ) c).arrAt 6 cfg1.N := by
  unfold W3
  rw [Function.update_self]
theorem W3_of_ne (c : Dev nD) (b : Ref sig .tc) (h0 : b ≠ main_v3_0) (h1 : b ≠ main_v3_1) (h2 : b ≠ main_v3_2) :
    W3 m ρ c (Proc.devRef .tc b) = W2 m ρ c (Proc.devRef .tc b) := by
  unfold W3
  rw [Function.update_of_ne (StableHlo.devRef_ne_of_ne h2), Function.update_of_ne (StableHlo.devRef_ne_of_ne h1),
    Function.update_of_ne (StableHlo.devRef_ne_of_ne h0)]
/-- At the second call's exit each window's array holds what the call leaves. -/
theorem hF1 (c : Dev nD) : ∀ w : Fin cfg1.W, (dat1 (V2 m ρ) c).arrAt w cfg1.N = V3 m ρ c (Pipeline.arrRef spec1 w)
  | ⟨0, _⟩ => (((dat1 (V2 m ρ) c).arrAt_in 0 rfl _).trans (A_eq1 (V2 m ρ) c 0)).trans (W3_of_ne m ρ c main_arg1 (by decide) (by decide) (by decide)).symm
  | ⟨1, _⟩ => (((dat1 (V2 m ρ) c).arrAt_in 1 rfl _).trans (A_eq1 (V2 m ρ) c 1)).trans (W3_of_ne m ρ c main_v2_0 (by decide) (by decide) (by decide)).symm
  | ⟨2, _⟩ => (((dat1 (V2 m ρ) c).arrAt_in 2 rfl _).trans (A_eq1 (V2 m ρ) c 2)).trans (W3_of_ne m ρ c main_arg1 (by decide) (by decide) (by decide)).symm
  | ⟨3, _⟩ => (((dat1 (V2 m ρ) c).arrAt_in 3 rfl _).trans (A_eq1 (V2 m ρ) c 3)).trans (W3_of_ne m ρ c main_v2_0 (by decide) (by decide) (by decide)).symm
  | ⟨4, _⟩ => (W3_out4 m ρ c).symm
  | ⟨5, _⟩ => (W3_out5 m ρ c).symm
  | ⟨6, _⟩ => (W3_out6 m ρ c).symm
  | ⟨_ + 7, h⟩ => absurd h (Nat.not_lt.2 (Nat.le_add_left _ _))
theorem hrest1 (c : Dev nD) : ∀ b, b ∉ Finset.univ.image (Pipeline.arrRef spec1) → V3 m ρ c b = V2 m ρ c b :=
  fun b hb => W3_of_ne m ρ c b
    (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))
/-- After the sixteen scalar operations that follow the second call. -/
abbrev W4 : Dev nD → Valuation τ sig (Elt F) := fun c => StableHlo.after hostOps2 (W3 m ρ c)

/-! ## The proof data family and the thread state -/

/-- The prefetched tables' admissible contents: neither call has a table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
/-- A stretch of host operations over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside the core owing nothing: every unscoped buffer at the last contents, the generator
    register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The first call: entered from every unscoped buffer at `W1`, left at `W2`. Its seven arrays are distinct buffers. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`. Two of the five buffers behind its
    windows are read through two windows each: they are dealt to the windows by halves at entry and joined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V2 m ρ c)) := by
      rw [← Pipeline.unscopedBufs_held c (W2 m ρ c), Pipeline.unscopedBufs_split₀ cfgs 1 winFacts₀1.arr_unscoped c (V2 m ρ c)]
      exact sep_mono (arrays1_split c (dat1 (V2 m ρ) c) rfl (V2 m ρ c) _ (fun w => A_eq1 (V2 m ρ) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (StableHlo.held (c : Thread nD τ) (Pipeline.ucRefs τ sig) (W3 m ρ c) : sProp 𝕄) := by
      rw [← Pipeline.unscopedBufs_held c (W3 m ρ c), Pipeline.unscopedBufs_split₀ cfgs 1 winFacts₀1.arr_unscoped c (V3 m ρ c)]
      refine sep_mono (arrays1_join c (dat1 (V2 m ρ) c) rfl (V3 m ρ c) _ (hF1 m ρ c)) (Entails.of_eq ?_)
      unfold Pipeline.unscopedRest
      exact bigSep_congr fun b hb => by rw [hrest1 m ρ c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE WHOLE RUN, at any float instance: from any memory with zero counters every weakly fair execution of @main on
    the TensorCores terminates, nothing faulting, and every final state holds every unscoped buffer at the last
    boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := by
          show StableHlo.after hostOps2 _ (Proc.devRef .tc main_arg0) = _
          after_results
    _ = W2 m ρ c (Proc.devRef .tc main_arg0) := W3_of_ne m ρ c main_arg0 (by decide) (by decide) (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := by
          show StableHlo.after hostOps0 _ (Proc.devRef .tc main_arg0) = _
          after_results

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := by
          show StableHlo.after hostOps2 _ (Proc.devRef .tc main_arg1) = _
          after_results
    _ = W2 m ρ c (Proc.devRef .tc main_arg1) := W3_of_ne m ρ c main_arg1 (by decide) (by decide) (by decide)
    _ = W1 m ρ c (Proc.devRef .tc main_arg1) := W2_of_ne m ρ c main_arg1 (by decide)
    _ = m ((c : Thread nD τ).loc main_arg1) := by
          show StableHlo.after hostOps0 _ (Proc.devRef .tc main_arg1) = _
          after_results

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := by
          show StableHlo.after hostOps2 _ (Proc.devRef .tc main_arg2) = _
          after_results
    _ = W2 m ρ c (Proc.devRef .tc main_arg2) := W3_of_ne m ρ c main_arg2 (by decide) (by decide) (by decide)
    _ = W1 m ρ c (Proc.devRef .tc main_arg2) := (W2_arr m ρ c 1).trans (((dat0 (V1 m ρ) c).arrAt_in 1 rfl _).trans (A_eq0 (V1 m ρ) c 1))
    _ = m ((c : Thread nD τ).loc main_arg2) := by
          show StableHlo.after hostOps0 _ (Proc.devRef .tc main_arg2) = _
          after_results

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := by
          show StableHlo.after hostOps2 _ (Proc.devRef .tc main_arg3) = _
          after_results
    _ = W2 m ρ c (Proc.devRef .tc main_arg3) := W3_of_ne m ρ c main_arg3 (by decide) (by decide) (by decide)
    _ = W1 m ρ c (Proc.devRef .tc main_arg3) := W2_of_ne m ρ c main_arg3 (by decide)
    _ = m ((c : Thread nD τ).loc main_arg3) := by
          show StableHlo.after hostOps0 _ (Proc.devRef .tc main_arg3) = _
          after_results

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by
          show StableHlo.after hostOps2 _ (Proc.devRef .tc main_arg4) = _
          after_results
    _ = W2 m ρ c (Proc.devRef .tc main_arg4) := W3_of_ne m ρ c main_arg4 (by decide) (by decide) (by decide)
    _ = W1 m ρ c (Proc.devRef .tc main_arg4) := (W2_arr m ρ c 3).trans (((dat0 (V1 m ρ) c).arrAt_in 3 rfl _).trans (A_eq0 (V1 m ρ) c 3))
    _ = m ((c : Thread nD τ).loc main_arg4) := by
          show StableHlo.after hostOps0 _ (Proc.devRef .tc main_arg4) = _
          after_results

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by
          show StableHlo.after hostOps2 _ (Proc.devRef .tc main_arg5) = _
          after_results
    _ = W2 m ρ c (Proc.devRef .tc main_arg5) := W3_of_ne m ρ c main_arg5 (by decide) (by decide) (by decide)
    _ = W1 m ρ c (Proc.devRef .tc main_arg5) := W2_of_ne m ρ c main_arg5 (by decide)
    _ = m ((c : Thread nD τ).loc main_arg5) := by
          show StableHlo.after hostOps0 _ (Proc.devRef .tc main_arg5) = _
          after_results

/-- THE FRAME, at any float instance: every weakly fair execution of @main terminates, nothing faulting, and the six
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Hand

end
-- ==== Proof.Ideal.EncDecBody.lean ====
/- Region 0 (the fused encoder/decoder pallas_call): the body's accesses, what the body leaves in each output
   window's staging buffer as a function of the input blocks, and the body's triple on whole staging memrefs.
   Generic in the float instance. -/
import proofs.«125475_j62268435857718_1_alg».proof.Proof.Gen.KernelIdeal.Launch
import proofs.«125475_j62268435857718_1_alg».proof.Proof.Gen.KernelIdeal.Skeleton
import proofs.«125475_j62268435857718_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store is through the whole-block rectangle at offset zero -/

/-- The offsets of every access of the body are zero on both axes. -/
theorem hz0 : (![0, 0] : Fin 2 → Nat) = fun _ => 0 := funext fun a => by fin_cases a <;> rfl

abbrev r0_0 : Rect S1024x1024 := Rect.unit (s := S1024x1024) ![0, 0] S1024x1024.size inb_S1024x1024_S1024x1024_0_0
abbrev r0_1 : Rect S1024x64 := Rect.unit (s := S1024x64) ![0, 0] S1024x64.size inb_S1024x64_S1024x64_0_0
abbrev r0_2 : Rect S1x64 := Rect.unit (s := S1x64) ![0, 0] S1x64.size inb_S1x64_S1x64_0_0
abbrev r0_3 : Rect S64x1024 := Rect.unit (s := S64x1024) ![0, 0] S64x1024.size inb_S64x1024_S64x1024_0_0
abbrev r0_4 : Rect S1x1024 := Rect.unit (s := S1x1024) ![0, 0] S1x1024.size inb_S1x1024_S1x1024_0_0

/-! ## What the body leaves in each output window's buffer -/

/-- The latent window's staging buffer after the body, from the input windows' blocks: its one store, of the
    encoder payload of the loaded blocks. -/
def out0_5 (x0 : Vec F S1024x1024 .f32) (x1 : Vec F S1024x64 .f32) (x2 : Vec F S1x64 .f32) : Vec F S1024x64 .f32 :=
  View.canon [⟨r0_1, k0_pay1 (View.ld x0 r0_0) (View.ld x1 r0_1) (View.ld x2 r0_2)⟩]

/-- Its one store is through the whole block, so it covers it. -/
theorem cover0_5 (p0 : Vec F S1024x64 .f32) (y : S1024x64.Idx) :
    ∃ pc ∈ ([⟨r0_1, p0⟩] : List (View.Piece (Elt F) S1024x64 .f32)), y ∈ pc.1.set :=
  ⟨_, List.mem_singleton_self _, View.mem_set_unit_zero (S := S1024x64) hz0 inb_S1024x64_S1024x64_0_0 y⟩

/-- The reconstruction window's staging buffer after the body, from the input windows' blocks: its one store, of
    the decoder payload of the loaded blocks. -/
def out0_6 (x0 : Vec F S1024x1024 .f32) (x1 : Vec F S1024x64 .f32) (x2 : Vec F S1x64 .f32) (x3 : Vec F S64x1024 .f32)
    (x4 : Vec F S1x1024 .f32) : Vec F S1024x1024 .f32 :=
  View.canon [⟨r0_0, k0_pay2 (View.ld x0 r0_0) (View.ld x1 r0_1) (View.ld x2 r0_2) (View.ld x3 r0_3) (View.ld x4 r0_4)⟩]

/-- Its one store is through the whole block, so it covers it. -/
theorem cover0_6 (p0 : Vec F S1024x1024 .f32) (y : S1024x1024.Idx) :
    ∃ pc ∈ ([⟨r0_0, p0⟩] : List (View.Piece (Elt F) S1024x1024 .f32)), y ∈ pc.1.set :=
  ⟨_, List.mem_singleton_self _, View.mem_set_unit_zero (S := S1024x1024) hz0 inb_S1024x1024_S1024x1024_0_0 y⟩

/-! ## The value-facing closed forms: one whole-block store of a payload of whole-block loads -/

/-- The latent block the body leaves is the encoder payload of the input blocks. -/
theorem out0_5_eq (x0 : Vec F S1024x1024 .f32) (x1 : Vec F S1024x64 .f32) (x2 : Vec F S1x64 .f32) :
    out0_5 x0 x1 x2 = k0_pay1 x0 x1 x2 := by
  unfold out0_5
  rw [View.canon_unit_zero (S := S1024x64) hz0]
  simp only [View.ld_unit_zero (S := S1024x1024) hz0, View.ld_unit_zero (S := S1024x64) hz0,
    View.ld_unit_zero (S := S1x64) hz0]

/-- The reconstruction block the body leaves is the decoder payload of the input blocks. -/
theorem out0_6_eq (x0 : Vec F S1024x1024 .f32) (x1 : Vec F S1024x64 .f32) (x2 : Vec F S1x64 .f32)
    (x3 : Vec F S64x1024 .f32) (x4 : Vec F S1x1024 .f32) :
    out0_6 x0 x1 x2 x3 x4 = k0_pay2 x0 x1 x2 x3 x4 := by
  unfold out0_6
  rw [View.canon_unit_zero (S := S1024x1024) hz0]
  simp only [View.ld_unit_zero (S := S1024x1024) hz0, View.ld_unit_zero (S := S1024x64) hz0,
    View.ld_unit_zero (S := S1x64) hz0, View.ld_unit_zero (S := S64x1024) hz0, View.ld_unit_zero (S := S1x1024) hz0]

/-! ## The body's triple -/

set_option maxHeartbeats 1000000 in
/-- The kernel body on whole staging memrefs, the inputs' at read contents and the outputs' at anything, runs to
    the continuation holding the inputs' as they were and each output's at its closed form of the inputs'. -/
theorem sound_kernel0 (c : Dev nD) (E : Set ℕ) (i : grid0.Coords)
    (arg1 : Memref sig .tc .vmem S1024x1024 .f32) (harg1 : arg1.IsWhole) (arg2 : Memref sig .tc .vmem S1024x64 .f32) (harg2 : arg2.IsWhole)
    (arg3 : Memref sig .tc .vmem S1x64 .f32) (harg3 : arg3.IsWhole) (arg4 : Memref sig .tc .vmem S64x1024 .f32) (harg4 : arg4.IsWhole)
    (arg5 : Memref sig .tc .vmem S1x1024 .f32) (harg5 : arg5.IsWhole) (arg6 : Memref sig .tc .vmem S1024x64 .f32) (harg6 : arg6.IsWhole)
    (arg7 : Memref sig .tc .vmem S1024x1024 .f32) (harg7 : arg7.IsWhole)
    (x0 : Vec F S1024x1024 .f32) (x1 : Vec F S1024x64 .f32) (x2 : Vec F S1x64 .f32) (x3 : Vec F S64x1024 .f32)
    (x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E
          (cc0__enc_dec_kernel i arg1 harg1 arg2 harg2 arg3 harg3 arg4 harg4 arg5 harg5 arg6 harg6 arg7 harg7) K := by
  simp only [cc0__enc_dec_kernel_eq_skeleton]; unfold cc0__enc_dec_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

end Cert.KernelIdeal.Hand

end
-- ==== Proof.Ideal.EncDec.lean ====
/- Region 0 (the fused encoder/decoder pallas_call) at a parameter `V`, the TensorCore's buffer contents when the
   region is entered: each window's block at a point, the pipeline's proof data, and the body obligation at every
   point of the grid. Generic in the float instance. -/
import proofs.«125475_j62268435857718_1_alg».proof.Proof.Ideal.EncDecBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents' (`hA`) and whose body leaves the block in place (`hafter`): unfetched,
    the block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is the entry contents' (`hA`) and whose body leaves the block in place (`hafter`): unfetched,
    the block index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is the entry contents' (`hA`) and whose body leaves the block in place (`hafter`): unfetched,
    the block index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is the entry contents' (`hA`) and whose body leaves the block in place (`hafter`): unfetched,
    the block index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is the entry contents' (`hA`) and whose body leaves the block in place (`hafter`): unfetched,
    the block index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at point `t`
    each input's buffer at its block, the latent window's at the encoder's closed form of the input blocks and the
    reconstruction window's at the decoder's; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.MmdRuns.lean ====
/- Region 1 of @main — the tiled Gaussian-kernel sums (pallas_call 1, grid 16 × 16) — at the contents `V` the
   TensorCore's buffers hold when the region is entered: what the three runs of its body (first point, middle
   points, last point) share. The blocks each window stages, the two branch conditions of the body in closed
   form over the 256 grid points, where the three output windows are idle, the staging and scratch memrefs the
   body is called with, and the region's invariant with the three scratch accumulators named. -/
import proofs.«125475_j62268435857718_1_alg».proof.Proof.Gen.KernelIdeal.Launch
import proofs.«125475_j62268435857718_1_alg».proof.Proof.Gen.KernelIdeal.Skeleton
import proofs.«125475_j62268435857718_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-! ## The windows' blocks -/

/-- Window `w`'s block at point `t`, read off its array as the region finds it (`V`). Windows 0 and 2 read row
    block `i` and column block `j` of one array, windows 1 and 3 of another. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (it is fetched only when the row index moves, and between two fetches the block index stands still), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (it is fetched only when the row index moves, and between two fetches the block index stands still), for any
    proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (it is fetched at every point), for any
    proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (it is fetched at every point), for any
    proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first `scf.if` (zero the three accumulators), from the grid coordinates:
    `i = 0 ∧ j = 0` as the kernel computes it on 32-bit words. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

/-- The condition of the body's second `scf.if` (copy the accumulators out): `i = 15 ∧ j = 15`. -/
abbrev cond1_1 (i : grid1.Coords) : Prop := k1_cond2 i = 1#1
/-- It holds at the last point only — decided over the grid. -/
theorem hcond1_1 : ∀ t : Fin cfg1.N, cond1_1 (grid1.coords t) ↔ t.val = 255 :=
  (by decide +kernel : ∀ t : Fin grid1.N, cond1_1 (grid1.coords t) ↔ t.val = 255)

/-! ## Where the windows are idle -/
/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- At the first point output 4 is idle: the body stores nothing into it, -/
theorem idleAt1_4_A : ∀ t : Fin cfg1.N, cond1_0 (grid1.coords t) → ¬cond1_1 (grid1.coords t) → cfg1.idle 4 (grid1.coords t) = true := by decide +kernel
/-- and the pipeline does not write its block back. -/
theorem noFlush1_4_A : ∀ t : Fin cfg1.N, cond1_0 (grid1.coords t) → ¬cond1_1 (grid1.coords t) → (cfg1.win 4).flush t = false := by decide +kernel
/-- The same at the middle points. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At the last point output 4 is live: the body stores the accumulator into it. -/
theorem liveAt1_4_C : ∀ t : Fin cfg1.N, ¬cond1_0 (grid1.coords t) → cond1_1 (grid1.coords t) → cfg1.idle 4 (grid1.coords t) = false := by decide +kernel
/-- At the first point output 5 is idle: the body stores nothing into it, -/
theorem idleAt1_5_A : ∀ t : Fin cfg1.N, cond1_0 (grid1.coords t) → ¬cond1_1 (grid1.coords t) → cfg1.idle 5 (grid1.coords t) = true := by decide +kernel
/-- and the pipeline does not write its block back. -/
theorem noFlush1_5_A : ∀ t : Fin cfg1.N, cond1_0 (grid1.coords t) → ¬cond1_1 (grid1.coords t) → (cfg1.win 5).flush t = false := by decide +kernel
/-- The same at the middle points. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At the last point output 5 is live: the body stores the accumulator into it. -/
theorem liveAt1_5_C : ∀ t : Fin cfg1.N, ¬cond1_0 (grid1.coords t) → cond1_1 (grid1.coords t) → cfg1.idle 5 (grid1.coords t) = false := by decide +kernel
/-- At the first point output 6 is idle: the body stores nothing into it, -/
theorem idleAt1_6_A : ∀ t : Fin cfg1.N, cond1_0 (grid1.coords t) → ¬cond1_1 (grid1.coords t) → cfg1.idle 6 (grid1.coords t) = true := by decide +kernel
/-- and the pipeline does not write its block back. -/
theorem noFlush1_6_A : ∀ t : Fin cfg1.N, cond1_0 (grid1.coords t) → ¬cond1_1 (grid1.coords t) → (cfg1.win 6).flush t = false := by decide +kernel
/-- The same at the middle points. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At the last point output 6 is live: the body stores the accumulator into it. -/
theorem liveAt1_6_C : ∀ t : Fin cfg1.N, ¬cond1_0 (grid1.coords t) → cond1_1 (grid1.coords t) → cfg1.idle 6 (grid1.coords t) = false := by decide +kernel

/-! ## The staging and scratch memrefs the body is called with -/
/-- The staging buffer of output window 4, as a view: its contents are stated through it. -/
abbrev VO1_4 : View sig .tc .vmem S8x128 .f32 := (Memref.whole cc1_stg4_0 : Memref sig .tc .vmem S8x128 .f32).view
/-- The staging buffer of output window 5, as a view: its contents are stated through it. -/
abbrev VO1_5 : View sig .tc .vmem S8x128 .f32 := (Memref.whole cc1_stg5_0 : Memref sig .tc .vmem S8x128 .f32).view
/-- The staging buffer of output window 6, as a view: its contents are stated through it. -/
abbrev VO1_6 : View sig .tc .vmem S8x128 .f32 := (Memref.whole cc1_stg6_0 : Memref sig .tc .vmem S8x128 .f32).view
abbrev ms1_0 (t : Fin cfg1.N) : Memref sig .tc .vmem S512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x128 .f32 := win1_6.stage (cfg1.slots t 6)
abbrev hs1_6 (t : Fin cfg1.N) : (ms1_6 t).IsWhole := hstage1_6 ((cfg1.slots t 6).cast nbuf1_6)
/-- Scratch accumulator 0: a whole scoped buffer of the kernel's own, carried from point to point. -/
abbrev scM1_0 : Memref sig .tc .vmem S8x128 .f32 := Memref.whole cc1_scratch0
abbrev VS1_0 : View sig .tc .vmem S8x128 .f32 := scM1_0.view
/-- Scratch accumulator 1: a whole scoped buffer of the kernel's own, carried from point to point. -/
abbrev scM1_1 : Memref sig .tc .vmem S8x128 .f32 := Memref.whole cc1_scratch1
abbrev VS1_1 : View sig .tc .vmem S8x128 .f32 := scM1_1.view
/-- Scratch accumulator 2: a whole scoped buffer of the kernel's own, carried from point to point. -/
abbrev scM1_2 : Memref sig .tc .vmem S8x128 .f32 := Memref.whole cc1_scratch2
abbrev VS1_2 : View sig .tc .vmem S8x128 .f32 := scM1_2.view

/-- The region's invariant with the three accumulators as memrefs owned at some contents; the other scoped
    buffers — the staging buffers of the first pallas_call, which this region never touches — ride along, each at
    some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.Ideal.MmdRunA.lean ====
/- Region 1 of @main, the body's run at the first point: the accumulators are zeroed, then the block's three sums added. -/
import proofs.«125475_j62268435857718_1_alg».proof.Proof.Ideal.MmdRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref and in each scratch accumulator, as pieces (last
    first), at the first point: the accumulators are zeroed, then the block's three sums added; WITH the proof that on whole memrefs — the four inputs' at their
    contents, the three outputs' (idle here) at contents handed back untouched, the three accumulators' at anything — the body runs to the
    continuation holding the inputs' as they were and each accumulator with its pieces written. The
    printed functions are their skeletons; each `scf.if` is decided by the case's hypotheses; the pieces are the
    witness the run finds. -/
noncomputable def kernelRun1_A (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) :
    Σ' (L4 : List (View.Piece (Elt F) S8x128 .f32)) (L5 : List (View.Piece (Elt F) S8x128 .f32)) (L6 : List (View.Piece (Elt F) S8x128 .f32)) (LS0 : List (View.Piece (Elt F) S8x128 .f32)) (LS1 : List (View.Piece (Elt F) S8x128 .f32)), { LS2 : List (View.Piece (Elt F) S8x128 .f32) //
      ∀ (xi4 : Vec F S8x128 .f32) (xi5 : Vec F S8x128 .f32) (xi6 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__mmd_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc1__mmd_kernel_eq_skeleton]; unfold cc1__mmd_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.Ideal.MmdRunB.lean ====
/- Region 1 of @main, the body's run at a middle point: the block's three sums are added to the accumulators. -/
import proofs.«125475_j62268435857718_1_alg».proof.Proof.Ideal.MmdRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref and in each scratch accumulator, as pieces (last
    first), at a middle point: the block's three sums are added to the accumulators; WITH the proof that on whole memrefs — the four inputs' at their
    contents, the three outputs' (idle here) at contents handed back untouched, the three accumulators' at what the point before left — the body runs to the
    continuation holding the inputs' as they were and each accumulator with its pieces written. The
    printed functions are their skeletons; each `scf.if` is decided by the case's hypotheses; the pieces are the
    witness the run finds. -/
noncomputable def kernelRun1_B (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    Σ' (L4 : List (View.Piece (Elt F) S8x128 .f32)) (L5 : List (View.Piece (Elt F) S8x128 .f32)) (L6 : List (View.Piece (Elt F) S8x128 .f32)) (LS0 : List (View.Piece (Elt F) S8x128 .f32)) (LS1 : List (View.Piece (Elt F) S8x128 .f32)), { LS2 : List (View.Piece (Elt F) S8x128 .f32) //
      ∀ (xi4 : Vec F S8x128 .f32) (xi5 : Vec F S8x128 .f32) (xi6 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__mmd_kernel i arg2 harg2 arg3 harg3 arg4 harg4 arg5 harg5 arg6 harg6 arg7 harg7 arg8 harg8 arg9 harg9 arg10 harg10 arg11 harg11) K } := by
  refine ⟨[], [], [], ?_, ?_, ?_, fun xi4 xi5 xi6 E K => ?run⟩
  case run =>
    simp only [cc1__mmd_kernel_eq_skeleton]; unfold cc1__mmd_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.Ideal.MmdRunC.lean ====
/- Region 1 of @main, the body's run at the last point: the block's three sums are added, then the accumulators copied into the three outputs. -/
import proofs.«125475_j62268435857718_1_alg».proof.Proof.Ideal.MmdRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref and in each scratch accumulator, as pieces (last
    first), at the last point: the block's three sums are added, then the accumulators copied into the three outputs; WITH the proof that on whole memrefs — the four inputs' at their
    contents, the three outputs' at anything, the three accumulators' at what the point before left — the body runs to the
    continuation holding the inputs' as they were, each output's buffer with its pieces written and each accumulator with its pieces written. The
    printed functions are their skeletons; each `scf.if` is decided by the case's hypotheses; the pieces are the
    witness the run finds. -/
noncomputable def kernelRun1_C (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    Σ' (L4 : List (View.Piece (Elt F) S8x128 .f32)) (L5 : List (View.Piece (Elt F) S8x128 .f32)) (L6 : List (View.Piece (Elt F) S8x128 .f32)) (LS0 : List (View.Piece (Elt F) S8x128 .f32)) (LS1 : List (View.Piece (Elt F) S8x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__mmd_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc1__mmd_kernel_eq_skeleton]; unfold cc1__mmd_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Hand

end
-- ==== Proof.Ideal.SharedArrays.lean ====
/-
  The second call hands each of two arrays to two of its input windows (a row window and a column window). The five
  distinct buffers behind its seven windows, each held whole at the full share, are the same resource as the seven
  per-window holdings of the call's proof data, once each twice-read buffer is dealt to its two windows by the two
  halves of the full share; and conversely the halves join back.
-/
import proofs.«125475_j62268435857718_1_alg».proof.Proof.Gen.KernelIdeal.Launch
import proofs.«125475_j62268435857718_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares at which the second call's proof data hold the arrays behind its input windows: the row window and the
    column window of one array take the two halves of the full share. -/
def q1 : Fin cfg1.W → PosShare TreeShare := fun
  | ⟨0, _⟩ => fullShare.left | ⟨1, _⟩ => fullShare.left | ⟨2, _⟩ => fullShare.right | ⟨3, _⟩ => fullShare.right
  | ⟨4, _⟩ => fullShare | ⟨5, _⟩ => fullShare | ⟨6, _⟩ => fullShare
  | ⟨_ + 7, h⟩ => absurd h (Nat.not_lt.2 (Nat.le_add_left _ _))

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v2_0) ↦{fullShare} V main_v2_0)
          ∗ (((c : Thread nD τ).loc main_v3_0) ↦{fullShare} V main_v3_0) ∗ (((c : Thread nD τ).loc main_v3_1) ↦{fullShare} V main_v3_1)
          ∗ (((c : Thread nD τ).loc main_v3_2) ↦{fullShare} V main_v3_2)) := by
  unfold Pipeline.arrBufs
  exact bigSep_eq_bigSepL_of_eq [main_arg1, main_v2_0, main_v3_0, main_v3_1, main_v3_2] (by decide) (by decide) _

section
variable (c : Dev nD) (d : Dat τ (Elt F) Unit ℕ (UR sig nD τ) ℕ cfg1 c) (hq : d.q = q1)
include hq
theorem share1_0 : d.share 0 = fullShare.left := by unfold Dat.share; rw [hq]; rfl
theorem share1_1 : d.share 1 = fullShare.left := by unfold Dat.share; rw [hq]; rfl
theorem share1_2 : d.share 2 = fullShare.right := by unfold Dat.share; rw [hq]; rfl
theorem share1_3 : d.share 3 = fullShare.right := by unfold Dat.share; rw [hq]; rfl
theorem share1_4 : d.share 4 = fullShare := by unfold Dat.share; rw [hq]; rfl
theorem share1_5 : d.share 5 = fullShare := by unfold Dat.share; rw [hq]; rfl
theorem share1_6 : d.share 6 = fullShare := by unfold Dat.share; rw [hq]; rfl

/-- The second call's arrays, window by window, each a whole buffer at its share. -/
theorem arrays1_eq (G : (w : Fin cfg1.W) → Buf (Elt F) ((cfg1.win w).arr.view.loc (c : Thread nD τ))) :
    (d.arrays G : sProp 𝕄) = iprop(
      (((c : Thread nD τ).loc main_arg1) ↦{fullShare.left} G 0) ∗ (((c : Thread nD τ).loc main_v2_0) ↦{fullShare.left} G 1)
      ∗ (((c : Thread nD τ).loc main_arg1) ↦{fullShare.right} G 2) ∗ (((c : Thread nD τ).loc main_v2_0) ↦{fullShare.right} G 3)
      ∗ (((c : Thread nD τ).loc main_v3_0) ↦{fullShare} G 4) ∗ (((c : Thread nD τ).loc main_v3_1) ↦{fullShare} G 5)
      ∗ (((c : Thread nD τ).loc main_v3_2) ↦{fullShare} G 6)) := by
  unfold Dat.arrays
  rw [bigSep_W1, share1_0 c d hq, share1_1 c d hq, share1_2 c d hq, share1_3 c d hq, share1_4 c d hq, share1_5 c d hq, share1_6 c d hq,
    (arr_whole1 0).set_eq_univ, (arr_whole1 1).set_eq_univ,
    (arr_whole1 4).set_eq_univ, (arr_whole1 5).set_eq_univ, (arr_whole1 6).set_eq_univ]

/-- ENTRY: the five distinct buffers behind the second call's seven windows, each whole at the full share, are the
    proof data's arrays — the two buffers read through a row window and a column window dealt to them by halves. -/
theorem arrays1_split (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ d.arrays G := by
  rw [arrBufs1_eq, arrays1_eq c d hq, hG 0, hG 1, hG 2, hG 3, hG 4, hG 5, hG 6]
  iintro ⟨Ha, Hl, H4, H5, H6⟩
  have ha : ((((c : Thread nD τ).loc main_arg1) ↦{fullShare} V main_arg1) : sProp 𝕄)
      ⊢ iprop((((c : Thread nD τ).loc main_arg1) ↦{fullShare.left} V main_arg1) ∗ (((c : Thread nD τ).loc main_arg1) ↦{fullShare.right} V main_arg1)) :=
    (pointsTo_share (PosShare.mem_left_op_right fullShare)).1
  have hl : ((((c : Thread nD τ).loc main_v2_0) ↦{fullShare} V main_v2_0) : sProp 𝕄)
      ⊢ iprop((((c : Thread nD τ).loc main_v2_0) ↦{fullShare.left} V main_v2_0) ∗ (((c : Thread nD τ).loc main_v2_0) ↦{fullShare.right} V main_v2_0)) :=
    (pointsTo_share (PosShare.mem_left_op_right fullShare)).1
  ihave Ha2 := ha $$ Ha
  ihave Hl2 := hl $$ Hl
  icases Ha2 with ⟨Ha0, Ha1⟩
  icases Hl2 with ⟨Hl0, Hl1⟩
  isplitl [Ha0]; · iexact Ha0
  isplitl [Hl0]; · iexact Hl0
  isplitl [Ha1]; · iexact Ha1
  isplitl [Hl1]; · iexact Hl1
  isplitl [H4]; · iexact H4
  isplitl [H5]; · iexact H5
  iexact H6

/-- EXIT: the converse — the halves joined back into whole buffers. -/
theorem arrays1_join (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    d.arrays G ⊢ (Pipeline.arrBufs (Ix := Unit) (Name := ℕ) (U := UR sig nD τ) (Lvl := ℕ) spec1 c V : sProp 𝕄) := by
  rw [arrBufs1_eq, arrays1_eq c d hq, hG 0, hG 1, hG 2, hG 3, hG 4, hG 5, hG 6]
  iintro ⟨Ha0, Hl0, Ha1, Hl1, H4, H5, H6⟩
  have ha : iprop((((c : Thread nD τ).loc main_arg1) ↦{fullShare.left} V main_arg1) ∗ (((c : Thread nD τ).loc main_arg1) ↦{fullShare.right} V main_arg1))
      ⊢ ((((c : Thread nD τ).loc main_arg1) ↦{fullShare} V main_arg1) : sProp 𝕄) :=
    (pointsTo_share (PosShare.mem_left_op_right fullShare)).2
  have hl : iprop((((c : Thread nD τ).loc main_v2_0) ↦{fullShare.left} V main_v2_0) ∗ (((c : Thread nD τ).loc main_v2_0) ↦{fullShare.right} V main_v2_0))
      ⊢ ((((c : Thread nD τ).loc main_v2_0) ↦{fullShare} V main_v2_0) : sProp 𝕄) :=
    (pointsTo_share (PosShare.mem_left_op_right fullShare)).2
  isplitl [Ha0 Ha1]
  · iapply ha
    isplitl [Ha0]; · iexact Ha0
    iexact Ha1
  isplitl [Hl0 Hl1]
  · iapply hl
    isplitl [Hl0]; · iexact Hl0
    iexact Hl1
  isplitl [H4]; · iexact H4
  isplitl [H5]; · iexact H5
  iexact H6
end

end Cert.KernelIdeal.Hand

end
-- ==== Proof.Ideal.Mmd.lean ====
/- Region 1 of @main — the tiled Gaussian-kernel sums — at the entry contents `V`: what the three output
   staging buffers and the three scratch accumulators hold after each of the 256 grid points (`outsAt1`, by
   recursion on the point over the pieces each case's run found), the region's invariant with the accumulators at
   those contents, the pipeline's proof data, and the body obligation at a generic point. Then each accumulator's
   new contents in each case as the skeleton's payload of the four input blocks and the old contents. -/
import proofs.«125475_j62268435857718_1_alg».proof.Proof.Ideal.MmdRunC
import proofs.«125475_j62268435857718_1_alg».proof.Proof.Ideal.SharedArrays
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the outputs and the accumulators -/

/-- Case A stores nothing into output 4 (idle there, not written back): no pieces — a placeholder nothing consults. -/
def out1_A_4 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) : Vec F S8x128 .f32 :=
  VO1_4.read (Elt F) (VO1_4.writes (Elt F) VO1_4.junk (kernelRun1_A c i arg2 harg2 arg3 harg3 arg4 harg4 arg5 harg5 arg6 harg6 arg7 harg7 arg8 harg8 arg9 harg9 arg10 harg10 arg11 harg11 hc0 hc1 x0 x1 x2 x3).1)

/-- Case A stores nothing into output 5 (idle there, not written back): no pieces — a placeholder nothing consults. -/
def out1_A_5 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) : Vec F S8x128 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 arg11 harg11 hc0 hc1 x0 x1 x2 x3).2.1)

/-- Case A stores nothing into output 6 (idle there, not written back): no pieces — a placeholder nothing consults. -/
def out1_A_6 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) : Vec F S8x128 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 hc1 x0 x1 x2 x3).2.2.1)

/-- Case A's stores into accumulator 0 cover it (each is a store of the whole buffer). -/
theorem scover1_A_0 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) (y : S8x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3).2.2.2.1 S8x128.size (by sl_kernel_rfl) y

/-- What case A leaves in accumulator 0: its pieces read back over junk. -/
def sout1_A_0 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) : Vec F S8x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3).2.2.2.1)

/-- Case A's stores into accumulator 1 cover it (each is a store of the whole buffer). -/
theorem scover1_A_1 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) (y : S8x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3).2.2.2.2.1 S8x128.size (by sl_kernel_rfl) y

/-- What case A leaves in accumulator 1: its pieces read back over junk. -/
def sout1_A_1 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) : Vec F S8x128 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3).2.2.2.2.1)

/-- Case A's stores into accumulator 2 cover it (each is a store of the whole buffer). -/
theorem scover1_A_2 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) (y : S8x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3).2.2.2.2.2.1 S8x128.size (by sl_kernel_rfl) y

/-- What case A leaves in accumulator 2: its pieces read back over junk. -/
def sout1_A_2 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) : Vec F S8x128 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 hc0 hc1 x0 x1 x2 x3).2.2.2.2.2.1)

/-- Case B stores nothing into output 4 (idle there, not written back): no pieces — a placeholder nothing consults. -/
def out1_B_4 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VO1_4.read (Elt F) (VO1_4.writes (Elt F) VO1_4.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).1)

/-- Case B stores nothing into output 5 (idle there, not written back): no pieces — a placeholder nothing consults. -/
def out1_B_5 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.1)

/-- Case B stores nothing into output 6 (idle there, not written back): no pieces — a placeholder nothing consults. -/
def out1_B_6 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case B's stores into accumulator 0 cover it (each is a store of the whole buffer). -/
theorem scover1_B_0 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.1 S8x128.size (by sl_kernel_rfl) y

/-- What case B leaves in accumulator 0: its pieces read back over junk. -/
def sout1_B_0 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case B's stores into accumulator 1 cover it (each is a store of the whole buffer). -/
theorem scover1_B_1 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S8x128.size (by sl_kernel_rfl) y

/-- What case B leaves in accumulator 1: its pieces read back over junk. -/
def sout1_B_1 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case B's stores into accumulator 2 cover it (each is a store of the whole buffer). -/
theorem scover1_B_2 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S8x128.size (by sl_kernel_rfl) y

/-- What case B leaves in accumulator 2: its pieces read back over junk. -/
def sout1_B_2 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

/-- Case C's one store into output 4 covers its block. -/
theorem cover1_C_4 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).1 S8x128.size (by sl_kernel_rfl) y

/-- What case C leaves in output 4's staging buffer: its pieces read back over junk. -/
def out1_C_4 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VO1_4.read (Elt F) (VO1_4.writes (Elt F) VO1_4.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).1)

/-- Case C's one store into output 5 covers its block. -/
theorem cover1_C_5 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.1 S8x128.size (by sl_kernel_rfl) y

/-- What case C leaves in output 5's staging buffer: its pieces read back over junk. -/
def out1_C_5 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.1)

/-- Case C's one store into output 6 covers its block. -/
theorem cover1_C_6 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.1 S8x128.size (by sl_kernel_rfl) y

/-- What case C leaves in output 6's staging buffer: its pieces read back over junk. -/
def out1_C_6 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.1)

/-- Case C's stores into accumulator 0 cover it (each is a store of the whole buffer). -/
theorem scover1_C_0 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.1 S8x128.size (by sl_kernel_rfl) y

/-- What case C leaves in accumulator 0: its pieces read back over junk. -/
def sout1_C_0 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.1)

/-- Case C's stores into accumulator 1 cover it (each is a store of the whole buffer). -/
theorem scover1_C_1 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S8x128.size (by sl_kernel_rfl) y

/-- What case C leaves in accumulator 1: its pieces read back over junk. -/
def sout1_C_1 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1)

/-- Case C's stores into accumulator 2 cover it (each is a store of the whole buffer). -/
theorem scover1_C_2 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) (y : S8x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S8x128.size (by sl_kernel_rfl) y

/-- What case C leaves in accumulator 2: its pieces read back over junk. -/
def sout1_C_2 (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) : Vec F S8x128 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1)

section Region1

-- the TensorCore's buffer contents when the region is entered
variable (V : (c : Dev nD) → (b : Ref sig .tc) → Buf (Elt F) ((c : Thread nD τ).loc b))

/-! ## What the outputs and the accumulators hold after each point -/

/-- THE ACCUMULATION. What the three outputs' staging buffers and the three scratch accumulators hold after the body
    at position `n` (a tuple: outputs 4, 5, 6, then accumulators 0, 1, 2): the case the closed forms select at `n`
    — the first point, the last point, or a point between —, run at the point's memrefs and input blocks, the
    accumulators at what the point before left. -/
def outsAt1 (c : Dev nD) : (n : ℕ) → n < cfg1.N → Vec F S8x128 .f32 × Vec F S8x128 .f32 × Vec F S8x128 .f32 × Vec F S8x128 .f32 × Vec F S8x128 .f32 × Vec F S8x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
        out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
        out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
        sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
        sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
        sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : n + 1 = 0 then
      False.elim (Nat.succ_ne_zero n h0)
    else
      if h1 : n + 1 = 255 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2,
        sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2.1 (outsAt1 c n (Nat.lt_of_succ_lt hn)).2.2.2.2.2)

/-- `outsAt1` at the first point: case A's contents. -/
theorem outsAt1_A (c : Dev nD) (t : Fin cfg1.N) (h0 : t.val = 0) (h1 : ¬t.val = 255) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
        out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
        out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
        sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
        sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
        sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- `outsAt1` at a middle point: case B's contents, over what the point before left in the accumulators. -/
theorem outsAt1_B (c : Dev nD) (t : Fin cfg1.N) (h0 : ¬t.val = 0) (h1 : ¬t.val = 255) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact absurd rfl h0
  | succ n => exact (dif_neg h0).trans ((dif_neg h1).trans rfl)

/-- `outsAt1` at the last point: case C's contents, over what the point before left in the accumulators. -/
theorem outsAt1_C (c : Dev nD) (t : Fin cfg1.N) (h0 : ¬t.val = 0) (h1 : t.val = 255) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
        sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact absurd rfl h0
  | succ n => exact (dif_neg h0).trans ((dif_pos h1).trans rfl)

/-- The region's invariant before position `n`: before the first point the class's (every scoped buffer at
    anything); afterwards the same with each accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.2.2.1) ∗ owns (c : Thread nD τ) scM1_1 fullShare ((outsAt1 V c n hn).2.2.2.2.1) ∗ owns (c : Thread nD τ) scM1_2 fullShare ((outsAt1 V c n hn).2.2.2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.2.2.1) ∗ owns (c : Thread nD τ) scM1_1 fullShare ((outsAt1 V c n hn).2.2.2.2.1) ∗ owns (c : Thread nD τ) scM1_2 fullShare ((outsAt1 V c n hn).2.2.2.2.2)) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2.2.2.1) ∗ owns (c : Thread nD τ) scM1_1 fullShare ((outsAt1 V c (n - 1) (by omega)).2.2.2.2.1) ∗ owns (c : Thread nD τ) scM1_2 fullShare ((outsAt1 V c (n - 1) (by omega)).2.2.2.2.2)) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the outputs' at `outsAt1`; the invariant `PhiS1`; nothing owed; the
    two arrays that two windows read are held half by each of their windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q := q1
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms say which case the point is in;
    the invariant hands the body the accumulators at what the point before left (at anything at the first point)
    and takes them back at this point's contents; the other scoped buffers, the generator register and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  by_cases h0 : t.val = 0
  · by_cases h1 : t.val = 255
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1 sout1_A_2; (try dsimp only)
      rw [PhiS1_castSucc V c t, PhiS1_zero V c _ _ h0, PhiA1_eq]
      iintro ⟨⟨⟨Hr0, Hr1, Hr2, Hr3, Hr4, Hr5, Hr6, Hr7, Hr8, Hr9, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [Hr0 Hr1 Hr2 Hr3 Hr4 Hr5 Hr6 Hr7 Hr8 Hr9 HS0 HS1 HS2 Hg]
      · isplitl [Hr0 Hr1 Hr2 Hr3 Hr4 Hr5 Hr6 Hr7 Hr8 Hr9 HS0 HS1 HS2]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

  · by_cases h1 : t.val = 255
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_4 out1_C_5 out1_C_6 sout1_C_0 sout1_C_1 sout1_C_2; (try dsimp only)
      rw [PhiS1_castSucc V c t, PhiS1_pos V c _ _ h0]
      iintro ⟨⟨⟨Hr0, Hr1, Hr2, Hr3, Hr4, Hr5, Hr6, Hr7, Hr8, Hr9, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%es0, HS0⟩, ⟨%es1, HS1⟩, ⟨%es2, HS2⟩⟩
      isplitl [Hr0 Hr1 Hr2 Hr3 Hr4 Hr5 Hr6 Hr7 Hr8 Hr9 HS0 HS1 HS2 Hg]
      · isplitl [Hr0 Hr1 Hr2 Hr3 Hr4 Hr5 Hr6 Hr7 Hr8 Hr9 HS0 HS1 HS2]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _ _)

    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1 sout1_B_2; (try dsimp only)
      rw [PhiS1_castSucc V c t, PhiS1_pos V c _ _ h0]
      iintro ⟨⟨⟨Hr0, Hr1, Hr2, Hr3, Hr4, Hr5, Hr6, Hr7, Hr8, Hr9, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [Hr0 Hr1 Hr2 Hr3 Hr4 Hr5 Hr6 Hr7 Hr8 Hr9 HS0 HS1 HS2 Hg]
      · isplitl [Hr0 Hr1 Hr2 Hr3 Hr4 Hr5 Hr6 Hr7 Hr8 Hr9 HS0 HS1 HS2]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, Hr5, Hr6, Hr7, Hr8, Hr9, HS0, HS1, HS2⟩, Hg⟩
  isplitl [Hr0 Hr1 Hr2 Hr3 Hr4 Hr5 Hr6 Hr7 Hr8 Hr9 HS0 HS1 HS2]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Region1

end Cert.KernelIdeal.Hand

end
-- ==== Proof.Ideal.WholeRun.lean ====
/-
  The whole run of the entry computation: two reshapes of the bias vectors, the encoder/decoder call, the
  pairwise-kernel-sum call, and sixteen scalar operations. The contents of every unscoped buffer are followed from
  the launch through each of the four items; each call is entered by splitting its arrays out of the unscoped buffers
  and left by putting them back at what its write-backs leave. The second call reads two arrays through two windows
  each, so those two buffers are dealt to their windows by halves of the full share.
-/
import proofs.«125475_j62268435857718_1_alg».proof.Proof.Ideal.EncDec
import proofs.«125475_j62268435857718_1_alg».proof.Proof.Ideal.Mmd
import proofs.«125475_j62268435857718_1_alg».proof.Proof.Ideal.SharedArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => (s₀ m ρ).mem ((c : Dev nD), b)
/-- After the two reshapes of the bias vectors: the first call's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its three output arrays at what its write-backs leave, every other buffer as entered
    (its four input windows read two arrays and write none). -/
def W3 (c : Dev nD) : Valuation τ sig (Elt F) :=
  Function.update (Function.update (Function.update (W2 m ρ c)
    (Proc.devRef .tc main_v3_0) ((dat1 (V2 m ρ) c).arrAt 4 cfg1.N))
    (Proc.devRef .tc main_v3_1) ((dat1 (V2 m ρ) c).arrAt 5 cfg1.N))
    (Proc.devRef .tc main_v3_2) ((dat1 (V2 m ρ) c).arrAt 6 cfg1.N)
abbrev V3 : (c : Dev nD) → (b : Ref sig .tc) → Buf (Elt F) ((c : Thread nD τ).loc b) := fun c b => W3 m ρ c b
theorem W3_out4 (c : Dev nD) : W3 m ρ c (Proc.devRef .tc main_v3_0) = (dat1 (V2 m ρ) c).arrAt 4 cfg1.N := by
  unfold W3
  rw [Function.update_of_ne (StableHlo.devRef_ne_of_ne (by decide)), Function.update_of_ne (StableHlo.devRef_ne_of_ne (by decide)), Function.update_self]
theorem W3_out5 (c : Dev nD) : W3 m ρ c (Proc.devRef .tc main_v3_1) = (dat1 (V2 m ρ) c).arrAt 5 cfg1.N := by
  unfold W3
  rw [Function.update_of_ne (StableHlo.devRef_ne_of_ne (by decide)), Function.update_self]
theorem W3_out6 (c : Dev nD) : W3 m ρ c (Proc.devRef .tc main_v3_2) = (dat1 (V2 m ρ) c).arrAt 6 cfg1.N := by
  unfold W3
  rw [Function.update_self]
theorem W3_of_ne (c : Dev nD) (b : Ref sig .tc) (h0 : b ≠ main_v3_0) (h1 : b ≠ main_v3_1) (h2 : b ≠ main_v3_2) :
    W3 m ρ c (Proc.devRef .tc b) = W2 m ρ c (Proc.devRef .tc b) := by
  unfold W3
  rw [Function.update_of_ne (StableHlo.devRef_ne_of_ne h2), Function.update_of_ne (StableHlo.devRef_ne_of_ne h1),
    Function.update_of_ne (StableHlo.devRef_ne_of_ne h0)]
/-- At the second call's exit each window's array holds what the call leaves. -/
theorem hF1 (c : Dev nD) : ∀ w : Fin cfg1.W, (dat1 (V2 m ρ) c).arrAt w cfg1.N = V3 m ρ c (Pipeline.arrRef spec1 w)
  | ⟨0, _⟩ => (((dat1 (V2 m ρ) c).arrAt_in 0 rfl _).trans (A_eq1 (V2 m ρ) c 0)).trans (W3_of_ne m ρ c main_arg1 (by decide) (by decide) (by decide)).symm
  | ⟨1, _⟩ => (((dat1 (V2 m ρ) c).arrAt_in 1 rfl _).trans (A_eq1 (V2 m ρ) c 1)).trans (W3_of_ne m ρ c main_v2_0 (by decide) (by decide) (by decide)).symm
  | ⟨2, _⟩ => (((dat1 (V2 m ρ) c).arrAt_in 2 rfl _).trans (A_eq1 (V2 m ρ) c 2)).trans (W3_of_ne m ρ c main_arg1 (by decide) (by decide) (by decide)).symm
  | ⟨3, _⟩ => (((dat1 (V2 m ρ) c).arrAt_in 3 rfl _).trans (A_eq1 (V2 m ρ) c 3)).trans (W3_of_ne m ρ c main_v2_0 (by decide) (by decide) (by decide)).symm
  | ⟨4, _⟩ => (W3_out4 m ρ c).symm
  | ⟨5, _⟩ => (W3_out5 m ρ c).symm
  | ⟨6, _⟩ => (W3_out6 m ρ c).symm
  | ⟨_ + 7, h⟩ => absurd h (Nat.not_lt.2 (Nat.le_add_left _ _))
theorem hrest1 (c : Dev nD) : ∀ b, b ∉ Finset.univ.image (Pipeline.arrRef spec1) → V3 m ρ c b = V2 m ρ c b :=
  fun b hb => W3_of_ne m ρ c b
    (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))
/-- After the sixteen scalar operations that follow the second call. -/
abbrev W4 : Dev nD → Valuation τ sig (Elt F) := fun c => StableHlo.after hostOps2 (W3 m ρ c)

/-! ## The proof data family and the thread state -/

/-- The prefetched tables' admissible contents: neither call has a table. -/
abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
/-- A stretch of host operations over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside the core owing nothing: every unscoped buffer at the last contents, the generator
    register at some state. -/
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The first call: entered from every unscoped buffer at `W1`, left at `W2`. Its seven arrays are distinct buffers. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`. Two of the five buffers behind its
    windows are read through two windows each: they are dealt to the windows by halves at entry and joined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (StableHlo.held (c : Thread nD τ) (Pipeline.ucRefs τ sig) (W2 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V2 m ρ c)) := by
      rw [← Pipeline.unscopedBufs_held c (W2 m ρ c), Pipeline.unscopedBufs_split₀ cfgs 1 winFacts₀1.arr_unscoped c (V2 m ρ c)]
      exact sep_mono (arrays1_split c (dat1 (V2 m ρ) c) rfl (V2 m ρ c) _ (fun w => A_eq1 (V2 m ρ) c w)) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V2 m ρ c))
        ⊢ (StableHlo.held (c : Thread nD τ) (Pipeline.ucRefs τ sig) (W3 m ρ c) : sProp 𝕄) := by
      rw [← Pipeline.unscopedBufs_held c (W3 m ρ c), Pipeline.unscopedBufs_split₀ cfgs 1 winFacts₀1.arr_unscoped c (V3 m ρ c)]
      refine sep_mono (arrays1_join c (dat1 (V2 m ρ) c) rfl (V3 m ρ c) _ (hF1 m ρ c)) (Entails.of_eq ?_)
      unfold Pipeline.unscopedRest
      exact bigSep_congr fun b hb => by rw [hrest1 m ρ c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE WHOLE RUN, at any float instance: from any memory with zero counters every weakly fair execution of @main on
    the TensorCores terminates, nothing faulting, and every final state holds every unscoped buffer at the last
    boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := by
          show StableHlo.after hostOps2 _ (Proc.devRef .tc main_arg0) = _
          after_results
    _ = W2 m ρ c (Proc.devRef .tc main_arg0) := W3_of_ne m ρ c main_arg0 (by decide) (by decide) (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := by
          show StableHlo.after hostOps0 _ (Proc.devRef .tc main_arg0) = _
          after_results

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := by
          show StableHlo.after hostOps2 _ (Proc.devRef .tc main_arg1) = _
          after_results
    _ = W2 m ρ c (Proc.devRef .tc main_arg1) := W3_of_ne m ρ c main_arg1 (by decide) (by decide) (by decide)
    _ = W1 m ρ c (Proc.devRef .tc main_arg1) := W2_of_ne m ρ c main_arg1 (by decide)
    _ = m ((c : Thread nD τ).loc main_arg1) := by
          show StableHlo.after hostOps0 _ (Proc.devRef .tc main_arg1) = _
          after_results

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := by
          show StableHlo.after hostOps2 _ (Proc.devRef .tc main_arg2) = _
          after_results
    _ = W2 m ρ c (Proc.devRef .tc main_arg2) := W3_of_ne m ρ c main_arg2 (by decide) (by decide) (by decide)
    _ = W1 m ρ c (Proc.devRef .tc main_arg2) := (W2_arr m ρ c 1).trans (((dat0 (V1 m ρ) c).arrAt_in 1 rfl _).trans (A_eq0 (V1 m ρ) c 1))
    _ = m ((c : Thread nD τ).loc main_arg2) := by
          show StableHlo.after hostOps0 _ (Proc.devRef .tc main_arg2) = _
          after_results

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := by
          show StableHlo.after hostOps2 _ (Proc.devRef .tc main_arg3) = _
          after_results
    _ = W2 m ρ c (Proc.devRef .tc main_arg3) := W3_of_ne m ρ c main_arg3 (by decide) (by decide) (by decide)
    _ = W1 m ρ c (Proc.devRef .tc main_arg3) := W2_of_ne m ρ c main_arg3 (by decide)
    _ = m ((c : Thread nD τ).loc main_arg3) := by
          show StableHlo.after hostOps0 _ (Proc.devRef .tc main_arg3) = _
          after_results

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by
          show StableHlo.after hostOps2 _ (Proc.devRef .tc main_arg4) = _
          after_results
    _ = W2 m ρ c (Proc.devRef .tc main_arg4) := W3_of_ne m ρ c main_arg4 (by decide) (by decide) (by decide)
    _ = W1 m ρ c (Proc.devRef .tc main_arg4) := (W2_arr m ρ c 3).trans (((dat0 (V1 m ρ) c).arrAt_in 3 rfl _).trans (A_eq0 (V1 m ρ) c 3))
    _ = m ((c : Thread nD τ).loc main_arg4) := by
          show StableHlo.after hostOps0 _ (Proc.devRef .tc main_arg4) = _
          after_results

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by
          show StableHlo.after hostOps2 _ (Proc.devRef .tc main_arg5) = _
          after_results
    _ = W2 m ρ c (Proc.devRef .tc main_arg5) := W3_of_ne m ρ c main_arg5 (by decide) (by decide) (by decide)
    _ = W1 m ρ c (Proc.devRef .tc main_arg5) := W2_of_ne m ρ c main_arg5 (by decide)
    _ = m ((c : Thread nD τ).loc main_arg5) := by
          show StableHlo.after hostOps0 _ (Proc.devRef .tc main_arg5) = _
          after_results

/-- THE FRAME, at any float instance: every weakly fair execution of @main terminates, nothing faulting, and the six
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.Value.EncDecPay.lean ====
/-
  The encoder/decoder kernel's two stored values read at one element, at the exact instance
  (floats are extended reals, a change of format the identity): the latent block is the row of
  the input block times the column of the encoder weight plus the bias, and the reconstruction
  block is the latent row times the decoder weight's column plus its bias.
-/
import proofs.«125475_j62268435857718_1_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

/-! ## The two matrix products at an element -/

theorem enc_lhs0 (i : (⟨2, ![1024, 64]⟩ : Shape).Idx) (c : dot_S1024x1024_S1024x64_S1024x64_1_0_0_1_n_n.contr.Idx) :
    (dot_S1024x1024_S1024x64_S1024x64_1_0_0_1_n_n.lhsIdx i c 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem enc_lhs1 (i : (⟨2, ![1024, 64]⟩ : Shape).Idx) (c : dot_S1024x1024_S1024x64_S1024x64_1_0_0_1_n_n.contr.Idx) :
    (dot_S1024x1024_S1024x64_S1024x64_1_0_0_1_n_n.lhsIdx i c 1).val = (c ⟨0, by decide⟩).val :=
  dot_S1024x1024_S1024x64_S1024x64_1_0_0_1_n_n.lhsIdx_val_of_single rfl i c
theorem enc_rhs0 (i : (⟨2, ![1024, 64]⟩ : Shape).Idx) (c : dot_S1024x1024_S1024x64_S1024x64_1_0_0_1_n_n.contr.Idx) :
    (dot_S1024x1024_S1024x64_S1024x64_1_0_0_1_n_n.rhsIdx i c 0).val = (c ⟨0, by decide⟩).val :=
  dot_S1024x1024_S1024x64_S1024x64_1_0_0_1_n_n.rhsIdx_val_of_single rfl i c
theorem enc_rhs1 (i : (⟨2, ![1024, 64]⟩ : Shape).Idx) (c : dot_S1024x1024_S1024x64_S1024x64_1_0_0_1_n_n.contr.Idx) :
    (dot_S1024x1024_S1024x64_S1024x64_1_0_0_1_n_n.rhsIdx i c 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The product into the zero block, at `(p, q)`: the row-by-column sum over the contraction coordinate. -/
theorem enc_matmul_apply {φ₁ φ₂ : FTy} (lhs : FVec Ideal S1024x1024 φ₁) (rhs : FVec Ideal S1024x64 φ₂)
    (p : Fin 1024) (q : Fin 64) :
    FloatOps.matmul dot_S1024x1024_S1024x64_S1024x64_1_0_0_1_n_n none lhs rhs
        (constant (⟨2, ![1024, 64]⟩ : Shape) .f32 0x00000000#32) (ix2 p q)
      = ∑ k : Fin 1024, lhs (ix2 p k) * rhs (ix2 k q) := by
  rw [Ideal.matmul_constant_zero_apply,
    ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p q) ((contrEquiv1 dot_S1024x1024_S1024x64_S1024x64_1_0_0_1_n_n 1024 rfl rfl).symm k) = ix2 p k :=
    funext fun a => Fin.ext (by
      match a with
      | ⟨0, _⟩ => exact enc_lhs0 _ _
      | ⟨1, _⟩ => exact (enc_lhs1 _ _).trans hk)
  have er : dot_S1024x1024_S1024x64_S1024x64_1_0_0_1_n_n.rhsIdx (ix2 p q) ((contrEquiv1 dot_S1024x1024_S1024x64_S1024x64_1_0_0_1_n_n 1024 rfl rfl).symm k) = ix2 k q :=
    funext fun a => Fin.ext (by
      match a with
      | ⟨0, _⟩ => exact (enc_rhs0 _ _).trans hk
      | ⟨1, _⟩ => exact enc_rhs1 _ _)
  rw [el, er]

theorem dec_lhs0 (i : (⟨2, ![1024, 1024]⟩ : Shape).Idx) (c : dot_S1024x64_S64x1024_S1024x1024_1_0_0_1_n_n.contr.Idx) :
    (dot_S1024x64_S64x1024_S1024x1024_1_0_0_1_n_n.lhsIdx i c 0).val = (i 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
theorem dec_lhs1 (i : (⟨2, ![1024, 1024]⟩ : Shape).Idx) (c : dot_S1024x64_S64x1024_S1024x1024_1_0_0_1_n_n.contr.Idx) :
    (dot_S1024x64_S64x1024_S1024x1024_1_0_0_1_n_n.lhsIdx i c 1).val = (c ⟨0, by decide⟩).val :=
  dot_S1024x64_S64x1024_S1024x1024_1_0_0_1_n_n.lhsIdx_val_of_single rfl i c
theorem dec_rhs0 (i : (⟨2, ![1024, 1024]⟩ : Shape).Idx) (c : dot_S1024x64_S64x1024_S1024x1024_1_0_0_1_n_n.contr.Idx) :
    (dot_S1024x64_S64x1024_S1024x1024_1_0_0_1_n_n.rhsIdx i c 0).val = (c ⟨0, by decide⟩).val :=
  dot_S1024x64_S64x1024_S1024x1024_1_0_0_1_n_n.rhsIdx_val_of_single rfl i c
theorem dec_rhs1 (i : (⟨2, ![1024, 1024]⟩ : Shape).Idx) (c : dot_S1024x64_S64x1024_S1024x1024_1_0_0_1_n_n.contr.Idx) :
    (dot_S1024x64_S64x1024_S1024x1024_1_0_0_1_n_n.rhsIdx i c 1).val = (i 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- The product into the zero block, at `(p, q)`: the row-by-column sum over the contraction coordinate. -/
theorem dec_matmul_apply {φ₁ φ₂ : FTy} (lhs : FVec Ideal S1024x64 φ₁) (rhs : FVec Ideal S64x1024 φ₂)
    (p : Fin 1024) (q : Fin 1024) :
    FloatOps.matmul dot_S1024x64_S64x1024_S1024x1024_1_0_0_1_n_n none lhs rhs
        (constant (⟨2, ![1024, 1024]⟩ : Shape) .f32 0x00000000#32) (ix2 p q)
      = ∑ k : Fin 64, lhs (ix2 p k) * rhs (ix2 k q) := by
  rw [Ideal.matmul_constant_zero_apply,
    ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p q) ((contrEquiv1 dot_S1024x64_S64x1024_S1024x1024_1_0_0_1_n_n 64 rfl rfl).symm k) = ix2 p k :=
    funext fun a => Fin.ext (by
      match a with
      | ⟨0, _⟩ => exact dec_lhs0 _ _
      | ⟨1, _⟩ => exact (dec_lhs1 _ _).trans hk)
  have er : dot_S1024x64_S64x1024_S1024x1024_1_0_0_1_n_n.rhsIdx (ix2 p q) ((contrEquiv1 dot_S1024x64_S64x1024_S1024x1024_1_0_0_1_n_n 64 rfl rfl).symm k) = ix2 k q :=
    funext fun a => Fin.ext (by
      match a with
      | ⟨0, _⟩ => exact (dec_rhs0 _ _).trans hk
      | ⟨1, _⟩ => exact dec_rhs1 _ _)
  rw [el, er]

/-! ## The stored values -/

/-- The latent block at `(p, q)`: input row `p` times encoder column `q`, plus the bias at `q`. -/
theorem pay1_apply (x0 : Vec Ideal S1024x1024 .f32) (W : Vec Ideal S1024x64 .f32) (b : Vec Ideal S1x64 .f32)
    (p : Fin 1024) (q : Fin 64) :
    Gen.k0_pay1 (F := Ideal) x0 W b (ix2 p q)
      = (∑ k : Fin 1024, x0 (ix2 p k) * W (ix2 k q)) + b (ix2 0 q) := by
  unfold Gen.k0_pay1
  simp only [matmul]
  rw [addf_apply, enc_matmul_apply, shapeCast_self, broadcastTo_1b_ab_apply]
  rfl

/-- The reconstruction block at `(p, q)`: latent row `p` times decoder column `q`, plus the bias at `q`. -/
theorem pay2_apply (x0 : Vec Ideal S1024x1024 .f32) (W : Vec Ideal S1024x64 .f32) (b : Vec Ideal S1x64 .f32)
    (Wd : Vec Ideal S64x1024 .f32) (bd : Vec Ideal S1x1024 .f32) (p : Fin 1024) (q : Fin 1024) :
    Gen.k0_pay2 (F := Ideal) x0 W b Wd bd (ix2 p q)
      = (∑ k : Fin 64, Gen.k0_pay1 (F := Ideal) x0 W b (ix2 p k) * Wd (ix2 k q)) + bd (ix2 0 q) := by
  unfold Gen.k0_pay2
  simp only [matmul]
  rw [addf_apply, dec_matmul_apply, shapeCast_self, broadcastTo_1b_ab_apply]
  rfl

end Cert.KernelIdeal.PayValue

end
-- ==== Proof.Value.EncDecArrays.lean ====
/- Region 0's two output arrays after the last grid point, as whole-array functions of the contents the region is
   entered with, at the exact instance (floats are extended reals): the latent array is the input rows times the
   encoder weight plus the encoder bias; the reconstruction array is the latent rows times the decoder weight plus
   the decoder bias. Each grid point writes back block `t` (rows `1024 t … 1024 t + 1023`) of these functions, and
   the eight blocks cover the arrays. -/
import proofs.«125475_j62268435857718_1_alg».proof.Proof.Ideal.EncDec
import proofs.«125475_j62268435857718_1_alg».proof.Proof.Value.EncDecPay
import Idealize.ShloMosaic.Lib.Pipeline.Value
import Idealize.ShloMosaic.Lib.ValueIdx

set_option maxRecDepth 16384

noncomputable section

namespace Cert.KernelIdeal.EncDecValue

open Cert.KernelIdeal Cert.KernelIdeal.Gen Cert.KernelIdeal.Hand Cert.KernelIdeal.PayValue
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The two output arrays as functions of whole arrays -/

/-- Rows times the encoder weight plus the encoder bias: the latent array of an input array. -/
def latOf (A0 : S8192x1024.Idx → EReal) (We : S1024x64.Idx → EReal) (be : S1x64.Idx → EReal) : S8192x64.Idx → EReal := fun j =>
  (∑ k : Fin 1024, A0 (ix2 (j 0) k) * We (ix2 k (j 1))) + be (ix2 0 (j 1))

/-- Latent rows times the decoder weight plus the decoder bias: the reconstruction array of a latent array. -/
def recOf (L : S8192x64.Idx → EReal) (Wd : S64x1024.Idx → EReal) (bd : S1x1024.Idx → EReal) : S8192x1024.Idx → EReal := fun j =>
  (∑ k : Fin 64, L (ix2 (j 0) k) * Wd (ix2 k (j 1))) + bd (ix2 0 (j 1))

/-- The latent array as a function of the region-entry contents. -/
def latArr (c : Dev nD) : S8192x64.Idx → EReal := latOf (V c main_arg0) (V c main_arg2) (V c main_v0)

/-- The reconstruction array as a function of the region-entry contents. -/
def recArr (c : Dev nD) : S8192x1024.Idx → EReal := recOf (latArr V c) (V c main_arg4) (V c main_v1)

/-- The printed index maps, decided over the grid: the input rows' window and the two output windows sit at row block
    `t` at point `t`; the weights' and biases' windows are their whole arrays at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The payloads at one element, over abstract blocks and arrays -/

/-- The latent payload at one element of block row `T`: when the input block is rows `1024 T …` of `A0`, the
    element at block position `y` is the latent array's at the array position `i` that `y` sits at. -/
theorem lat_point (x0 : Vec Ideal S1024x1024 .f32) (W : Vec Ideal S1024x64 .f32) (b : Vec Ideal S1x64 .f32)
    (A0 : S8192x1024.Idx → EReal) (T : Nat)
    (hx : ∀ (x : S1024x1024.Idx) (k : S8192x1024.Idx), (k 0).val = 1024 * T + (x 0).val → (k 1).val = (x 1).val → x0 x = A0 k)
    (y : S1024x64.Idx) (i : S8192x64.Idx)
    (hi0 : (i 0).val = 1024 * T + (y 0).val) (hi1 : (i 1).val = (y 1).val) :
    Gen.k0_pay1 (F := Ideal) x0 W b y = latOf A0 W b i := by
  obtain ⟨p, q, rfl⟩ : ∃ (p : Fin 1024) (q : Fin 64), y = ix2 p q := ⟨y 0, y 1, eq_ix2 y⟩
  obtain ⟨r, s, rfl⟩ : ∃ (r : Fin 8192) (s : Fin 64), i = ix2 r s := ⟨i 0, i 1, eq_ix2 i⟩
  have hs : s = q := Fin.ext hi1
  subst hs
  rw [pay1_apply]
  show _ = (∑ k : Fin 1024, A0 (ix2 r k) * W (ix2 k s)) + b (ix2 0 s)
  congr 1
  exact Finset.sum_congr rfl fun k _ => by rw [hx (ix2 p k) (ix2 r k) hi0 rfl]

/-! ## The input blocks, read where the windows' rectangles say -/

/-- The input rows' block at point `t` is rows `1024 t …` of its array. -/
theorem xblk_apply (c : Dev nD) (t : Fin cfg0.N) (x : S1024x1024.Idx) (k : S8192x1024.Idx)
    (hk0 : (k 0).val = 1024 * t.val + (x 0).val) (hk1 : (k 1).val = (x 1).val) :
    (iblk0 V c 0 t : Vec Ideal S1024x1024 .f32) x = (V c main_arg0 : S8192x1024.Idx → EReal) k := by
  obtain ⟨e0, e1, -⟩ := idx_facts t
  unfold iblk0
  rw [View.read_apply]
  show V c main_arg0 _ = V c main_arg0 k
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 1024 + 1 * (x 1).val = (k 1).val; rw [e1, hk1]; omega

/-- The weights' and biases' blocks are their whole arrays at every point. -/
theorem wblk1_eq (c : Dev nD) (t : Fin cfg0.N) :
    (iblk0 V c 1 t : Vec Ideal S1024x64 .f32) = (V c main_arg2 : S1024x64.Idx → EReal) := by
  obtain ⟨-, -, e0, e1, -⟩ := idx_facts t
  funext x
  unfold iblk0
  rw [View.read_apply]
  show V c main_arg2 _ = V c main_arg2 x
  congr 1
  funext a
  apply Fin.ext
  match a with
  | ⟨0, _⟩ => show win0_1.index t (0 : Fin 2) * 1024 + 1 * (x 0).val = (x 0).val; rw [e0]; omega
  | ⟨1, _⟩ => show win0_1.index t (1 : Fin 2) * 64 + 1 * (x 1).val = (x 1).val; rw [e1]; omega

theorem wblk2_eq (c : Dev nD) (t : Fin cfg0.N) :
    (iblk0 V c 2 t : Vec Ideal S1x64 .f32) = (V c main_v0 : S1x64.Idx → EReal) := by
  obtain ⟨-, -, -, -, e0, e1, -⟩ := idx_facts t
  funext x
  unfold iblk0
  rw [View.read_apply]
  show V c main_v0 _ = V c main_v0 x
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

theorem wblk3_eq (c : Dev nD) (t : Fin cfg0.N) :
    (iblk0 V c 3 t : Vec Ideal S64x1024 .f32) = (V c main_arg4 : S64x1024.Idx → EReal) := by
  obtain ⟨-, -, -, -, -, -, e0, e1, -⟩ := idx_facts t
  funext x
  unfold iblk0
  rw [View.read_apply]
  show V c main_arg4 _ = V c main_arg4 x
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 1024 + 1 * (x 1).val = (x 1).val; rw [e1]; omega

theorem wblk4_eq (c : Dev nD) (t : Fin cfg0.N) :
    (iblk0 V c 4 t : Vec Ideal S1x1024 .f32) = (V c main_v1 : S1x1024.Idx → EReal) := by
  obtain ⟨-, -, -, -, -, -, -, -, e0, e1, -⟩ := idx_facts t
  funext x
  unfold iblk0
  rw [View.read_apply]
  show V c main_v1 _ = V c main_v1 x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 1024 + 1 * (x 1).val = (x 1).val; rw [e1]; omega

/-! ## The latent array -/

/-- What point `t` writes back to the latent array is block `t` of `latArr`. -/
theorem flushed5_eq (c : Dev nD) (t : Fin cfg0.N) :
    (dat0 (F := Ideal) V c).flushed 5 t = ((cfg0.win 5).blk t).view.read (Elt Ideal) (latArr V c) := by
  show (cfg0.win 5).cut (grid0.coords t) ((dat0 V c).after 5 t) = _
  rw [after0_5, out0_5_eq]
  obtain ⟨-, -, -, -, -, -, -, -, -, -, e0, e1, -⟩ := idx_facts t
  have hL : latArr V c = latOf (V c main_arg0) (iblk0 V c 1 t) (iblk0 V c 2 t) := by
    rw [wblk1_eq V c t, wblk2_eq V c t]; rfl
  funext y
  rw [View.read_apply]
  show Gen.k0_pay1 (F := Ideal) (iblk0 V c 0 t) (iblk0 V c 1 t) (iblk0 V c 2 t) y = latArr V c (((cfg0.win 5).blk t).view.emb y)
  rw [hL]
  refine lat_point _ _ _ _ t.val (fun x k h0 h1 => xblk_apply V c t x k h0 h1) y _ ?_ ?_
  · show win0_5.index t (0 : Fin 2) * 1024 + 1 * (y 0).val = 1024 * t.val + (y 0).val; rw [e0]; omega
  · show win0_5.index t (1 : Fin 2) * 64 + 1 * (y 1).val = (y 1).val; rw [e1]; omega

/-- An index of the latent array is in point `t`'s block iff each coordinate is in the block's range on its axis. -/
theorem mem_blk5 (t : Fin cfg0.N) (i : S8192x64.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v2_0).slice (win0_5.rect t)).set ↔ _
  rw [View.set_slice_whole, Rect.mem_set_unit]
  exact Iff.rfl

/-- Row `r` of the latent array is in the block of point `r / 1024`, which writes back. -/
theorem cover5 (i : S8192x64.Idx) : ∃ t : Fin cfg0.N, (cfg0.win 5).flush t = true ∧ i ∈ ((cfg0.win 5).blk t).view.set := by
  have hi0 : (i 0).val < 8192 := (i 0).isLt
  have hi1 : (i 1).val < 64 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, e0, e1, -⟩ := idx_facts t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; rw [e0, ht]; omega
  | ⟨1, _⟩ => show win0_5.index t (1 : Fin 2) * 64 ≤ (i 1).val ∧ (i 1).val < win0_5.index t (1 : Fin 2) * 64 + 64; rw [e1]; omega

/-- The latent array after the last grid point. -/
theorem latent_final (c : Dev nD) : (dat0 (F := Ideal) V c).arrAt 5 cfg0.N = latArr V c :=
  (dat0 (F := Ideal) V c).arrAt_eq_of_cover 5 (latArr V c) (fun t _ => flushed5_eq V c t) (fun i => cover5 i)

/-! ## The reconstruction array -/

/-- The reconstruction payload at one element of block row `T`: when the latent payload's rows are rows
    `1024 T …` of `L`, the element at block position `y` is the reconstruction array's at the array position `i`
    that `y` sits at. -/
theorem rec_point (x0 : Vec Ideal S1024x1024 .f32) (W : Vec Ideal S1024x64 .f32) (b : Vec Ideal S1x64 .f32)
    (Wd : Vec Ideal S64x1024 .f32) (bd : Vec Ideal S1x1024 .f32) (L : S8192x64.Idx → EReal) (T : Nat)
    (hL : ∀ (x : S1024x64.Idx) (k : S8192x64.Idx), (k 0).val = 1024 * T + (x 0).val → (k 1).val = (x 1).val →
      Gen.k0_pay1 (F := Ideal) x0 W b x = L k)
    (y : S1024x1024.Idx) (i : S8192x1024.Idx)
    (hi0 : (i 0).val = 1024 * T + (y 0).val) (hi1 : (i 1).val = (y 1).val) :
    Gen.k0_pay2 (F := Ideal) x0 W b Wd bd y = recOf L Wd bd i := by
  obtain ⟨p, q, rfl⟩ : ∃ (p : Fin 1024) (q : Fin 1024), y = ix2 p q := ⟨y 0, y 1, eq_ix2 y⟩
  obtain ⟨r, s, rfl⟩ : ∃ (r : Fin 8192) (s : Fin 1024), i = ix2 r s := ⟨i 0, i 1, eq_ix2 i⟩
  have hs : s = q := Fin.ext hi1
  subst hs
  rw [pay2_apply]
  show _ = (∑ k : Fin 64, L (ix2 r k) * Wd (ix2 k s)) + bd (ix2 0 s)
  congr 1
  exact Finset.sum_congr rfl fun k _ => by rw [hL (ix2 p k) (ix2 r k) hi0 rfl]

/-- What point `t` writes back to the reconstruction array is block `t` of `recArr`. -/
theorem flushed6_eq (c : Dev nD) (t : Fin cfg0.N) :
    (dat0 (F := Ideal) V c).flushed 6 t = ((cfg0.win 6).blk t).view.read (Elt Ideal) (recArr V c) := by
  show (cfg0.win 6).cut (grid0.coords t) ((dat0 V c).after 6 t) = _
  rw [after0_6, out0_6_eq]
  obtain ⟨-, -, -, -, -, -, -, -, -, -, -, -, e0, e1⟩ := idx_facts t
  have hLat : latArr V c = latOf (V c main_arg0) (iblk0 V c 1 t) (iblk0 V c 2 t) := by
    rw [wblk1_eq V c t, wblk2_eq V c t]; rfl
  have hR : recArr V c = recOf (latArr V c) (iblk0 V c 3 t) (iblk0 V c 4 t) := by
    rw [wblk3_eq V c t, wblk4_eq V c t]; rfl
  funext y
  rw [View.read_apply]
  show Gen.k0_pay2 (F := Ideal) (iblk0 V c 0 t) (iblk0 V c 1 t) (iblk0 V c 2 t) (iblk0 V c 3 t) (iblk0 V c 4 t) y
    = recArr V c (((cfg0.win 6).blk t).view.emb y)
  rw [hR]
  refine rec_point _ _ _ _ _ _ t.val (fun x k h0 h1 => ?_) y _ ?_ ?_
  · rw [hLat]
    exact lat_point _ _ _ _ t.val (fun x' k' h0' h1' => xblk_apply V c t x' k' h0' h1') x k h0 h1
  · show win0_6.index t (0 : Fin 2) * 1024 + 1 * (y 0).val = 1024 * t.val + (y 0).val; rw [e0]; omega
  · show win0_6.index t (1 : Fin 2) * 1024 + 1 * (y 1).val = (y 1).val; rw [e1]; omega

/-- An index of the reconstruction array is in point `t`'s block iff each coordinate is in the block's range on its axis. -/
theorem mem_blk6 (t : Fin cfg0.N) (i : S8192x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v2_1).slice (win0_6.rect t)).set ↔ _
  rw [View.set_slice_whole, Rect.mem_set_unit]
  exact Iff.rfl

/-- Row `r` of the reconstruction array is in the block of point `r / 1024`, which writes back. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, -, -, e0, e1⟩ := idx_facts t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; rw [e0, ht]; omega
  | ⟨1, _⟩ => show win0_6.index t (1 : Fin 2) * 1024 ≤ (i 1).val ∧ (i 1).val < win0_6.index t (1 : Fin 2) * 1024 + 1024; rw [e1]; omega

/-- The reconstruction array after the last grid point. -/
theorem recon_final (c : Dev nD) : (dat0 (F := Ideal) V c).arrAt 6 cfg0.N = recArr V c :=
  (dat0 (F := Ideal) V c).arrAt_eq_of_cover 6 (recArr V c) (fun t _ => flushed6_eq V c t) (fun i => cover6 i)

end Cert.KernelIdeal.EncDecValue

end
-- ==== Proof.Spec.lean ====
/-
  The specification of the three results, on the extended reals, index by index, as functions of the argument arrays:
  the latent rows  x · Wₑ + bₑ,  the reconstruction  latent · W_d + b_d,  and the maximum-mean-discrepancy loss of the
  true samples against the latent rows under the Gaussian kernel  k(a, b) = exp(−‖a − b‖² / 64²), the squared distance
  written out as  ‖a‖² + ‖b‖² − 2·⟨a, b⟩:
      loss = mean k(ts, ts) + mean k(lat, lat) − 2 · mean k(ts, lat),   mean over all 8192 × 8192 pairs.
  The float constants are kept as the f32 words the programs print (4096 = 0x45800000, 2²⁶ = 0x4C800000,
  2 = 0x40000000) and the quotients are the instance's division: the same words stand on both sides and are never
  evaluated. This module imports no program.
-/
import Idealize.ShloMosaic.PureOps.Ideal
import Idealize.ShloMosaic.Lib.ValueIdx

noncomputable section

open scoped BigOperators

namespace Cert.Spec

open Idealize.ShloMosaic Idealize.ShloMosaic.ValueIdx

/-- f32 arrays at the exact instance, by literal shape. -/
abbrev A8192x1024 : Type := FVec Ideal ⟨2, ![8192, 1024]⟩ .f32
abbrev A8192x64 : Type := FVec Ideal ⟨2, ![8192, 64]⟩ .f32
abbrev A1024x64 : Type := FVec Ideal ⟨2, ![1024, 64]⟩ .f32
abbrev A64x1024 : Type := FVec Ideal ⟨2, ![64, 1024]⟩ .f32
abbrev A64 : Type := FVec Ideal ⟨1, ![64]⟩ .f32
abbrev A1024 : Type := FVec Ideal ⟨1, ![1024]⟩ .f32

/-- The latent rows: row `p` of `x` against column `q` of the encoder weights, plus the encoder bias. -/
def latent (x : A8192x1024) (We : A1024x64) (be : A64) : A8192x64 := fun i =>
  (∑ k : Fin 1024, x (ix2 (i 0) k) * We (ix2 k (i 1))) + be (ix1 (i 1))

theorem latent_apply (x : A8192x1024) (We : A1024x64) (be : A64) (p : Fin 8192) (q : Fin 64) :
    latent x We be (ix2 p q) = (∑ k : Fin 1024, x (ix2 p k) * We (ix2 k q)) + be (ix1 q) := rfl

/-- The reconstruction: row `p` of the latent rows against column `q` of the decoder weights, plus the decoder bias. -/
def recon (lat : A8192x64) (Wd : A64x1024) (bd : A1024) : A8192x1024 := fun i =>
  (∑ k : Fin 64, lat (ix2 (i 0) k) * Wd (ix2 k (i 1))) + bd (ix1 (i 1))

theorem recon_apply (lat : A8192x64) (Wd : A64x1024) (bd : A1024) (p : Fin 8192) (q : Fin 1024) :
    recon lat Wd bd (ix2 p q) = (∑ k : Fin 64, lat (ix2 p k) * Wd (ix2 k q)) + bd (ix1 q) := rfl

/-- The squared norm of row `i`. -/
def sqn (a : A8192x64) (i : Fin 8192) : EReal := ∑ d : Fin 64, a (ix2 i d) * a (ix2 i d)

/-- The inner product of row `i` of `a` with row `j` of `b`. -/
def gram (a b : A8192x64) (i j : Fin 8192) : EReal := ∑ d : Fin 64, a (ix2 i d) * b (ix2 j d)

/-- The Gaussian kernel of row `i` of `a` and row `j` of `b`: exp(−(‖aᵢ‖² + ‖bⱼ‖² − 2·⟨aᵢ, bⱼ⟩) / 4096). -/
def kern (a b : A8192x64) (i j : Fin 8192) : EReal :=
  Ideal.exp (Ideal.div (-((sqn a i + sqn b j) - (Ideal.ofBits .f32 0x40000000#32 : EReal) * gram a b i j))
    (Ideal.ofBits .f32 0x45800000#32 : EReal))

/-- The mean of an 8192 × 8192 matrix: the sum over all pairs, divided by 2²⁶. -/
def mean (K : Fin 8192 → Fin 8192 → EReal) : EReal :=
  Ideal.div (∑ i : Fin 8192, ∑ j : Fin 8192, K i j) (Ideal.ofBits .f32 0x4C800000#32 : EReal)

/-- The maximum mean discrepancy of the true samples `ts` and the latent rows `lat`. -/
def loss (ts lat : A8192x64) : EReal :=
  (mean (kern ts ts) + mean (kern lat lat)) - (Ideal.ofBits .f32 0x40000000#32 : EReal) * mean (kern ts lat)

end Cert.Spec

end
-- ==== Proof.Value.EncDecSpec.lean ====
/-
  The first kernel's two output arrays, written over the one-row bias matrices the kernel is given, are the
  specification's latent rows and reconstruction over the bias vectors: a vector re-laid as a one-row matrix reads, at
  `(0, q)`, the vector at `q`. And a sum over the second kernel's grid points is the sum over `256` indices.
-/
import proofs.«125475_j62268435857718_1_alg».proof.Proof.Value.EncDecArrays
import proofs.«125475_j62268435857718_1_alg».proof.Proof.Spec
import Idealize.ShloMosaic.Lib.ValueLayout
import Idealize.ShloMosaic.Lib.ValueIdx

noncomputable section

namespace Cert.KernelIdeal.EncDecSpec

open Cert.KernelIdeal Cert.KernelIdeal.Gen Cert.KernelIdeal.EncDecValue
open Idealize.ShloMosaic Idealize.ShloMosaic.ValueIdx
open scoped BigOperators

/-- The latent array over the encoder bias re-laid as one row is the specification's latent rows over the bias vector. -/
theorem latOf_eq (A0 : S8192x1024.Idx → EReal) (We : S1024x64.Idx → EReal) (be : S64.Idx → EReal)
    (h : S64.ShapeCasts S1x64) :
    latOf A0 We (shapeCast S1x64 be h) = Cert.Spec.latent A0 We be := by
  funext j
  obtain ⟨p, q, rfl⟩ : ∃ (p : Fin 8192) (q : Fin 64), j = ix2 p q := ⟨j 0, j 1, eq_ix2 j⟩
  show (∑ k : Fin 1024, A0 (ix2 p k) * We (ix2 k q)) + shapeCast S1x64 be h (ix2 (0 : Fin 1) q)
    = (∑ k : Fin 1024, A0 (ix2 p k) * We (ix2 k q)) + be (ix1 q)
  rw [shapeCast_a_1a_apply]

/-- The reconstruction array over the decoder bias re-laid as one row is the specification's reconstruction over the
    bias vector. -/
theorem recOf_eq (L : S8192x64.Idx → EReal) (Wd : S64x1024.Idx → EReal) (bd : S1024.Idx → EReal)
    (h : S1024.ShapeCasts S1x1024) :
    recOf L Wd (shapeCast S1x1024 bd h) = Cert.Spec.recon L Wd bd := by
  funext j
  obtain ⟨p, q, rfl⟩ : ∃ (p : Fin 8192) (q : Fin 1024), j = ix2 p q := ⟨j 0, j 1, eq_ix2 j⟩
  show (∑ k : Fin 64, L (ix2 p k) * Wd (ix2 k q)) + shapeCast S1x1024 bd h (ix2 (0 : Fin 1) q)
    = (∑ k : Fin 64, L (ix2 p k) * Wd (ix2 k q)) + bd (ix1 q)
  rw [shapeCast_a_1a_apply]

/-- A sum over the second kernel's grid points, each read as an index below `256`, is the sum over the `256` indices. -/
theorem sum_points {M : Type*} [AddCommMonoid M] (f : Fin 256 → M) :
    ∑ t : Fin Cert.KernelIdeal.cfg1.N, f (Fin.cast Cert.KernelIdeal.Gen.N_1 t) = ∑ t : Fin 256, f t :=
  (finCongr Cert.KernelIdeal.Gen.N_1).sum_comp f

end Cert.KernelIdeal.EncDecSpec

end
-- ==== Proof.Value.SumAlgebra.lean ====
/-
  The sum algebra between block-wise sums and whole sums, in any additive commutative monoid (the
  extended reals among them: regrouping a finite sum needs no finiteness of its terms): a sum over
  `N = m · n` indices is the sum over the `m` blocks of the sums over each block's `n` indices; a
  double sum over `8192 × 8192` is the sum over the `16 × 16` blocks of the `512 × 512` double sums;
  and the `16 × 16` blocks enumerated row-major by one index `t < 256` as `(t / 16, t % 16)`.
  Last, the scale of the Gaussian kernel's mean: the product with the word of `2⁻¹²` is the quotient
  by the word of `4096`, on every extended real.
-/
import Idealize.ShloMosaic.PureOps.Ideal

noncomputable section

namespace Cert.SumAlgebra

open Idealize.ShloMosaic
open scoped BigOperators

/-! ## Blocks of indices -/

/-- Index `p` of block `b`, blocks of `n`, is below `m · n`. -/
theorem blk_lt {m n N : ℕ} (h : m * n = N) (b : Fin m) (p : Fin n) : b.val * n + p.val < N := by
  rw [← h]
  calc b.val * n + p.val < b.val * n + n := Nat.add_lt_add_left p.isLt _
    _ = (b.val + 1) * n := (Nat.succ_mul _ _).symm
    _ ≤ m * n := Nat.mul_le_mul_right _ b.isLt

/-- Index `p` of block `b` among `N = m · n` indices in blocks of `n`: `b · n + p`. -/
def blk {m n N : ℕ} (h : m * n = N) (b : Fin m) (p : Fin n) : Fin N := ⟨b.val * n + p.val, blk_lt h b p⟩

@[simp] theorem blk_val {m n N : ℕ} (h : m * n = N) (b : Fin m) (p : Fin n) :
    (blk h b p).val = b.val * n + p.val := rfl

/-- A sum over `N = m · n` indices is the sum over the blocks of each block's sum. -/
theorem sum_blocks {M : Type*} [AddCommMonoid M] {m n N : ℕ} (h : m * n = N) (g : Fin N → M) :
    ∑ i, g i = ∑ b : Fin m, ∑ p : Fin n, g (blk h b p) := by
  subst h
  rw [← Equiv.sum_comp finProdFinEquiv g, Fintype.sum_prod_type]
  refine Finset.sum_congr rfl fun b _ => Finset.sum_congr rfl fun p _ => congrArg g (Fin.ext ?_)
  show p.val + n * b.val = b.val * n + p.val
  rw [Nat.mul_comm, Nat.add_comm]

/-- A double sum over `N × N`, `N = m · n`, is the sum over the `m × m` blocks of the `n × n` double sums. -/
theorem sum_sum_blocks {M : Type*} [AddCommMonoid M] {m n N : ℕ} (h : m * n = N) (f : Fin N → Fin N → M) :
    ∑ i, ∑ j, f i j
      = ∑ bi : Fin m, ∑ bj : Fin m, ∑ p : Fin n, ∑ q : Fin n, f (blk h bi p) (blk h bj q) := by
  rw [sum_blocks h fun i => ∑ j, f i j]
  refine Finset.sum_congr rfl fun bi _ => ?_
  calc ∑ p : Fin n, ∑ j, f (blk h bi p) j
      = ∑ p : Fin n, ∑ bj : Fin m, ∑ q : Fin n, f (blk h bi p) (blk h bj q) :=
        Finset.sum_congr rfl fun p _ => sum_blocks h (f (blk h bi p))
    _ = ∑ bj : Fin m, ∑ p : Fin n, ∑ q : Fin n, f (blk h bi p) (blk h bj q) := Finset.sum_comm

/-! ## The kernel's sizes: 8192 = 16 · 512 -/

/-- Row (or column) `p` of block `b` of the `8192` rows in blocks of `512`: `b · 512 + p`. -/
abbrev blk512 (b : Fin 16) (p : Fin 512) : Fin 8192 := blk (show 16 * 512 = 8192 from rfl) b p

theorem blk512_val (b : Fin 16) (p : Fin 512) : (blk512 b p).val = b.val * 512 + p.val := rfl

/-- The whole `8192 × 8192` double sum is the sum over the `16 × 16` blocks of the `512 × 512` block sums. -/
theorem sum_8192_blocks {M : Type*} [AddCommMonoid M] (f : Fin 8192 → Fin 8192 → M) :
    ∑ i, ∑ j, f i j
      = ∑ bi : Fin 16, ∑ bj : Fin 16, ∑ p : Fin 512, ∑ q : Fin 512, f (blk512 bi p) (blk512 bj q) :=
  sum_sum_blocks _ f

/-! ## The grid's points, row-major -/

/-- Point `t` of an `m × n` grid run row-major lies in row `t / n`, which is below `m`. -/
theorem div_lt_rows {m n N : ℕ} (h : m * n = N) (t : Fin N) : t.val / n < m := by
  subst h
  exact Nat.div_lt_of_lt_mul (lt_of_lt_of_eq t.isLt (Nat.mul_comm m n))

/-- A double sum over an `m × n` grid is one sum over its `m · n` points, point `t` at `(t / n, t % n)`. -/
theorem sum_grid_rowMajor {M : Type*} [AddCommMonoid M] {m n N : ℕ} (h : m * n = N) (hn : 0 < n)
    (g : Fin m → Fin n → M) :
    ∑ bi : Fin m, ∑ bj : Fin n, g bi bj
      = ∑ t : Fin N, g ⟨t.val / n, div_lt_rows h t⟩ ⟨t.val % n, Nat.mod_lt _ hn⟩ := by
  subst h
  rw [← Fintype.sum_prod_type (f := fun x : Fin m × Fin n => g x.1 x.2),
    ← Equiv.sum_comp finProdFinEquiv.symm (fun x : Fin m × Fin n => g x.1 x.2)]
  rfl

/-- The `16 × 16` grid's row coordinate of point `t`. -/
abbrev gridRow (t : Fin 256) : Fin 16 := ⟨t.val / 16, by have := t.isLt; omega⟩
/-- The `16 × 16` grid's column coordinate of point `t`. -/
abbrev gridCol (t : Fin 256) : Fin 16 := ⟨t.val % 16, by omega⟩

/-- The double sum over the `16 × 16` grid is one sum over its `256` points in the order the grid runs them. -/
theorem sum_grid16 {M : Type*} [AddCommMonoid M] (g : Fin 16 → Fin 16 → M) :
    ∑ bi : Fin 16, ∑ bj : Fin 16, g bi bj = ∑ t : Fin 256, g (gridRow t) (gridCol t) :=
  sum_grid_rowMajor (show 16 * 16 = 256 from rfl) (by decide) g

/-- The whole `8192 × 8192` double sum as ONE sum over the `256` grid points of the `512 × 512` block sums. -/
theorem sum_8192_grid {M : Type*} [AddCommMonoid M] (f : Fin 8192 → Fin 8192 → M) :
    ∑ i, ∑ j, f i j
      = ∑ t : Fin 256, ∑ p : Fin 512, ∑ q : Fin 512, f (blk512 (gridRow t) p) (blk512 (gridCol t) q) := by
  rw [sum_8192_blocks, sum_grid16 fun bi bj => ∑ p : Fin 512, ∑ q : Fin 512, f (blk512 bi p) (blk512 bj q)]

/-! ## The scale: the product with `2⁻¹²` is the quotient by `4096` -/

/-- The word `0x45800000` denotes the real `4096`. -/
theorem ofBits_4096 : Ideal.ofBits .f32 0x45800000#32 = ((4096 : ℝ) : EReal) := by
  simp [Ideal.ofBits, Ideal.ieee, -EReal.coe_mul]; norm_num

/-- The word `0x39800000` denotes the real `1 / 4096`. -/
theorem ofBits_inv4096 : Ideal.ofBits .f32 0x39800000#32 = (((1 : ℝ) / 4096 : ℝ) : EReal) := by
  simp [Ideal.ofBits, Ideal.ieee, -EReal.coe_mul]; norm_num

/-- The kernel's scale meets the reference's quotient on every extended real. -/
theorem mul_inv4096_eq_div (x : EReal) :
    x * Ideal.ofBits .f32 0x39800000#32 = Ideal.div x (Ideal.ofBits .f32 0x45800000#32) := by
  rw [ofBits_4096, ofBits_inv4096, Ideal.div_coe (by norm_num : (4096 : ℝ) ≠ 0)]

end Cert.SumAlgebra

end
-- ==== Proof.Value.MmdBlocks.lean ====
/- Region 1's four input blocks read at one element, at the exact instance: on the 16 × 16 grid, enumerated row-major
   by one index `t < 256`, the two row windows stage rows `512 (t / 16) …` and the two column windows rows
   `512 (t % 16) …` of the input array and of the latent array. -/
import proofs.«125475_j62268435857718_1_alg».proof.Proof.Ideal.MmdRuns
import proofs.«125475_j62268435857718_1_alg».proof.Proof.Value.SumAlgebra
import Idealize.ShloMosaic.Lib.Pipeline.Value
import Idealize.ShloMosaic.Lib.ValueIdx

set_option maxRecDepth 16384

noncomputable section

namespace Cert.KernelIdeal.MmdBlocks

open Cert.KernelIdeal Cert.KernelIdeal.Gen Cert.KernelIdeal.Hand Cert.SumAlgebra
open Idealize.ShloMosaic Idealize.ShloMosaic.TcCoe Idealize.SL.Sem Idealize.ShloMosaic.ValueIdx

variable (V : (c : Dev nD) → (b : Ref sig .tc) → Buf (Elt Ideal) ((c : Thread nD τ).loc b))

/-- The printed index maps of region 1, decided over the 256 grid points: windows 0 and 1 sit at row block `t / 16`,
    windows 2 and 3 at row block `t % 16`, all at column block 0. -/
theorem idx_facts1 : ∀ t : Fin cfg1.N,
    win1_0.index t (0 : Fin 2) = t.val / 16 ∧ win1_0.index t (1 : Fin 2) = 0
    ∧ win1_1.index t (0 : Fin 2) = t.val / 16 ∧ win1_1.index t (1 : Fin 2) = 0
    ∧ win1_2.index t (0 : Fin 2) = t.val % 16 ∧ win1_2.index t (1 : Fin 2) = 0
    ∧ win1_3.index t (0 : Fin 2) = t.val % 16 ∧ win1_3.index t (1 : Fin 2) = 0 :=
  (by decide +kernel : ∀ t : Fin grid1.N, _)

/-- Window 0's block at point `t` is rows `512 (t / 16) …` of its array. -/
theorem iblk1_0_apply (c : Dev nD) (t : Fin cfg1.N) (p : Fin 512) (d : Fin 64) :
    (iblk1 (F := Ideal) V c 0 t : Vec Ideal S512x64 .f32) (ix2 p d)
      = (V c main_arg1 : S8192x64.Idx → EReal) (ix2 (blk512 (gridRow (Fin.cast N_1 t)) p) d) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 512 + 1 * p.val = t.val / 16 * 512 + p.val; rw [e0]; omega
  | ⟨1, _⟩ => show win1_0.index t (1 : Fin 2) * 64 + 1 * d.val = d.val; rw [e1]; omega

/-- Window 1's block at point `t` is rows `512 (t / 16) …` of its array. -/
theorem iblk1_1_apply (c : Dev nD) (t : Fin cfg1.N) (p : Fin 512) (d : Fin 64) :
    (iblk1 (F := Ideal) V c 1 t : Vec Ideal S512x64 .f32) (ix2 p d)
      = (V c main_v2_0 : S8192x64.Idx → EReal) (ix2 (blk512 (gridRow (Fin.cast N_1 t)) p) d) := by
  obtain ⟨-, -, e0, e1, -⟩ := idx_facts1 t
  unfold iblk1
  rw [View.read_apply]
  show V c main_v2_0 _ = V c main_v2_0 _
  congr 1
  funext a
  apply Fin.ext
  match a with
  | ⟨0, _⟩ => show win1_1.index t (0 : Fin 2) * 512 + 1 * p.val = t.val / 16 * 512 + p.val; rw [e0]; omega
  | ⟨1, _⟩ => show win1_1.index t (1 : Fin 2) * 64 + 1 * d.val = d.val; rw [e1]; omega

/-- Window 2's block at point `t` is rows `512 (t % 16) …` of its array. -/
theorem iblk1_2_apply (c : Dev nD) (t : Fin cfg1.N) (p : Fin 512) (d : Fin 64) :
    (iblk1 (F := Ideal) V c 2 t : Vec Ideal S512x64 .f32) (ix2 p d)
      = (V c main_arg1 : S8192x64.Idx → EReal) (ix2 (blk512 (gridCol (Fin.cast N_1 t)) p) d) := by
  obtain ⟨-, -, -, -, e0, e1, -⟩ := idx_facts1 t
  unfold iblk1
  rw [View.read_apply]
  show V c main_arg1 _ = V c main_arg1 _
  congr 1
  funext a
  apply Fin.ext
  match a with
  | ⟨0, _⟩ => show win1_2.index t (0 : Fin 2) * 512 + 1 * p.val = t.val % 16 * 512 + p.val; rw [e0]; omega
  | ⟨1, _⟩ => show win1_2.index t (1 : Fin 2) * 64 + 1 * d.val = d.val; rw [e1]; omega

/-- Window 3's block at point `t` is rows `512 (t % 16) …` of its array. -/
theorem iblk1_3_apply (c : Dev nD) (t : Fin cfg1.N) (p : Fin 512) (d : Fin 64) :
    (iblk1 (F := Ideal) V c 3 t : Vec Ideal S512x64 .f32) (ix2 p d)
      = (V c main_v2_0 : S8192x64.Idx → EReal) (ix2 (blk512 (gridCol (Fin.cast N_1 t)) p) d) := by
  obtain ⟨-, -, -, -, -, -, e0, e1⟩ := idx_facts1 t
  unfold iblk1
  rw [View.read_apply]
  show V c main_v2_0 _ = V c main_v2_0 _
  congr 1
  funext a
  apply Fin.ext
  match a with
  | ⟨0, _⟩ => show win1_3.index t (0 : Fin 2) * 512 + 1 * p.val = t.val % 16 * 512 + p.val; rw [e0]; omega
  | ⟨1, _⟩ => show win1_3.index t (1 : Fin 2) * 64 + 1 * d.val = d.val; rw [e1]; omega

end Cert.KernelIdeal.MmdBlocks

end
-- ==== Proof.Ideal.MmdPieces.lean ====
/- Region 1 of @main — the tiled Gaussian-kernel sums: what each case of the body leaves in each scratch accumulator
   and (at the last point) in each output, read back as VALUES. Every store of the body overwrites a whole 8 × 128
   buffer, so what a buffer ends with is the payload of its last store: the block's sum `∑ exp(−‖x_r − y_s‖² / 64²)`
   over the 512 × 512 pairs of the row block and the column block, broadcast and added to what the accumulator held —
   the zero block at the first point, what the point before left elsewhere. The three accumulators are the xx, yy and
   xy sums; at the last point each output receives its accumulator's new contents. -/
import proofs.«125475_j62268435857718_1_alg».proof.Proof.Ideal.Mmd

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zero. -/
theorem hz1_00 : (![0, 0] : Fin 2 → Nat) = fun _ => 0 := funext fun a => by fin_cases a <;> rfl

/-- Case A leaves in accumulator 0 the zero block plus the block's sum (the accumulator is zeroed, read back, and added to). -/
theorem sout1_A_0_eq (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) :
    sout1_A_0 c i arg2 harg2 arg3 harg3 arg4 harg4 arg5 harg5 arg6 harg6 arg7 harg7 arg8 harg8 arg9 harg9 arg10 harg10 arg11 harg11 hc0 hc1 x0 x1 x2 x3 = k1_pay14 (k1_pay13 x0 x2) (Scalar.ofBits .f32 0x39800000#32) (k1_pay2 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S8x128) hz1_00, View.readCov_unit_zero (S := S8x128) _ hz1_00]
  simp only [View.readAt_eq_ld, harg2.read_unread, harg4.read_unread, View.ld_unit_zero (S := S8x128) hz1_00, View.ld_unit_zero (S := S512x64) hz1_00]

/-- Case A leaves in accumulator 1 the zero block plus the block's sum (the accumulator is zeroed, read back, and added to). -/
theorem sout1_A_1_eq (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) :
    sout1_A_1 c i arg2 harg2 arg3 harg3 arg4 harg4 arg5 harg5 arg6 harg6 arg7 harg7 arg8 harg8 arg9 harg9 arg10 harg10 arg11 harg11 hc0 hc1 x0 x1 x2 x3 = k1_pay15 (k1_pay8 x1) (k1_pay9 x3) (k1_pay11 x1) (k1_pay12 x3) (k1_pay3 (F := F)) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S8x128) hz1_00, View.readCov_unit_zero (S := S8x128) _ hz1_00]
  simp only [View.readAt_eq_ld, harg3.read_unread, harg5.read_unread, View.ld_unit_zero (S := S8x128) hz1_00, View.ld_unit_zero (S := S512x64) hz1_00]

/-- Case A leaves in accumulator 2 the zero block plus the block's sum (the accumulator is zeroed, read back, and added to). -/
theorem sout1_A_2_eq (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : cond1_0 i) (hc1 : ¬cond1_1 i)
    (x0 : Vec F S512x64 .f32) (x1 : Vec F S512x64 .f32) (x2 : Vec F S512x64 .f32) (x3 : Vec F S512x64 .f32) :
    sout1_A_2 c i arg2 harg2 arg3 harg3 arg4 harg4 arg5 harg5 arg6 harg6 arg7 harg7 arg8 harg8 arg9 harg9 arg10 harg10 arg11 harg11 hc0 hc1 x0 x1 x2 x3 = k1_pay1 (k1_pay16 (k1_pay10 x0) (k1_pay12 x3)) (k1_pay17 (k1_pay7 x0) (k1_pay9 x3)) (k1_pay4 (F := F)) := by
  unfold sout1_A_2
  rw [View.read_writes_eq_canon _ _ _ (scover1_A_2 c i arg2 harg2 arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S8x128) hz1_00, View.readCov_unit_zero (S := S8x128) _ hz1_00]
  simp only [View.readAt_eq_ld, harg2.read_unread, harg5.read_unread, View.ld_unit_zero (S := S8x128) hz1_00, View.ld_unit_zero (S := S512x64) hz1_00]

/-- Case B leaves in accumulator 0 what it held plus the block's sum. -/
theorem sout1_B_0_eq (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    sout1_B_0 c i arg2 harg2 arg3 harg3 arg4 harg4 arg5 harg5 arg6 harg6 arg7 harg7 arg8 harg8 arg9 harg9 arg10 harg10 arg11 harg11 hc0 hc1 x0 x1 x2 x3 xs0 xs1 xs2 = k1_pay14 (k1_pay13 x0 x2) (Scalar.ofBits .f32 0x39800000#32) xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_B
  dsimp only
  sl_unfold_words
  rw [View.canon_unit_zero hz1_00]
  simp only [View.readAt_eq_ld, harg2.read_unread, harg4.read_unread, harg9.read_unread, View.ld_unit_zero (S := S8x128) hz1_00, View.ld_unit_zero (S := S512x64) hz1_00]

/-- Case B leaves in accumulator 1 what it held plus the block's sum. -/
theorem sout1_B_1_eq (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    sout1_B_1 c i arg2 harg2 arg3 harg3 arg4 harg4 arg5 harg5 arg6 harg6 arg7 harg7 arg8 harg8 arg9 harg9 arg10 harg10 arg11 harg11 hc0 hc1 x0 x1 x2 x3 xs0 xs1 xs2 = k1_pay15 (k1_pay8 x1) (k1_pay9 x3) (k1_pay11 x1) (k1_pay12 x3) xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_B
  dsimp only
  sl_unfold_words
  rw [View.canon_unit_zero hz1_00]
  simp only [View.readAt_eq_ld, harg3.read_unread, harg5.read_unread, harg10.read_unread, View.ld_unit_zero (S := S8x128) hz1_00, View.ld_unit_zero (S := S512x64) hz1_00]

/-- Case B leaves in accumulator 2 what it held plus the block's sum. -/
theorem sout1_B_2_eq (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : ¬cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    sout1_B_2 c i arg2 harg2 arg3 harg3 arg4 harg4 arg5 harg5 arg6 harg6 arg7 harg7 arg8 harg8 arg9 harg9 arg10 harg10 arg11 harg11 hc0 hc1 x0 x1 x2 x3 xs0 xs1 xs2 = k1_pay1 (k1_pay16 (k1_pay10 x0) (k1_pay12 x3)) (k1_pay17 (k1_pay7 x0) (k1_pay9 x3)) xs2 := by
  unfold sout1_B_2
  rw [View.read_writes_eq_canon _ _ _ (scover1_B_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_B
  dsimp only
  sl_unfold_words
  rw [View.canon_unit_zero hz1_00]
  simp only [View.readAt_eq_ld, harg2.read_unread, harg5.read_unread, harg11.read_unread, View.ld_unit_zero (S := S8x128) hz1_00, View.ld_unit_zero (S := S512x64) hz1_00]

/-- Case C leaves in accumulator 0 what it held plus the block's sum. -/
theorem sout1_C_0_eq (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    sout1_C_0 c i arg2 harg2 arg3 harg3 arg4 harg4 arg5 harg5 arg6 harg6 arg7 harg7 arg8 harg8 arg9 harg9 arg10 harg10 arg11 harg11 hc0 hc1 x0 x1 x2 x3 xs0 xs1 xs2 = k1_pay14 (k1_pay13 x0 x2) (Scalar.ofBits .f32 0x39800000#32) xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_C
  dsimp only
  sl_unfold_words
  rw [View.canon_unit_zero hz1_00]
  simp only [View.readAt_eq_ld, harg2.read_unread, harg4.read_unread, harg9.read_unread, View.ld_unit_zero (S := S8x128) hz1_00, View.ld_unit_zero (S := S512x64) hz1_00]

/-- Case C leaves in accumulator 1 what it held plus the block's sum. -/
theorem sout1_C_1_eq (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    sout1_C_1 c i arg2 harg2 arg3 harg3 arg4 harg4 arg5 harg5 arg6 harg6 arg7 harg7 arg8 harg8 arg9 harg9 arg10 harg10 arg11 harg11 hc0 hc1 x0 x1 x2 x3 xs0 xs1 xs2 = k1_pay15 (k1_pay8 x1) (k1_pay9 x3) (k1_pay11 x1) (k1_pay12 x3) xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_C
  dsimp only
  sl_unfold_words
  rw [View.canon_unit_zero hz1_00]
  simp only [View.readAt_eq_ld, harg3.read_unread, harg5.read_unread, harg10.read_unread, View.ld_unit_zero (S := S8x128) hz1_00, View.ld_unit_zero (S := S512x64) hz1_00]

/-- Case C leaves in accumulator 2 what it held plus the block's sum. -/
theorem sout1_C_2_eq (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    sout1_C_2 c i arg2 harg2 arg3 harg3 arg4 harg4 arg5 harg5 arg6 harg6 arg7 harg7 arg8 harg8 arg9 harg9 arg10 harg10 arg11 harg11 hc0 hc1 x0 x1 x2 x3 xs0 xs1 xs2 = k1_pay1 (k1_pay16 (k1_pay10 x0) (k1_pay12 x3)) (k1_pay17 (k1_pay7 x0) (k1_pay9 x3)) xs2 := by
  unfold sout1_C_2
  rw [View.read_writes_eq_canon _ _ _ (scover1_C_2 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_C
  dsimp only
  sl_unfold_words
  rw [View.canon_unit_zero hz1_00]
  simp only [View.readAt_eq_ld, harg2.read_unread, harg5.read_unread, harg11.read_unread, View.ld_unit_zero (S := S8x128) hz1_00, View.ld_unit_zero (S := S512x64) hz1_00]

/-- At the last point output 4 receives accumulator 0's new contents: what it held plus the block's sum. -/
theorem out1_C_4_eq (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    out1_C_4 c i arg2 harg2 arg3 harg3 arg4 harg4 arg5 harg5 arg6 harg6 arg7 harg7 arg8 harg8 arg9 harg9 arg10 harg10 arg11 harg11 hc0 hc1 x0 x1 x2 x3 xs0 xs1 xs2 = k1_pay14 (k1_pay13 x0 x2) (Scalar.ofBits .f32 0x39800000#32) xs0 := by
  unfold out1_C_4
  rw [View.read_writes_eq_canon _ _ _ (cover1_C_4 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_C
  dsimp only
  sl_unfold_words
  rw [View.canon_unit_zero hz1_00, View.readCov_unit_zero (S := S8x128) _ hz1_00]
  simp only [View.readAt_eq_ld, harg2.read_unread, harg4.read_unread, harg9.read_unread, View.ld_unit_zero (S := S8x128) hz1_00, View.ld_unit_zero (S := S512x64) hz1_00]

/-- At the last point output 5 receives accumulator 1's new contents: what it held plus the block's sum. -/
theorem out1_C_5_eq (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    out1_C_5 c i arg2 harg2 arg3 harg3 arg4 harg4 arg5 harg5 arg6 harg6 arg7 harg7 arg8 harg8 arg9 harg9 arg10 harg10 arg11 harg11 hc0 hc1 x0 x1 x2 x3 xs0 xs1 xs2 = k1_pay15 (k1_pay8 x1) (k1_pay9 x3) (k1_pay11 x1) (k1_pay12 x3) xs1 := by
  unfold out1_C_5
  rw [View.read_writes_eq_canon _ _ _ (cover1_C_5 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_C
  dsimp only
  sl_unfold_words
  rw [View.canon_unit_zero hz1_00, View.readCov_unit_zero (S := S8x128) _ hz1_00]
  simp only [View.readAt_eq_ld, harg3.read_unread, harg5.read_unread, harg10.read_unread, View.ld_unit_zero (S := S8x128) hz1_00, View.ld_unit_zero (S := S512x64) hz1_00]

/-- At the last point output 6 receives accumulator 2's new contents: what it held plus the block's sum. -/
theorem out1_C_6_eq (c : Dev nD) (i : grid1.Coords) (arg2 : Memref sig .tc .vmem S512x64 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (hc0 : ¬cond1_0 i) (hc1 : cond1_1 i)
    (x0 : Vec F S512x64 .f32) (x1 : Vec F S512x64 .f32) (x2 : Vec F S512x64 .f32) (x3 : Vec F S512x64 .f32) (xs0 : Vec F S8x128 .f32) (xs1 : Vec F S8x128 .f32) (xs2 : Vec F S8x128 .f32) :
    out1_C_6 c i arg2 harg2 arg3 harg3 arg4 harg4 arg5 harg5 arg6 harg6 arg7 harg7 arg8 harg8 arg9 harg9 arg10 harg10 arg11 harg11 hc0 hc1 x0 x1 x2 x3 xs0 xs1 xs2 = k1_pay1 (k1_pay16 (k1_pay10 x0) (k1_pay12 x3)) (k1_pay17 (k1_pay7 x0) (k1_pay9 x3)) xs2 := by
  unfold out1_C_6
  rw [View.read_writes_eq_canon _ _ _ (cover1_C_6 c i arg2 harg2 arg3 harg3 arg4 harg4 arg5 harg5 arg6 harg6 arg7 harg7 arg8 harg8 arg9 harg9 arg10 harg10 arg11 harg11 hc0 hc1 x0 x1 x2 x3 xs0 xs1 xs2)]
  unfold kernelRun1_C
  dsimp only
  sl_unfold_words
  rw [View.canon_unit_zero hz1_00, View.readCov_unit_zero (S := S8x128) _ hz1_00]
  simp only [View.readAt_eq_ld, harg2.read_unread, harg5.read_unread, harg11.read_unread, View.ld_unit_zero (S := S8x128) hz1_00, View.ld_unit_zero (S := S512x64) hz1_00]

section Region1

-- the TensorCore's buffer contents when the region is entered
variable (V : (c : Dev nD) → (b : Ref sig .tc) → Buf (Elt F) ((c : Thread nD τ).loc b))

/-! ## The accumulators point by point: the recurrence an induction over the grid runs on -/

/-- Accumulator 0 (the xx sum) after the first point: the zero block plus the first block's sum. -/
theorem acc1_0_first (c : Dev nD) (t : Fin cfg1.N) (h0 : t.val = 0) :
    (outsAt1 V c t.val t.isLt).2.2.2.1 = k1_pay14 (k1_pay13 (iblk1 V c 0 t) (iblk1 V c 2 t)) (Scalar.ofBits .f32 0x39800000#32) (k1_pay2 (F := F)) := by
  have h1 : ¬t.val = 255 := by omega
  rw [outsAt1_A V c t h0 h1]; dsimp only
  exact sout1_A_0_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)

/-- Accumulator 0 after any later point: what the point before left plus this point's block sum. -/
theorem acc1_0_next (c : Dev nD) (t : Fin cfg1.N) (h0 : ¬t.val = 0) :
    (outsAt1 V c t.val t.isLt).2.2.2.1 = k1_pay14 (k1_pay13 (iblk1 V c 0 t) (iblk1 V c 2 t)) (Scalar.ofBits .f32 0x39800000#32) (outsAt1 V c (t.val - 1) (Nat.lt_of_le_of_lt (Nat.sub_le _ _) t.isLt)).2.2.2.1 := by
  by_cases h1 : t.val = 255
  · rw [outsAt1_C V c t h0 h1]; dsimp only
    exact sout1_C_0_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2
  · rw [outsAt1_B V c t h0 h1]; dsimp only
    exact sout1_B_0_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2

/-- Accumulator 1 (the yy sum) after the first point: the zero block plus the first block's sum. -/
theorem acc1_1_first (c : Dev nD) (t : Fin cfg1.N) (h0 : t.val = 0) :
    (outsAt1 V c t.val t.isLt).2.2.2.2.1 = k1_pay15 (k1_pay8 (iblk1 V c 1 t)) (k1_pay9 (iblk1 V c 3 t)) (k1_pay11 (iblk1 V c 1 t)) (k1_pay12 (iblk1 V c 3 t)) (k1_pay3 (F := F)) := by
  have h1 : ¬t.val = 255 := by omega
  rw [outsAt1_A V c t h0 h1]; dsimp only
  exact sout1_A_1_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)

/-- Accumulator 1 after any later point: what the point before left plus this point's block sum. -/
theorem acc1_1_next (c : Dev nD) (t : Fin cfg1.N) (h0 : ¬t.val = 0) :
    (outsAt1 V c t.val t.isLt).2.2.2.2.1 = k1_pay15 (k1_pay8 (iblk1 V c 1 t)) (k1_pay9 (iblk1 V c 3 t)) (k1_pay11 (iblk1 V c 1 t)) (k1_pay12 (iblk1 V c 3 t)) (outsAt1 V c (t.val - 1) (Nat.lt_of_le_of_lt (Nat.sub_le _ _) t.isLt)).2.2.2.2.1 := by
  by_cases h1 : t.val = 255
  · rw [outsAt1_C V c t h0 h1]; dsimp only
    exact sout1_C_1_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2
  · rw [outsAt1_B V c t h0 h1]; dsimp only
    exact sout1_B_1_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2

/-- Accumulator 2 (the xy sum) after the first point: the zero block plus the first block's sum. -/
theorem acc1_2_first (c : Dev nD) (t : Fin cfg1.N) (h0 : t.val = 0) :
    (outsAt1 V c t.val t.isLt).2.2.2.2.2 = k1_pay1 (k1_pay16 (k1_pay10 (iblk1 V c 0 t)) (k1_pay12 (iblk1 V c 3 t))) (k1_pay17 (k1_pay7 (iblk1 V c 0 t)) (k1_pay9 (iblk1 V c 3 t))) (k1_pay4 (F := F)) := by
  have h1 : ¬t.val = 255 := by omega
  rw [outsAt1_A V c t h0 h1]; dsimp only
  exact sout1_A_2_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)

/-- Accumulator 2 after any later point: what the point before left plus this point's block sum. -/
theorem acc1_2_next (c : Dev nD) (t : Fin cfg1.N) (h0 : ¬t.val = 0) :
    (outsAt1 V c t.val t.isLt).2.2.2.2.2 = k1_pay1 (k1_pay16 (k1_pay10 (iblk1 V c 0 t)) (k1_pay12 (iblk1 V c 3 t))) (k1_pay17 (k1_pay7 (iblk1 V c 0 t)) (k1_pay9 (iblk1 V c 3 t))) (outsAt1 V c (t.val - 1) (Nat.lt_of_le_of_lt (Nat.sub_le _ _) t.isLt)).2.2.2.2.2 := by
  by_cases h1 : t.val = 255
  · rw [outsAt1_C V c t h0 h1]; dsimp only
    exact sout1_C_2_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2
  · rw [outsAt1_B V c t h0 h1]; dsimp only
    exact sout1_B_2_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2

/-- Output 4's staging buffer after the last point holds accumulator 0's final contents. -/
theorem out1_4_last (c : Dev nD) (t : Fin cfg1.N) (h1 : t.val = 255) :
    (outsAt1 V c t.val t.isLt).1 = (outsAt1 V c t.val t.isLt).2.2.2.1 := by
  have h0 : ¬t.val = 0 := by omega
  rw [acc1_0_next V c t h0, outsAt1_C V c t h0 h1]; dsimp only
  exact out1_C_4_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2

/-- Output 5's staging buffer after the last point holds accumulator 1's final contents. -/
theorem out1_5_last (c : Dev nD) (t : Fin cfg1.N) (h1 : t.val = 255) :
    (outsAt1 V c t.val t.isLt).2.1 = (outsAt1 V c t.val t.isLt).2.2.2.2.1 := by
  have h0 : ¬t.val = 0 := by omega
  rw [acc1_1_next V c t h0, outsAt1_C V c t h0 h1]; dsimp only
  exact out1_C_5_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2

/-- Output 6's staging buffer after the last point holds accumulator 2's final contents. -/
theorem out1_6_last (c : Dev nD) (t : Fin cfg1.N) (h1 : t.val = 255) :
    (outsAt1 V c t.val t.isLt).2.2.1 = (outsAt1 V c t.val t.isLt).2.2.2.2.2 := by
  have h0 : ¬t.val = 0 := by omega
  rw [acc1_2_next V c t h0, outsAt1_C V c t h0 h1]; dsimp only
  exact out1_C_6_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2

end Region1

end Cert.KernelIdeal.Hand

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.Value.MmdPay.lean ====
/-
  The second kernel's body at one grid point, at the exact instance (floats are extended reals,
  every operation exact, a change of format the identity). With `a` a block of 512 rows and `b` a
  block of 512 rows of the 64-dimensional samples, the body forms for every pair `(p, q)` the
  squared distance `|a_p|² + |b_q|² − 2 a_p·b_q`, negates it, scales it, takes the exponential,
  sums the `512 × 512` values (along the lanes, then along the rows) and adds the sum to every
  entry of an `8 × 128` accumulator. Three accumulators: rows of x against columns of x, rows of y
  against columns of y, rows of x against columns of y.
-/
import proofs.«125475_j62268435857718_1_alg».proof.Proof.Gen.KernelIdeal.Skeleton
import proofs.«125475_j62268435857718_1_alg».proof.Proof.LibKeepdims
import Idealize.ShloMosaic.Lib.ValueLayout
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx Cert.LibKeepdims
open scoped BigOperators

/-! ## The mathematics of one pair of blocks -/

/-- The squared norm of row `p` of a `512 × 64` block. -/
def rowSq (a : Vec Ideal S512x64 .f32) (p : Fin 512) : EReal := ∑ d : Fin 64, a (ix2 p d) * a (ix2 p d)

/-- Row `p` of `a` against row `q` of `b`. -/
def rowDot (a b : Vec Ideal S512x64 .f32) (p q : Fin 512) : EReal := ∑ d : Fin 64, a (ix2 p d) * b (ix2 q d)

/-- The Gaussian kernel of row `p` of `a` and row `q` of `b`: the exponential of the negated squared distance
    times the scale; the factor `2.0` and the scale `2⁻¹²` are the words the kernel spells. -/
def gauss (a b : Vec Ideal S512x64 .f32) (p q : Fin 512) : EReal :=
  Ideal.exp ((-(rowSq a p + rowSq b q - Ideal.ofBits .f32 0x40000000#32 * rowDot a b p q))
    * Ideal.ofBits .f32 0x39800000#32)

/-- The sum of the Gaussian kernel over every pair of rows of the two blocks. -/
def blockSum (a b : Vec Ideal S512x64 .f32) : EReal := ∑ p : Fin 512, ∑ q : Fin 512, gauss a b p q

/-! ## Layout and reduction steps at an index -/

/-- A `[1, 1]` array repeated to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (r : Fin a) (l : Fin b) :
    broadcastTo ⟨2, ![a, b]⟩ v h (ix2 r l) = v (ix2 (0 : Fin 1) (0 : Fin 1)) := by
  refine broadcastTo_apply v h (ix2 r l) (ix2 (0 : Fin 1) (0 : Fin 1)) fun ax => ?_
  match ax with
  | ⟨0, _⟩ => rfl
  | ⟨1, _⟩ => rfl

/-- The sum of an `[a, b]` block over its second axis is at `p` the sum of the `b` entries of row `p`. -/
theorem rowSum_apply {a b : ℕ} (src : FVec Ideal ⟨2, ![a, b]⟩ .f32) (h : Shape.Reduces ⟨2, ![a, b]⟩ [1] ⟨1, ![a]⟩)
    (hφ : FKind.Formats .f32) (ha : (0x00000000#32 : BitVec 32) = 0x00000000#32) (p : Fin a) :
    multiReduction .add [1] ⟨1, ![a]⟩ src 0x00000000#32 h hφ ha (ix1 p) = ∑ k : Fin b, src (ix2 p k) :=
  multiReduction_add_row src _ h hφ ha p

/-- The sum of an `[a, 1]` column over its first axis is the sum of its `a` entries. -/
theorem colSum_apply {a : ℕ} (src : FVec Ideal ⟨2, ![a, 1]⟩ .f32) (h : Shape.Reduces ⟨2, ![a, 1]⟩ [0] ⟨1, ![1]⟩)
    (hφ : FKind.Formats .f32) (ha : (0x00000000#32 : BitVec 32) = 0x00000000#32) (u : Fin 1) :
    multiReduction .add [0] ⟨1, ![1]⟩ src 0x00000000#32 h hφ ha (ix1 u) = ∑ k : Fin a, src (ix2 k u) :=
  (Ideal.multiReduction_add_single src _ h hφ ha (ix1 u)).trans
    (Finset.sum_congr rfl fun k _ => congrArg src (funext fun ax => Fin.ext (by
      match ax with
      | ⟨0, _⟩ => rfl
      | ⟨1, _⟩ => rfl)))

/-- The whole sum of a `512 × 512` block (lanes, then rows), repeated over `8 × 128` and added to an accumulator. -/
theorem fullSum_apply (K : FVec Ideal S512x512 .f32) (old : FVec Ideal S8x128 .f32)
    (h1 : Shape.Reduces S512x512 [1] S512) (hφ1 : FKind.Formats .f32)
    (ha1 : (0x00000000#32 : BitVec 32) = 0x00000000#32) (c1 : S512.ShapeCasts S512x1)
    (h2 : Shape.Reduces S512x1 [0] S1) (hφ2 : FKind.Formats .f32)
    (ha2 : (0x00000000#32 : BitVec 32) = 0x00000000#32) (c2 : S1.ShapeCasts S1x1)
    (c3 : S1x1.ShapeCasts S1x1) (b : S1x1.Broadcasts S8x128) (c4 : S8x128.ShapeCasts S8x128)
    (r : Fin 8) (l : Fin 128) :
    shapeCast S8x128 (addf old (broadcastTo S8x128 (shapeCast S1x1 (shapeCast S1x1
        (multiReduction .add [0] S1 (shapeCast S512x1
          (multiReduction .add [1] S512 K 0x00000000#32 h1 hφ1 ha1) c1) 0x00000000#32 h2 hφ2 ha2) c2) c3) b)) c4
        (ix2 r l)
      = old (ix2 r l) + ∑ p : Fin 512, ∑ q : Fin 512, K (ix2 p q) := by
  rw [shapeCast_self, addf_apply, broadcastTo_11_ab_apply, shapeCast_self, shapeCast_a_1a_apply, colSum_apply]
  refine congrArg (old (ix2 r l) + ·) (Finset.sum_congr rfl fun p _ => ?_)
  rw [shapeCast_a_a1_apply, rowSum_apply]

/-! ## The product of a block with another's transpose -/

theorem nt_lhs0 (i : S512x512.Idx) (c : dot_S512x64_S512x64_S512x512_1_1_0_0_n_n.contr.Idx) :
    (dot_S512x64_S512x64_S512x512_1_1_0_0_n_n.lhsIdx i c 0).val = (i 0).val := by
  unfold DotDims.lhsIdx
  rw [dif_neg (show ¬(0 : Fin S512x64.rank) ∈ dot_S512x64_S512x64_S512x512_1_1_0_0_n_n.lhsBatch by decide),
    dif_pos (show (0 : Fin S512x64.rank) ∈ dot_S512x64_S512x64_S512x512_1_1_0_0_n_n.lhsNonContracting by decide)]
  rfl
theorem nt_lhs1 (i : S512x512.Idx) (c : dot_S512x64_S512x64_S512x512_1_1_0_0_n_n.contr.Idx) :
    (dot_S512x64_S512x64_S512x512_1_1_0_0_n_n.lhsIdx i c 1).val = (c ⟨0, by decide⟩).val :=
  dot_S512x64_S512x64_S512x512_1_1_0_0_n_n.lhsIdx_val_of_single rfl i c
theorem nt_rhs0 (i : S512x512.Idx) (c : dot_S512x64_S512x64_S512x512_1_1_0_0_n_n.contr.Idx) :
    (dot_S512x64_S512x64_S512x512_1_1_0_0_n_n.rhsIdx i c 0).val = (i 1).val := by
  unfold DotDims.rhsIdx
  rw [dif_neg (show ¬(0 : Fin S512x64.rank) ∈ dot_S512x64_S512x64_S512x512_1_1_0_0_n_n.rhsBatch by decide),
    dif_pos (show (0 : Fin S512x64.rank) ∈ dot_S512x64_S512x64_S512x512_1_1_0_0_n_n.rhsNonContracting by decide)]
  rfl
theorem nt_rhs1 (i : S512x512.Idx) (c : dot_S512x64_S512x64_S512x512_1_1_0_0_n_n.contr.Idx) :
    (dot_S512x64_S512x64_S512x512_1_1_0_0_n_n.rhsIdx i c 1).val = (c ⟨0, by decide⟩).val :=
  dot_S512x64_S512x64_S512x512_1_1_0_0_n_n.rhsIdx_val_of_single rfl i c

/-- The product of a `512 × 64` block with the transpose of another, into the zero block, at `(p, q)`: row `p`
    of the first against row `q` of the second. -/
theorem nt_matmul_apply {φ₁ φ₂ : FTy} (lhs : FVec Ideal S512x64 φ₁) (rhs : FVec Ideal S512x64 φ₂)
    (p q : Fin 512) :
    FloatOps.matmul dot_S512x64_S512x64_S512x512_1_1_0_0_n_n none lhs rhs (constant S512x512 .f32 0x00000000#32) (ix2 p q)
      = ∑ d : Fin 64, lhs (ix2 p d) * rhs (ix2 q d) := by
  rw [Ideal.matmul_constant_zero_apply, ← Equiv.sum_comp (contrEquiv1 dot_S512x64_S512x64_S512x512_1_1_0_0_n_n 64 rfl rfl).symm]
  refine Finset.sum_congr rfl fun k _ => ?_
  have hk := contrEquiv1_symm_val dot_S512x64_S512x64_S512x512_1_1_0_0_n_n 64 rfl rfl k
  have el : dot_S512x64_S512x64_S512x512_1_1_0_0_n_n.lhsIdx (ix2 p q) ((contrEquiv1 dot_S512x64_S512x64_S512x512_1_1_0_0_n_n 64 rfl rfl).symm k) = ix2 p k :=
    funext fun a => Fin.ext (by
      match a with
      | ⟨0, _⟩ => exact nt_lhs0 _ _
      | ⟨1, _⟩ => exact (nt_lhs1 _ _).trans hk)
  have er : dot_S512x64_S512x64_S512x512_1_1_0_0_n_n.rhsIdx (ix2 p q) ((contrEquiv1 dot_S512x64_S512x64_S512x512_1_1_0_0_n_n 64 rfl rfl).symm k) = ix2 q k :=
    funext fun a => Fin.ext (by
      match a with
      | ⟨0, _⟩ => exact nt_rhs0 _ _
      | ⟨1, _⟩ => exact (nt_rhs1 _ _).trans hk)
  rw [el, er]

/-! ## The small payloads at an index -/

/-- A block cast to its own shape is the block. -/
theorem pay5_eq (v6 : Vec Ideal S512x64 .f32) : Gen.k1_pay5 (F := Ideal) v6 = v6 := by
  unfold Gen.k1_pay5; exact shapeCast_self _ _
theorem pay6_eq (v9 : Vec Ideal S512x64 .f32) : Gen.k1_pay6 (F := Ideal) v9 = v9 := by
  unfold Gen.k1_pay6; exact shapeCast_self _ _

/-- The squared norms of a block's rows, kept as a column. -/
theorem sqCol_apply (v : FVec Ideal S512x64 .f32) (h : Shape.Reduces S512x64 [1] S512) (hφ : FKind.Formats .f32)
    (ha : (0x00000000#32 : BitVec 32) = 0x00000000#32) (c : S512.ShapeCasts S512x1) (p : Fin 512) (u : Fin 1) :
    shapeCast S512x1 (multiReduction .add [1] S512 (mulf v v) 0x00000000#32 h hφ ha) c (ix2 p u) = rowSq v p := by
  rw [shapeCast_a_a1_apply, rowSum_apply]
  rfl

/-- The squared norms of a block's rows, laid as a row. -/
theorem sqRow_apply (v : FVec Ideal S512x64 .f32) (h : Shape.Reduces S512x64 [1] S512) (hφ : FKind.Formats .f32)
    (ha : (0x00000000#32 : BitVec 32) = 0x00000000#32) (c : S512.ShapeCasts S512x1)
    (t : S512x1.Transposes [1, 0] S1x512) (u : Fin 1) (q : Fin 512) :
    transpose S1x512 [1, 0] (shapeCast S512x1 (multiReduction .add [1] S512 (mulf v v) 0x00000000#32 h hφ ha) c) t
        (ix2 u q) = rowSq v q := by
  rw [transpose_ix2_apply, sqCol_apply]

theorem pay7_apply (v5 : Vec Ideal S512x64 .f32) (p : Fin 512) (u : Fin 1) :
    Gen.k1_pay7 (F := Ideal) v5 (ix2 p u) = rowSq v5 p := by
  unfold Gen.k1_pay7
  exact sqCol_apply v5 _ _ _ _ p u

theorem pay8_apply (v6 : Vec Ideal S512x64 .f32) (p : Fin 512) (u : Fin 1) :
    Gen.k1_pay8 (F := Ideal) v6 (ix2 p u) = rowSq v6 p := by
  unfold Gen.k1_pay8
  rw [pay5_eq]
  exact sqCol_apply v6 _ _ _ _ p u

theorem pay9_apply (v9 : Vec Ideal S512x64 .f32) (u : Fin 1) (q : Fin 512) :
    Gen.k1_pay9 (F := Ideal) v9 (ix2 u q) = rowSq v9 q := by
  unfold Gen.k1_pay9
  rw [pay6_eq]
  exact sqRow_apply v9 _ _ _ _ _ u q

theorem pay10_apply (v5 : Vec Ideal S512x64 .f32) (i : S512x64.Idx) : Gen.k1_pay10 (F := Ideal) v5 i = v5 i := rfl
theorem pay11_apply (v6 : Vec Ideal S512x64 .f32) (i : S512x64.Idx) : Gen.k1_pay11 (F := Ideal) v6 i = v6 i := by
  unfold Gen.k1_pay11; rw [pay5_eq]; rfl
theorem pay12_apply (v9 : Vec Ideal S512x64 .f32) (i : S512x64.Idx) : Gen.k1_pay12 (F := Ideal) v9 i = v9 i := by
  unfold Gen.k1_pay12; rw [pay6_eq]; rfl

/-- The first-point payloads are the zero block. -/
theorem pay2_zero (r : Fin 8) (l : Fin 128) : Gen.k1_pay2 (F := Ideal) (ix2 r l) = 0 := by
  unfold Gen.k1_pay2
  rw [shapeCast_self, broadcast_apply]
  exact Ideal.ofBits_zero_f32
theorem pay3_zero (r : Fin 8) (l : Fin 128) : Gen.k1_pay3 (F := Ideal) (ix2 r l) = 0 := by
  unfold Gen.k1_pay3
  rw [shapeCast_self, broadcast_apply]
  exact Ideal.ofBits_zero_f32
theorem pay4_zero (r : Fin 8) (l : Fin 128) : Gen.k1_pay4 (F := Ideal) (ix2 r l) = 0 := by
  unfold Gen.k1_pay4
  rw [shapeCast_self, broadcast_apply]
  exact Ideal.ofBits_zero_f32

/-! ## The negated squared distances, and the three accumulator stores -/

/-- The exponential of a block at an index is the exponential of its entry. -/
theorem exp_apply (x : FVec Ideal S512x512 .f32) (i : S512x512.Idx) : exp x i = Ideal.exp (x i) := rfl

/-- Rows of the first block against rows of the second: the negated squared distance at `(p, q)`. -/
theorem pay13_apply (v5 v8 : Vec Ideal S512x64 .f32) (p q : Fin 512) :
    Gen.k1_pay13 (F := Ideal) v5 v8 (ix2 p q)
      = -(rowSq v5 p + rowSq v8 q - Ideal.ofBits .f32 0x40000000#32 * rowDot v5 v8 p q) := by
  unfold Gen.k1_pay13
  simp only [matmul]
  rw [subf_apply, subf_apply, addf_apply, mulf_apply, broadcast_apply, broadcast_apply,
    nt_matmul_apply, broadcastTo_a1_ab_apply, pay7_apply, broadcastTo_1b_ab_apply, sqRow_apply]
  show Ideal.ofBits .f32 0x00000000#32
      - (rowSq v5 p + rowSq v8 q - Ideal.ofBits .f32 0x40000000#32 * rowDot v5 v8 p q) = _
  rw [Ideal.ofBits_zero_f32, zero_sub]

/-- The store into the first accumulator: the old entry plus the whole sum of the scaled exponentials. -/
theorem pay14_apply (v37 : FVec Ideal S512x512 .f32) (c : Ideal .f32) (old : Vec Ideal S8x128 .f32)
    (r : Fin 8) (l : Fin 128) :
    Gen.k1_pay14 (F := Ideal) v37 c old (ix2 r l)
      = old (ix2 r l) + ∑ p : Fin 512, ∑ q : Fin 512, Ideal.exp (v37 (ix2 p q) * c) := by
  unfold Gen.k1_pay14
  exact fullSum_apply (exp (mulf v37 (broadcast S512x512 c))) old _ _ _ _ _ _ _ _ _ _ _ r l

/-- The store into the second accumulator, from the squared norms (a column and a row) and the two blocks. -/
theorem pay15_apply (v20 : FVec Ideal S512x1 .f32) (v24 : FVec Ideal S1x512 .f32)
    (v26 v28 : FVec Ideal S512x64 .bf16) (old : Vec Ideal S8x128 .f32) (r : Fin 8) (l : Fin 128) :
    Gen.k1_pay15 (F := Ideal) v20 v24 v26 v28 old (ix2 r l)
      = old (ix2 r l) + ∑ p : Fin 512, ∑ q : Fin 512,
          Ideal.exp ((-(v20 (ix2 p (0 : Fin 1)) + v24 (ix2 (0 : Fin 1) q)
              - Ideal.ofBits .f32 0x40000000#32 * ∑ d : Fin 64, v26 (ix2 p d) * v28 (ix2 q d)))
            * Ideal.ofBits .f32 0x39800000#32) := by
  unfold Gen.k1_pay15
  simp only [matmul]
  refine (fullSum_apply _ old _ _ _ _ _ _ _ _ _ _ _ r l).trans ?_
  refine congrArg (old (ix2 r l) + ·) (Finset.sum_congr rfl fun p _ => Finset.sum_congr rfl fun q _ => ?_)
  rw [exp_apply, mulf_apply, subf_apply, subf_apply, addf_apply, mulf_apply, broadcast_apply, broadcast_apply,
    broadcast_apply, nt_matmul_apply, broadcastTo_a1_ab_apply, broadcastTo_1b_ab_apply]
  show Ideal.exp ((Ideal.ofBits .f32 0x00000000#32 - (v20 (ix2 p (0 : Fin 1)) + v24 (ix2 (0 : Fin 1) q)
      - Ideal.ofBits .f32 0x40000000#32 * ∑ d : Fin 64, v26 (ix2 p d) * v28 (ix2 q d)))
    * Ideal.ofBits .f32 0x39800000#32) = _
  rw [Ideal.ofBits_zero_f32, zero_sub]

/-- Rows of the first block against rows of the second, at `(p, q)`. -/
theorem pay16_apply (v25 v28 : FVec Ideal S512x64 .bf16) (p q : Fin 512) :
    Gen.k1_pay16 (F := Ideal) v25 v28 (ix2 p q) = ∑ d : Fin 64, v25 (ix2 p d) * v28 (ix2 q d) := by
  unfold Gen.k1_pay16
  simp only [matmul]
  exact nt_matmul_apply v25 v28 p q

/-- A column repeated along the rows plus a row repeated along the columns, at `(p, q)`. -/
theorem pay17_apply (v13 : FVec Ideal S512x1 .f32) (v24 : FVec Ideal S1x512 .f32) (p q : Fin 512) :
    Gen.k1_pay17 (F := Ideal) v13 v24 (ix2 p q) = v13 (ix2 p (0 : Fin 1)) + v24 (ix2 (0 : Fin 1) q) := by
  unfold Gen.k1_pay17
  rw [addf_apply, broadcastTo_a1_ab_apply, broadcastTo_1b_ab_apply]

/-- The store into the third accumulator, from the products and the sums of squared norms. -/
theorem k1_pay1_apply (v75 v78 : FVec Ideal S512x512 .f32) (old : Vec Ideal S8x128 .f32) (r : Fin 8) (l : Fin 128) :
    Gen.k1_pay1 (F := Ideal) v75 v78 old (ix2 r l)
      = old (ix2 r l) + ∑ p : Fin 512, ∑ q : Fin 512,
          Ideal.exp ((-(v78 (ix2 p q) - Ideal.ofBits .f32 0x40000000#32 * v75 (ix2 p q)))
            * Ideal.ofBits .f32 0x39800000#32) := by
  unfold Gen.k1_pay1
  refine (fullSum_apply _ old _ _ _ _ _ _ _ _ _ _ _ r l).trans ?_
  refine congrArg (old (ix2 r l) + ·) (Finset.sum_congr rfl fun p _ => Finset.sum_congr rfl fun q _ => ?_)
  rw [exp_apply, mulf_apply, subf_apply, subf_apply, mulf_apply, broadcast_apply, broadcast_apply, broadcast_apply]
  show Ideal.exp ((Ideal.ofBits .f32 0x00000000#32
      - (v78 (ix2 p q) - Ideal.ofBits .f32 0x40000000#32 * v75 (ix2 p q)))
    * Ideal.ofBits .f32 0x39800000#32) = _
  rw [Ideal.ofBits_zero_f32, zero_sub]

/-! ## The three stores over the loaded blocks -/

/-- x rows against x columns: the first accumulator gains the block pair's Gaussian-kernel sum. -/
theorem xx_apply (xr xc : Vec Ideal S512x64 .f32) (old : Vec Ideal S8x128 .f32) (r : Fin 8) (l : Fin 128) :
    Gen.k1_pay14 (F := Ideal) (Gen.k1_pay13 (F := Ideal) xr xc) (Scalar.ofBits (F := Ideal) .f32 0x39800000#32) old
        (ix2 r l) = old (ix2 r l) + blockSum xr xc := by
  refine (pay14_apply _ _ old r l).trans ?_
  unfold blockSum
  refine congrArg (old (ix2 r l) + ·) (Finset.sum_congr rfl fun p _ => Finset.sum_congr rfl fun q _ => ?_)
  rw [pay13_apply]
  rfl

/-- y rows against y columns: the second accumulator gains the block pair's Gaussian-kernel sum. -/
theorem yy_apply (yr yc : Vec Ideal S512x64 .f32) (old : Vec Ideal S8x128 .f32) (r : Fin 8) (l : Fin 128) :
    Gen.k1_pay15 (F := Ideal) (Gen.k1_pay8 (F := Ideal) yr) (Gen.k1_pay9 (F := Ideal) yc)
        (Gen.k1_pay11 (F := Ideal) yr) (Gen.k1_pay12 (F := Ideal) yc) old (ix2 r l)
      = old (ix2 r l) + blockSum yr yc := by
  refine (pay15_apply _ _ _ _ old r l).trans ?_
  unfold blockSum
  refine congrArg (old (ix2 r l) + ·) (Finset.sum_congr rfl fun p _ => Finset.sum_congr rfl fun q _ => ?_)
  rw [pay8_apply, pay9_apply]
  simp only [pay11_apply, pay12_apply]
  rfl

/-- x rows against y columns: the third accumulator gains the block pair's Gaussian-kernel sum. -/
theorem xy_apply (xr yc : Vec Ideal S512x64 .f32) (old : Vec Ideal S8x128 .f32) (r : Fin 8) (l : Fin 128) :
    Gen.k1_pay1 (F := Ideal) (Gen.k1_pay16 (F := Ideal) (Gen.k1_pay10 (F := Ideal) xr) (Gen.k1_pay12 (F := Ideal) yc))
        (Gen.k1_pay17 (F := Ideal) (Gen.k1_pay7 (F := Ideal) xr) (Gen.k1_pay9 (F := Ideal) yc)) old (ix2 r l)
      = old (ix2 r l) + blockSum xr yc := by
  refine (k1_pay1_apply _ _ old r l).trans ?_
  unfold blockSum
  refine congrArg (old (ix2 r l) + ·) (Finset.sum_congr rfl fun p _ => Finset.sum_congr rfl fun q _ => ?_)
  rw [pay17_apply, pay16_apply, pay7_apply, pay9_apply]
  simp only [pay10_apply, pay12_apply]
  rfl

end Cert.KernelIdeal.PayValue

end
-- ==== Proof.Value.MmdSums.lean ====
/- The second kernel's region read as a value, at the exact instance (floats are extended reals). Each of its three
   8 × 128 accumulators — rows of x against columns of x, rows of y against columns of y, rows of x against columns of
   y — starts as the zero block at the first grid point and at every point has the block's Gaussian-kernel sum added
   to every entry; so after point `t` it is the constant array of the sum, over the points `0 … t`, of those block
   sums (by induction on the point; addition of extended reals needs no order here: each step appends one term on the
   right). The last point copies the accumulators into the three outputs' buffers, the only point that writes them
   back; the block written is the whole 8 × 128 array. So after the region each output array is the constant array of
   the sum over all 256 points. -/
import proofs.«125475_j62268435857718_1_alg».proof.Proof.Ideal.MmdPieces
import proofs.«125475_j62268435857718_1_alg».proof.Proof.Value.MmdPay
import Idealize.ShloMosaic.Lib.Pipeline.Value
import Idealize.ShloMosaic.Lib.ValueIdx

set_option maxRecDepth 16384

noncomputable section

namespace Cert.KernelIdeal.MmdValue

open Cert.KernelIdeal Cert.KernelIdeal.Gen Cert.KernelIdeal.Hand Cert.KernelIdeal.PayValue
open Idealize.ShloMosaic Idealize.ShloMosaic.TcCoe Idealize.SL.Sem Idealize.ShloMosaic.ValueIdx
open Idealize.ShloMosaic.Pipeline (Dat)
open scoped BigOperators

/-! ## Sums over the first points of the grid -/

/-- The sum of `g` over the points `0 … n` of the grid. -/
def upTo (g : Fin cfg1.N → EReal) (n : ℕ) (hn : n < cfg1.N) : EReal :=
  ∑ s : Fin (n + 1), g ⟨s.val, Nat.lt_of_lt_of_le s.isLt (Nat.succ_le_of_lt hn)⟩

theorem upTo_zero (g : Fin cfg1.N → EReal) (hn : 0 < cfg1.N) : upTo g 0 hn = g ⟨0, hn⟩ := by
  unfold upTo
  rw [Fin.sum_univ_castSucc, Fin.sum_univ_zero, zero_add]
  rfl

theorem upTo_succ (g : Fin cfg1.N → EReal) (n : ℕ) (hn : n + 1 < cfg1.N) :
    upTo g (n + 1) hn = upTo g n (Nat.lt_of_succ_lt hn) + g ⟨n + 1, hn⟩ := by
  unfold upTo
  rw [Fin.sum_univ_castSucc]
  rfl

/-- The last point of the grid. -/
def tLast : Fin cfg1.N := ⟨255, by rw [show cfg1.N = 256 from N_1]; decide⟩

/-- Up to the last point, the sum is over the whole grid. -/
theorem upTo_last (g : Fin cfg1.N → EReal) : upTo g tLast.val tLast.isLt = ∑ t : Fin cfg1.N, g t := by
  unfold upTo
  exact Fin.sum_congr' g (show 255 + 1 = cfg1.N from N_1.symm)

variable (V : (c : Dev nD) → (b : Ref sig .tc) → Buf (Elt Ideal) ((c : Thread nD τ).loc b))

/-! ## The accumulators after each point -/

/-- Accumulator 0 (the xx sum) after point `n`: the constant array of the block sums of points `0 … n` added up. -/
theorem acc0_at (c : Dev nD) : ∀ (n : ℕ) (hn : n < cfg1.N),
    (outsAt1 (F := Ideal) V c n hn).2.2.2.1 = fun _ => upTo (fun t => blockSum (iblk1 V c 0 t) (iblk1 V c 2 t)) n hn
  | 0, hn => by
    refine (acc1_0_first V c ⟨0, hn⟩ rfl).trans ?_
    funext y
    obtain ⟨r, l, rfl⟩ : ∃ r l, y = ix2 r l := ⟨y 0, y 1, eq_ix2 y⟩
    refine (xx_apply (iblk1 V c 0 ⟨0, hn⟩) (iblk1 V c 2 ⟨0, hn⟩) _ r l).trans ?_
    rw [pay2_zero, zero_add]
    exact (upTo_zero (fun t => blockSum (iblk1 V c 0 t) (iblk1 V c 2 t)) hn).symm
  | n + 1, hn => by
    refine (acc1_0_next V c ⟨n + 1, hn⟩ (Nat.succ_ne_zero n)).trans ?_
    funext y
    obtain ⟨r, l, rfl⟩ : ∃ r l, y = ix2 r l := ⟨y 0, y 1, eq_ix2 y⟩
    refine (xx_apply (iblk1 V c 0 ⟨n + 1, hn⟩) (iblk1 V c 2 ⟨n + 1, hn⟩) _ r l).trans ?_
    refine Eq.trans ?_ (upTo_succ (fun t => blockSum (iblk1 V c 0 t) (iblk1 V c 2 t)) n hn).symm
    exact congrArg (fun z => z + blockSum (iblk1 V c 0 ⟨n + 1, hn⟩) (iblk1 V c 2 ⟨n + 1, hn⟩)) (congrFun (acc0_at c n (Nat.lt_of_succ_lt hn)) (ix2 r l))

/-- Accumulator 1 (the yy sum) after point `n`: the constant array of the block sums of points `0 … n` added up. -/
theorem acc1_at (c : Dev nD) : ∀ (n : ℕ) (hn : n < cfg1.N),
    (outsAt1 (F := Ideal) V c n hn).2.2.2.2.1 = fun _ => upTo (fun t => blockSum (iblk1 V c 1 t) (iblk1 V c 3 t)) n hn
  | 0, hn => by
    refine (acc1_1_first V c ⟨0, hn⟩ rfl).trans ?_
    funext y
    obtain ⟨r, l, rfl⟩ : ∃ r l, y = ix2 r l := ⟨y 0, y 1, eq_ix2 y⟩
    refine (yy_apply (iblk1 V c 1 ⟨0, hn⟩) (iblk1 V c 3 ⟨0, hn⟩) _ r l).trans ?_
    rw [pay3_zero, zero_add]
    exact (upTo_zero (fun t => blockSum (iblk1 V c 1 t) (iblk1 V c 3 t)) hn).symm
  | n + 1, hn => by
    refine (acc1_1_next V c ⟨n + 1, hn⟩ (Nat.succ_ne_zero n)).trans ?_
    funext y
    obtain ⟨r, l, rfl⟩ : ∃ r l, y = ix2 r l := ⟨y 0, y 1, eq_ix2 y⟩
    refine (yy_apply (iblk1 V c 1 ⟨n + 1, hn⟩) (iblk1 V c 3 ⟨n + 1, hn⟩) _ r l).trans ?_
    refine Eq.trans ?_ (upTo_succ (fun t => blockSum (iblk1 V c 1 t) (iblk1 V c 3 t)) n hn).symm
    exact congrArg (fun z => z + blockSum (iblk1 V c 1 ⟨n + 1, hn⟩) (iblk1 V c 3 ⟨n + 1, hn⟩)) (congrFun (acc1_at c n (Nat.lt_of_succ_lt hn)) (ix2 r l))

/-- Accumulator 2 (the xy sum) after point `n`: the constant array of the block sums of points `0 … n` added up. -/
theorem acc2_at (c : Dev nD) : ∀ (n : ℕ) (hn : n < cfg1.N),
    (outsAt1 (F := Ideal) V c n hn).2.2.2.2.2 = fun _ => upTo (fun t => blockSum (iblk1 V c 0 t) (iblk1 V c 3 t)) n hn
  | 0, hn => by
    refine (acc1_2_first V c ⟨0, hn⟩ rfl).trans ?_
    funext y
    obtain ⟨r, l, rfl⟩ : ∃ r l, y = ix2 r l := ⟨y 0, y 1, eq_ix2 y⟩
    refine (xy_apply (iblk1 V c 0 ⟨0, hn⟩) (iblk1 V c 3 ⟨0, hn⟩) _ r l).trans ?_
    rw [pay4_zero, zero_add]
    exact (upTo_zero (fun t => blockSum (iblk1 V c 0 t) (iblk1 V c 3 t)) hn).symm
  | n + 1, hn => by
    refine (acc1_2_next V c ⟨n + 1, hn⟩ (Nat.succ_ne_zero n)).trans ?_
    funext y
    obtain ⟨r, l, rfl⟩ : ∃ r l, y = ix2 r l := ⟨y 0, y 1, eq_ix2 y⟩
    refine (xy_apply (iblk1 V c 0 ⟨n + 1, hn⟩) (iblk1 V c 3 ⟨n + 1, hn⟩) _ r l).trans ?_
    refine Eq.trans ?_ (upTo_succ (fun t => blockSum (iblk1 V c 0 t) (iblk1 V c 3 t)) n hn).symm
    exact congrArg (fun z => z + blockSum (iblk1 V c 0 ⟨n + 1, hn⟩) (iblk1 V c 3 ⟨n + 1, hn⟩)) (congrFun (acc2_at c n (Nat.lt_of_succ_lt hn)) (ix2 r l))

/-! ## The outputs after the last point, and the arrays after the region -/

/-- What the region leaves in output 4's array: the constant array of the xx block sums over the whole grid. -/
abbrev total4 (c : Dev nD) : Buf (Elt Ideal) ((c : Thread nD τ).loc main_v3_0) :=
  ((fun _ => ∑ t : Fin cfg1.N, blockSum (iblk1 V c 0 t) (iblk1 V c 2 t)) : S8x128.Idx → EReal)

/-- Output 4's staging buffer after the last point holds it. -/
theorem out4_last (c : Dev nD) : (outsAt1 (F := Ideal) V c tLast.val tLast.isLt).1 = total4 V c := by
  rw [out1_4_last V c tLast rfl, acc0_at V c tLast.val tLast.isLt, upTo_last]
  rfl

/-- The one write-back of output 4, at the last point, writes it: block (0, 0) of the 8 × 128 array is the array. -/
theorem flushed4_eq (c : Dev nD) (t : Fin cfg1.N) (hf : (cfg1.win 4).flush t = true) :
    (dat1 (F := Ideal) V c).flushed 4 t = ((cfg1.win 4).blk t).view.read (Elt Ideal) (total4 V c) := by
  have hN : cfg1.N = 256 := N_1
  have h1 : t.val = 255 := by have := (flush1_4 t).mp hf; have := t.isLt; omega
  obtain rfl : t = tLast := Fin.ext h1
  show (cfg1.win 4).cut (grid1.coords tLast) ((dat1 (F := Ideal) V c).after 4 tLast) = _
  rw [after1_4, out4_last]
  have hz' : (fun a => win1_4.index tLast a * main_v3_0.ty.shape.size a) = fun _ => 0 := funext fun a => by fin_cases a <;> decide +kernel
  exact (Memref.read_access_unit_zero (Elt Ideal) main_v3_0 hz' (fun a => by rw [congrFun hz' a]; simp) (total4 V c)).symm

/-- So after the region output 4's array is the constant array of the xx sum over the 256 grid points. -/
theorem sums_final4 (c : Dev nD) : (dat1 (F := Ideal) V c).arrAt 4 cfg1.N = ((fun _ => ∑ t : Fin cfg1.N, blockSum (iblk1 V c 0 t) (iblk1 V c 2 t)) : S8x128.Idx → EReal) :=
  (dat1 (F := Ideal) V c).arrAt_eq_of_cover 4 (total4 V c) (flushed4_eq V c) fun i =>
    ⟨tLast, (flush1_4 tLast).mpr rfl, by
      show i ∈ ((View.whole main_v3_0).slice (win1_4.rect tLast)).set
      rw [View.set_slice_whole, Rect.mem_set_unit]
      intro a
      have h0 : (i 0 : Nat) < 8 := (i 0).isLt
      have h1 : (i 1 : Nat) < 128 := (i 1).isLt
      match a with
      | ⟨0, _⟩ => show win1_4.index tLast 0 * win1_4.size 0 ≤ (i 0 : Nat) ∧ (i 0 : Nat) < win1_4.index tLast 0 * win1_4.size 0 + win1_4.xsize (grid1.coords tLast) 0
                  rw [show win1_4.index tLast 0 * win1_4.size 0 = 0 from by decide +kernel, show win1_4.xsize (grid1.coords tLast) 0 = 8 from by decide +kernel]; omega
      | ⟨1, _⟩ => show win1_4.index tLast 1 * win1_4.size 1 ≤ (i 1 : Nat) ∧ (i 1 : Nat) < win1_4.index tLast 1 * win1_4.size 1 + win1_4.xsize (grid1.coords tLast) 1
                  rw [show win1_4.index tLast 1 * win1_4.size 1 = 0 from by decide +kernel, show win1_4.xsize (grid1.coords tLast) 1 = 128 from by decide +kernel]; omega⟩

/-- What the region leaves in output 5's array: the constant array of the yy block sums over the whole grid. -/
abbrev total5 (c : Dev nD) : Buf (Elt Ideal) ((c : Thread nD τ).loc main_v3_1) :=
  ((fun _ => ∑ t : Fin cfg1.N, blockSum (iblk1 V c 1 t) (iblk1 V c 3 t)) : S8x128.Idx → EReal)

/-- Output 5's staging buffer after the last point holds it. -/
theorem out5_last (c : Dev nD) : (outsAt1 (F := Ideal) V c tLast.val tLast.isLt).2.1 = total5 V c := by
  rw [out1_5_last V c tLast rfl, acc1_at V c tLast.val tLast.isLt, upTo_last]
  rfl

/-- The one write-back of output 5, at the last point, writes it: block (0, 0) of the 8 × 128 array is the array. -/
theorem flushed5_eq (c : Dev nD) (t : Fin cfg1.N) (hf : (cfg1.win 5).flush t = true) :
    (dat1 (F := Ideal) V c).flushed 5 t = ((cfg1.win 5).blk t).view.read (Elt Ideal) (total5 V c) := by
  have hN : cfg1.N = 256 := N_1
  have h1 : t.val = 255 := by have := (flush1_5 t).mp hf; have := t.isLt; omega
  obtain rfl : t = tLast := Fin.ext h1
  show (cfg1.win 5).cut (grid1.coords tLast) ((dat1 (F := Ideal) V c).after 5 tLast) = _
  rw [after1_5, out5_last]
  have hz' : (fun a => win1_5.index tLast a * main_v3_1.ty.shape.size a) = fun _ => 0 := funext fun a => by fin_cases a <;> decide +kernel
  exact (Memref.read_access_unit_zero (Elt Ideal) main_v3_1 hz' (fun a => by rw [congrFun hz' a]; simp) (total5 V c)).symm

/-- So after the region output 5's array is the constant array of the yy sum over the 256 grid points. -/
theorem sums_final5 (c : Dev nD) : (dat1 (F := Ideal) V c).arrAt 5 cfg1.N = ((fun _ => ∑ t : Fin cfg1.N, blockSum (iblk1 V c 1 t) (iblk1 V c 3 t)) : S8x128.Idx → EReal) :=
  (dat1 (F := Ideal) V c).arrAt_eq_of_cover 5 (total5 V c) (flushed5_eq V c) fun i =>
    ⟨tLast, (flush1_5 tLast).mpr rfl, by
      show i ∈ ((View.whole main_v3_1).slice (win1_5.rect tLast)).set
      rw [View.set_slice_whole, Rect.mem_set_unit]
      intro a
      have h0 : (i 0 : Nat) < 8 := (i 0).isLt
      have h1 : (i 1 : Nat) < 128 := (i 1).isLt
      match a with
      | ⟨0, _⟩ => show win1_5.index tLast 0 * win1_5.size 0 ≤ (i 0 : Nat) ∧ (i 0 : Nat) < win1_5.index tLast 0 * win1_5.size 0 + win1_5.xsize (grid1.coords tLast) 0
                  rw [show win1_5.index tLast 0 * win1_5.size 0 = 0 from by decide +kernel, show win1_5.xsize (grid1.coords tLast) 0 = 8 from by decide +kernel]; omega
      | ⟨1, _⟩ => show win1_5.index tLast 1 * win1_5.size 1 ≤ (i 1 : Nat) ∧ (i 1 : Nat) < win1_5.index tLast 1 * win1_5.size 1 + win1_5.xsize (grid1.coords tLast) 1
                  rw [show win1_5.index tLast 1 * win1_5.size 1 = 0 from by decide +kernel, show win1_5.xsize (grid1.coords tLast) 1 = 128 from by decide +kernel]; omega⟩

/-- What the region leaves in output 6's array: the constant array of the xy block sums over the whole grid. -/
abbrev total6 (c : Dev nD) : Buf (Elt Ideal) ((c : Thread nD τ).loc main_v3_2) :=
  ((fun _ => ∑ t : Fin cfg1.N, blockSum (iblk1 V c 0 t) (iblk1 V c 3 t)) : S8x128.Idx → EReal)

/-- Output 6's staging buffer after the last point holds it. -/
theorem out6_last (c : Dev nD) : (outsAt1 (F := Ideal) V c tLast.val tLast.isLt).2.2.1 = total6 V c := by
  rw [out1_6_last V c tLast rfl, acc2_at V c tLast.val tLast.isLt, upTo_last]
  rfl

/-- The one write-back of output 6, at the last point, writes it: block (0, 0) of the 8 × 128 array is the array. -/
theorem flushed6_eq (c : Dev nD) (t : Fin cfg1.N) (hf : (cfg1.win 6).flush t = true) :
    (dat1 (F := Ideal) V c).flushed 6 t = ((cfg1.win 6).blk t).view.read (Elt Ideal) (total6 V c) := by
  have hN : cfg1.N = 256 := N_1
  have h1 : t.val = 255 := by have := (flush1_6 t).mp hf; have := t.isLt; omega
  obtain rfl : t = tLast := Fin.ext h1
  show (cfg1.win 6).cut (grid1.coords tLast) ((dat1 (F := Ideal) V c).after 6 tLast) = _
  rw [after1_6, out6_last]
  have hz' : (fun a => win1_6.index tLast a * main_v3_2.ty.shape.size a) = fun _ => 0 := funext fun a => by fin_cases a <;> decide +kernel
  exact (Memref.read_access_unit_zero (Elt Ideal) main_v3_2 hz' (fun a => by rw [congrFun hz' a]; simp) (total6 V c)).symm

/-- So after the region output 6's array is the constant array of the xy sum over the 256 grid points. -/
theorem sums_final6 (c : Dev nD) : (dat1 (F := Ideal) V c).arrAt 6 cfg1.N = ((fun _ => ∑ t : Fin cfg1.N, blockSum (iblk1 V c 0 t) (iblk1 V c 3 t)) : S8x128.Idx → EReal) :=
  (dat1 (F := Ideal) V c).arrAt_eq_of_cover 6 (total6 V c) (flushed6_eq V c) fun i =>
    ⟨tLast, (flush1_6 tLast).mpr rfl, by
      show i ∈ ((View.whole main_v3_2).slice (win1_6.rect tLast)).set
      rw [View.set_slice_whole, Rect.mem_set_unit]
      intro a
      have h0 : (i 0 : Nat) < 8 := (i 0).isLt
      have h1 : (i 1 : Nat) < 128 := (i 1).isLt
      match a with
      | ⟨0, _⟩ => show win1_6.index tLast 0 * win1_6.size 0 ≤ (i 0 : Nat) ∧ (i 0 : Nat) < win1_6.index tLast 0 * win1_6.size 0 + win1_6.xsize (grid1.coords tLast) 0
                  rw [show win1_6.index tLast 0 * win1_6.size 0 = 0 from by decide +kernel, show win1_6.xsize (grid1.coords tLast) 0 = 8 from by decide +kernel]; omega
      | ⟨1, _⟩ => show win1_6.index tLast 1 * win1_6.size 1 ≤ (i 1 : Nat) ∧ (i 1 : Nat) < win1_6.index tLast 1 * win1_6.size 1 + win1_6.xsize (grid1.coords tLast) 1
                  rw [show win1_6.index tLast 1 * win1_6.size 1 = 0 from by decide +kernel, show win1_6.xsize (grid1.coords tLast) 1 = 128 from by decide +kernel]; omega⟩

end Cert.KernelIdeal.MmdValue

end
-- ==== Proof.Value.LossBridge.lean ====
/-
  From the blocks to the whole arrays, on the extended reals: the Gaussian kernel of two rows of two blocks of 512
  rows is the specification's kernel of the two rows of the whole 8192-row arrays; so the 256 block sums, one per
  point of the 16 × 16 grid, add up to the kernel summed over all pairs of rows, and the three totals divided by 2²⁶
  and combined are the specification's loss.
-/
import proofs.«125475_j62268435857718_1_alg».proof.Proof.Spec
import proofs.«125475_j62268435857718_1_alg».proof.Proof.Value.SumAlgebra
import proofs.«125475_j62268435857718_1_alg».proof.Proof.Value.MmdPay

noncomputable section

namespace Cert.LossBridge

open Cert.SumAlgebra Cert.KernelIdeal.PayValue Idealize.ShloMosaic Idealize.ShloMosaic.ValueIdx
open scoped BigOperators

/-! ## A block of rows -/

/-- Block `b` of the `8192` rows in blocks of `512`: its row `p` is row `b · 512 + p` of the array. -/
def rowBlock (a : Cert.Spec.A8192x64) (b : Fin 16) : Vec Ideal ⟨2, ![512, 64]⟩ .f32 := fun j =>
  a (ix2 (blk512 b (j 0)) (j 1))

theorem rowBlock_apply (a : Cert.Spec.A8192x64) (b : Fin 16) (p : Fin 512) (d : Fin 64) :
    rowBlock a b (ix2 p d) = a (ix2 (blk512 b p) d) := rfl

/-! ## One pair of blocks -/

/-- The Gaussian kernel of row `p` of block `bi` of `a` and row `q` of block `bj` of `b` is the specification's kernel
    of the two rows of the whole arrays: the squared norms and the inner product are the same sums over the 64
    coordinates, and the product with the word of `2⁻¹²` is the quotient by the word of `4096`. -/
theorem gauss_rowBlock (a b : Cert.Spec.A8192x64) (bi bj : Fin 16) (p q : Fin 512) :
    gauss (rowBlock a bi) (rowBlock b bj) p q = Cert.Spec.kern a b (blk512 bi p) (blk512 bj q) := by
  unfold gauss rowSq rowDot Cert.Spec.kern Cert.Spec.sqn Cert.Spec.gram
  simp only [rowBlock_apply]
  rw [mul_inv4096_eq_div]

/-- The sum over one pair of blocks is the specification's kernel summed over the pair's `512 × 512` rows. -/
theorem blockSum_rowBlock (a b : Cert.Spec.A8192x64) (bi bj : Fin 16) :
    blockSum (rowBlock a bi) (rowBlock b bj)
      = ∑ p : Fin 512, ∑ q : Fin 512, Cert.Spec.kern a b (blk512 bi p) (blk512 bj q) :=
  Finset.sum_congr rfl fun p _ => Finset.sum_congr rfl fun q _ => gauss_rowBlock a b bi bj p q

/-! ## The whole sum and the loss -/

/-- The block sums over the `256` grid points, point `t` pairing row block `t / 16` with row block `t % 16`, add up to
    the specification's kernel summed over all `8192 × 8192` pairs of rows. -/
theorem total_eq (a b : Cert.Spec.A8192x64) :
    ∑ t : Fin 256, blockSum (rowBlock a (gridRow t)) (rowBlock b (gridCol t))
      = ∑ i : Fin 8192, ∑ j : Fin 8192, Cert.Spec.kern a b i j := by
  rw [sum_8192_grid (Cert.Spec.kern a b)]
  exact Finset.sum_congr rfl fun t _ => blockSum_rowBlock a b (gridRow t) (gridCol t)

/-- The three totals, each divided by the word of `2²⁶`, combined as the host combines them, are the specification's
    loss. -/
theorem loss_eq (ts lat : Cert.Spec.A8192x64) :
    (Ideal.div (∑ t : Fin 256, blockSum (rowBlock ts (gridRow t)) (rowBlock ts (gridCol t))) (Ideal.ofBits .f32 0x4C800000#32)
        + Ideal.div (∑ t : Fin 256, blockSum (rowBlock lat (gridRow t)) (rowBlock lat (gridCol t))) (Ideal.ofBits .f32 0x4C800000#32))
      - Ideal.ofBits .f32 0x40000000#32
        * Ideal.div (∑ t : Fin 256, blockSum (rowBlock ts (gridRow t)) (rowBlock lat (gridCol t))) (Ideal.ofBits .f32 0x4C800000#32)
      = Cert.Spec.loss ts lat := by
  rw [total_eq, total_eq, total_eq]
  rfl

end Cert.LossBridge

end
-- ==== Proof.Value.WholeValue.lean ====
/-
  The kernel's three results as the specification of its arguments, at the exact extended-real instance. The contents
  of the unscoped buffers are read at the last boundary of the whole run: the latent rows and the reconstruction are
  the first call's two output arrays, each a whole-array function of its input arrays; the loss is the scalar tail of
  entry (0, 0) of the second call's three output arrays, each the sum over the 256 grid points of a block sum, and the
  256 × 512 × 512 terms are exactly the pairs of rows of the two arrays.
-/
import proofs.«125475_j62268435857718_1_alg».proof.Proof.Ideal.WholeRun
import proofs.«125475_j62268435857718_1_alg».proof.Proof.Value.EncDecArrays
import proofs.«125475_j62268435857718_1_alg».proof.Proof.Value.EncDecSpec
import proofs.«125475_j62268435857718_1_alg».proof.Proof.Value.MmdBlocks
import proofs.«125475_j62268435857718_1_alg».proof.Proof.Value.MmdSums
import proofs.«125475_j62268435857718_1_alg».proof.Proof.Value.LossBridge
import proofs.«125475_j62268435857718_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.WholeValue

open Cert.KernelIdeal Cert.KernelIdeal.Gen Cert.KernelIdeal.Hand Cert.KernelIdeal.EncDecValue Cert.KernelIdeal.EncDecSpec
  Cert.KernelIdeal.MmdBlocks Cert.KernelIdeal.MmdValue Cert.KernelIdeal.PayValue Cert.LossBridge Cert.SumAlgebra
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The first call's entry contents: the arguments as launched, the two biases re-laid as one-row matrices -/

theorem V1_arg0 (c : Dev nD) : V1 m ρ c main_arg0 = m ((c : Thread nD τ).loc main_arg0) := by
  show StableHlo.after hostOps0 _ (Proc.devRef .tc main_arg0) = _
  after_results
theorem V1_arg2 (c : Dev nD) : V1 m ρ c main_arg2 = m ((c : Thread nD τ).loc main_arg2) := by
  show StableHlo.after hostOps0 _ (Proc.devRef .tc main_arg2) = _
  after_results
theorem V1_arg4 (c : Dev nD) : V1 m ρ c main_arg4 = m ((c : Thread nD τ).loc main_arg4) := by
  show StableHlo.after hostOps0 _ (Proc.devRef .tc main_arg4) = _
  after_results
theorem V1_v0 (c : Dev nD) : V1 m ρ c main_v0 = shapeCast S1x64 (m ((c : Thread nD τ).loc main_arg3)) shapeCasts_S64_S1x64 := by
  show StableHlo.after hostOps0 _ (Proc.devRef .tc main_v0) = _
  after_results
  rfl
theorem V1_v1 (c : Dev nD) : V1 m ρ c main_v1 = shapeCast S1x1024 (m ((c : Thread nD τ).loc main_arg5)) shapeCasts_S1024_S1x1024 := by
  show StableHlo.after hostOps0 _ (Proc.devRef .tc main_v1) = _
  after_results
  rfl

/-! ## The scalar tail -/

/-- The sixteen scalar operations after the second call, as one function of its three result arrays: entry `(0, 0)`
    of each divided by the word 2²⁶; the first two quotients added, twice the third subtracted. -/
def tail (a b d : Vec Ideal S8x128 .f32) : Vec Ideal S_ .f32 :=
  subf (addf
      (Host.divf (F := Ideal) (shapeCast S_ (extractStridedSlice S1x1 ![0, 0] a slices_S8x128_S1x1_0_0) shapeCasts_S1x1_S_) (constant (F := Ideal) S_ .f32 0x4C800000#32))
      (Host.divf (F := Ideal) (shapeCast S_ (extractStridedSlice S1x1 ![0, 0] b slices_S8x128_S1x1_0_0) shapeCasts_S1x1_S_) (constant (F := Ideal) S_ .f32 0x4C800000#32)))
    (mulf (constant (F := Ideal) S_ .f32 0x40000000#32)
      (Host.divf (F := Ideal) (shapeCast S_ (extractStridedSlice S1x1 ![0, 0] d slices_S8x128_S1x1_0_0) shapeCasts_S1x1_S_) (constant (F := Ideal) S_ .f32 0x4C800000#32)))

theorem W4_v15 (c : Dev nD) : W4 m ρ c (Proc.devRef .tc main_v15)
    = tail (W3 m ρ c (Proc.devRef .tc main_v3_0)) (W3 m ρ c (Proc.devRef .tc main_v3_1)) (W3 m ρ c (Proc.devRef .tc main_v3_2)) := by
  show StableHlo.after hostOps2 _ (Proc.devRef .tc main_v15) = _
  after_results
  rfl

/-- Entry `(0, 0)` of an 8×128 array, sliced out and re-laid as a scalar. -/
theorem corner_apply (a : Vec Ideal S8x128 .f32) (i : S_.Idx) :
    shapeCast S_ (extractStridedSlice S1x1 ![0, 0] a slices_S8x128_S1x1_0_0) shapeCasts_S1x1_S_ i = a (ix2 0 0) := by
  rw [shapeCast_apply _ _ i (ix2 (0 : Fin 1) (0 : Fin 1)) (by rw [Shape.rowMajor_val_two]; rfl)]
  exact extractStridedSlice_apply _ _ _ _ (ix2 (0 : Fin 8) (0 : Fin 128)) (fun ax => by match ax with | ⟨0, _⟩ => rfl | ⟨1, _⟩ => rfl)

theorem tail_apply (a b d : Vec Ideal S8x128 .f32) (i : S_.Idx) :
    tail a b d i = (Ideal.div (a (ix2 0 0)) (Ideal.ofBits .f32 0x4C800000#32) + Ideal.div (b (ix2 0 0)) (Ideal.ofBits .f32 0x4C800000#32))
      - Ideal.ofBits .f32 0x40000000#32 * Ideal.div (d (ix2 0 0)) (Ideal.ofBits .f32 0x4C800000#32) := by
  unfold tail
  simp only [subf, addf, mulf, Host.divf, constant, Ideal.ofBits_def, Ideal.addf_def, Ideal.subf_def, Ideal.mulf_def, Ideal.hostDivf_def]
  rw [corner_apply a i, corner_apply b i, corner_apply d i]

/-! ## The two arrays the first call writes, as the specification of the arguments -/

theorem V2_latent (c : Dev nD) : V2 m ρ c main_v2_0
    = Cert.Spec.latent (m ((c : Thread nD τ).loc main_arg0)) (m ((c : Thread nD τ).loc main_arg2)) (m ((c : Thread nD τ).loc main_arg3)) :=
  calc V2 m ρ c main_v2_0
    _ = (dat0 (V1 m ρ) c).arrAt 5 cfg0.N := W2_arr m ρ c 5
    _ = latArr (V1 m ρ) c := latent_final (V1 m ρ) c
    _ = _ := by
          unfold latArr
          rw [V1_arg0, V1_arg2, V1_v0]
          exact latOf_eq _ _ _ _

theorem V2_recon (c : Dev nD) : V2 m ρ c main_v2_1
    = Cert.Spec.recon (Cert.Spec.latent (m ((c : Thread nD τ).loc main_arg0)) (m ((c : Thread nD τ).loc main_arg2)) (m ((c : Thread nD τ).loc main_arg3)))
        (m ((c : Thread nD τ).loc main_arg4)) (m ((c : Thread nD τ).loc main_arg5)) :=
  calc V2 m ρ c main_v2_1
    _ = (dat0 (V1 m ρ) c).arrAt 6 cfg0.N := W2_arr m ρ c 6
    _ = recArr (V1 m ρ) c := recon_final (V1 m ρ) c
    _ = _ := by
          unfold recArr latArr
          rw [V1_arg0, V1_arg2, V1_v0, V1_arg4, V1_v1, latOf_eq, recOf_eq]

theorem V2_arg1 (c : Dev nD) : V2 m ρ c main_arg1 = m ((c : Thread nD τ).loc main_arg1) :=
  (W2_of_ne m ρ c main_arg1 (by decide)).trans (by
    show StableHlo.after hostOps0 _ (Proc.devRef .tc main_arg1) = _
    after_results)

theorem W4_latent (c : Dev nD) : W4 m ρ c (Proc.devRef .tc main_v2_0)
    = Cert.Spec.latent (m ((c : Thread nD τ).loc main_arg0)) (m ((c : Thread nD τ).loc main_arg2)) (m ((c : Thread nD τ).loc main_arg3)) :=
  calc W4 m ρ c (Proc.devRef .tc main_v2_0)
    _ = W3 m ρ c (Proc.devRef .tc main_v2_0) := by
          show StableHlo.after hostOps2 _ (Proc.devRef .tc main_v2_0) = _
          after_results
    _ = W2 m ρ c (Proc.devRef .tc main_v2_0) := W3_of_ne m ρ c main_v2_0 (by decide) (by decide) (by decide)
    _ = _ := V2_latent m ρ c

theorem W4_recon (c : Dev nD) : W4 m ρ c (Proc.devRef .tc main_v2_1)
    = Cert.Spec.recon (Cert.Spec.latent (m ((c : Thread nD τ).loc main_arg0)) (m ((c : Thread nD τ).loc main_arg2)) (m ((c : Thread nD τ).loc main_arg3)))
        (m ((c : Thread nD τ).loc main_arg4)) (m ((c : Thread nD τ).loc main_arg5)) :=
  calc W4 m ρ c (Proc.devRef .tc main_v2_1)
    _ = W3 m ρ c (Proc.devRef .tc main_v2_1) := by
          show StableHlo.after hostOps2 _ (Proc.devRef .tc main_v2_1) = _
          after_results
    _ = W2 m ρ c (Proc.devRef .tc main_v2_1) := W3_of_ne m ρ c main_v2_1 (by decide) (by decide) (by decide)
    _ = _ := V2_recon m ρ c

/-! ## The second call's input blocks are row blocks of its two arrays -/

section Blocks
variable (V : (c : Dev nD) → (b : Ref sig .tc) → Buf (Elt Ideal) ((c : Thread nD τ).loc b))

theorem rows0 (c : Dev nD) (t : Fin cfg1.N) : iblk1 (F := Ideal) V c 0 t = rowBlock (V c main_arg1) (gridRow (Fin.cast N_1 t)) := by
  funext j
  obtain ⟨p, d, rfl⟩ : ∃ (p : Fin 512) (d : Fin 64), j = ix2 p d := ⟨j 0, j 1, eq_ix2 j⟩
  exact (iblk1_0_apply V c t p d).trans (rowBlock_apply _ _ p d).symm
theorem rows1 (c : Dev nD) (t : Fin cfg1.N) : iblk1 (F := Ideal) V c 1 t = rowBlock (V c main_v2_0) (gridRow (Fin.cast N_1 t)) := by
  funext j
  obtain ⟨p, d, rfl⟩ : ∃ (p : Fin 512) (d : Fin 64), j = ix2 p d := ⟨j 0, j 1, eq_ix2 j⟩
  exact (iblk1_1_apply V c t p d).trans (rowBlock_apply _ _ p d).symm
theorem cols2 (c : Dev nD) (t : Fin cfg1.N) : iblk1 (F := Ideal) V c 2 t = rowBlock (V c main_arg1) (gridCol (Fin.cast N_1 t)) := by
  funext j
  obtain ⟨p, d, rfl⟩ : ∃ (p : Fin 512) (d : Fin 64), j = ix2 p d := ⟨j 0, j 1, eq_ix2 j⟩
  exact (iblk1_2_apply V c t p d).trans (rowBlock_apply _ _ p d).symm
theorem cols3 (c : Dev nD) (t : Fin cfg1.N) : iblk1 (F := Ideal) V c 3 t = rowBlock (V c main_v2_0) (gridCol (Fin.cast N_1 t)) := by
  funext j
  obtain ⟨p, d, rfl⟩ : ∃ (p : Fin 512) (d : Fin 64), j = ix2 p d := ⟨j 0, j 1, eq_ix2 j⟩
  exact (iblk1_3_apply V c t p d).trans (rowBlock_apply _ _ p d).symm
end Blocks

/-! ## The three sums, and the loss -/

/-- The sum over the 256 grid points of the block sums of row block `t / 16` of `a` against row block `t % 16` of `b`. -/
def total (a b : Cert.Spec.A8192x64) : EReal := ∑ t : Fin 256, blockSum (rowBlock a (gridRow t)) (rowBlock b (gridCol t))

theorem W3_xx (c : Dev nD) : W3 m ρ c (Proc.devRef .tc main_v3_0)
    = fun _ => total (m ((c : Thread nD τ).loc main_arg1)) (m ((c : Thread nD τ).loc main_arg1)) :=
  (W3_out4 m ρ c).trans ((sums_final4 (V2 m ρ) c).trans (funext fun _ => by
    unfold total
    rw [← sum_points]
    refine Finset.sum_congr rfl fun t _ => ?_
    rw [rows0, cols2, V2_arg1]))

theorem W3_yy (c : Dev nD) : W3 m ρ c (Proc.devRef .tc main_v3_1)
    = fun _ => total (Cert.Spec.latent (m ((c : Thread nD τ).loc main_arg0)) (m ((c : Thread nD τ).loc main_arg2)) (m ((c : Thread nD τ).loc main_arg3)))
        (Cert.Spec.latent (m ((c : Thread nD τ).loc main_arg0)) (m ((c : Thread nD τ).loc main_arg2)) (m ((c : Thread nD τ).loc main_arg3))) :=
  (W3_out5 m ρ c).trans ((sums_final5 (V2 m ρ) c).trans (funext fun _ => by
    unfold total
    rw [← sum_points]
    refine Finset.sum_congr rfl fun t _ => ?_
    rw [rows1, cols3, V2_latent]))

theorem W3_xy (c : Dev nD) : W3 m ρ c (Proc.devRef .tc main_v3_2)
    = fun _ => total (m ((c : Thread nD τ).loc main_arg1))
        (Cert.Spec.latent (m ((c : Thread nD τ).loc main_arg0)) (m ((c : Thread nD τ).loc main_arg2)) (m ((c : Thread nD τ).loc main_arg3))) :=
  (W3_out6 m ρ c).trans ((sums_final6 (V2 m ρ) c).trans (funext fun _ => by
    unfold total
    rw [← sum_points]
    refine Finset.sum_congr rfl fun t _ => ?_
    rw [rows0, cols3, V2_arg1, V2_latent]))

theorem W4_loss (c : Dev nD) : W4 m ρ c (Proc.devRef .tc main_v15)
    = fun _ => Cert.Spec.loss (m ((c : Thread nD τ).loc main_arg1))
        (Cert.Spec.latent (m ((c : Thread nD τ).loc main_arg0)) (m ((c : Thread nD τ).loc main_arg2)) (m ((c : Thread nD τ).loc main_arg3))) := by
  rw [W4_v15]
  funext i
  rw [tail_apply, W3_xx, W3_yy, W3_xy]
  exact loss_eq _ _

/-! ## The kernel's run with its three results named -/

theorem kernel_run : θ_run (defs (F := Ideal)) (onTc (τ := τ) (main (F := Ideal))) ⟨m, fun _ => 0, ρ⟩ (fun r => ∀ c : Dev nD,
      r.2.mem ((c.tc : Thread nD τ).loc main_v2_1) = Cert.Spec.recon (Cert.Spec.latent (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))
      ∧ r.2.mem ((c.tc : Thread nD τ).loc main_v2_0) = Cert.Spec.latent (m ((c.tc : Thread nD τ).loc main_arg0)) (m ((c.tc : Thread nD τ).loc main_arg2)) (m ((c.tc : Thread nD τ).loc main_arg3))
      ∧ r.2.mem ((c.tc : Thread nD τ).loc main_v15) = (fun _ => Cert.Spec.loss (m ((c.tc : Thread nD τ).loc main_arg1)) (Cert.Spec.latent (m ((c.tc : Thread nD τ).loc main_arg0)) (m ((c.tc : Thread nD τ).loc main_arg2)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v2_1 (by decide))).trans (W4_recon m ρ c),
     (h c _ (mem_uc main_v2_0 (by decide))).trans (W4_latent m ρ c),
     (h c _ (mem_uc main_v15 (by decide))).trans (W4_loss m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all (F := Ideal) m ρ)

end Cert.KernelIdeal.WholeValue

end
-- ==== Proof.Ref.RefValue.lean ====
/-
  The reference's three results read index by index at the exact extended-real instance: the latent rows, the
  reconstruction, and the maximum-mean-discrepancy loss, each as one function of the argument arrays.
-/
import proofs.«125475_j62268435857718_1_alg».proof.Proof.Gen.ReferenceIdeal.Read
import proofs.«125475_j62268435857718_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The latent rows and the reconstruction -/

/-- The reference's latent rows are the specification's: at `(p, q)` the contraction of row `p` of the input with
    column `q` of the encoder weights, plus the bias broadcast along the rows. -/
theorem ref_latent (x0 : (⟨S8192x1024, .f32⟩ : BufTy).Contents (Elt Ideal)) (x2 : (⟨S1024x64, .f32⟩ : BufTy).Contents (Elt Ideal)) (x3 : (⟨S64, .f32⟩ : BufTy).Contents (Elt Ideal)) :
    val_main_v3 (F := Ideal) x0 x2 x3 = Cert.Spec.latent x0 x2 x3 := by
  funext i
  obtain ⟨p, q, rfl⟩ : ∃ (p : Fin 8192) (q : Fin 64), i = ix2 p q := ⟨i 0, i 1, eq_ix2 i⟩
  have e_l : ∀ k : Fin 1024, lidx_main_v0 (ix2 p q) k = ix2 p k := fun k => funext fun d => by match d with | ⟨0, _⟩ => rfl | ⟨1, _⟩ => rfl
  have e_r : ∀ k : Fin 1024, ridx_main_v0 (ix2 p q) k = ix2 k q := fun k => funext fun d => by match d with | ⟨0, _⟩ => rfl | ⟨1, _⟩ => rfl
  have e_b : idx_main_v1 (idx_main_v2 (ix2 p q)) = ix1 q := funext fun d => by match d with | ⟨0, _⟩ => rfl
  rw [val_main_v3_apply, val_main_v0_apply, val_main_v2_apply, val_main_v1_apply, Cert.Spec.latent_apply]
  simp only [e_l, e_r, e_b, Ideal.addf_def]

/-- The reference's reconstruction is the specification's, of the specification's latent rows. -/
theorem ref_recon (x0 : (⟨S8192x1024, .f32⟩ : BufTy).Contents (Elt Ideal)) (x2 : (⟨S1024x64, .f32⟩ : BufTy).Contents (Elt Ideal)) (x3 : (⟨S64, .f32⟩ : BufTy).Contents (Elt Ideal)) (x4 : (⟨S64x1024, .f32⟩ : BufTy).Contents (Elt Ideal)) (x5 : (⟨S1024, .f32⟩ : BufTy).Contents (Elt Ideal)) :
    val_main_v7 (F := Ideal) x0 x2 x3 x4 x5 = Cert.Spec.recon (Cert.Spec.latent x0 x2 x3) x4 x5 := by
  funext i
  obtain ⟨p, q, rfl⟩ : ∃ (p : Fin 8192) (q : Fin 1024), i = ix2 p q := ⟨i 0, i 1, eq_ix2 i⟩
  have e_l : ∀ k : Fin 64, lidx_main_v4 (ix2 p q) k = ix2 p k := fun k => funext fun d => by match d with | ⟨0, _⟩ => rfl | ⟨1, _⟩ => rfl
  have e_r : ∀ k : Fin 64, ridx_main_v4 (ix2 p q) k = ix2 k q := fun k => funext fun d => by match d with | ⟨0, _⟩ => rfl | ⟨1, _⟩ => rfl
  have e_b : idx_main_v5 (idx_main_v6 (ix2 p q)) = ix1 q := funext fun d => by match d with | ⟨0, _⟩ => rfl
  rw [val_main_v7_apply, val_main_v4_apply, val_main_v6_apply, val_main_v5_apply, Cert.Spec.recon_apply]
  simp only [ref_latent, e_l, e_r, e_b, Ideal.addf_def]

/-! ## The three kernel matrices

  Each is the same chain of operations — the squared norms of the rows by a lane sum from the zero word, broadcast
  along the rows and along the columns and added, minus twice the contraction against the transpose, negated, divided
  by 4096, exponentiated — read at `(a, b)`. -/

theorem kern_tt (x1 : (⟨S8192x64, .f32⟩ : BufTy).Contents (Elt Ideal)) (a b : Fin 8192) :
    val_main_v25 (F := Ideal) x1 (ix2 a b) = Cert.Spec.kern x1 x1 a b := by
  have e_row : ∀ k : Fin 64, idx_main_v9 (idx_main_v10 (idx_main_v14 (ix2 a b))) k = ix2 a k := fun k => funext fun d => by match d with | ⟨0, _⟩ => rfl | ⟨1, _⟩ => rfl
  have e_col : ∀ k : Fin 64, idx_main_v12 (idx_main_v13 (idx_main_v15 (ix2 a b))) k = ix2 b k := fun k => funext fun d => by match d with | ⟨0, _⟩ => rfl | ⟨1, _⟩ => rfl
  have e_l : ∀ k : Fin 64, lidx_main_v18 (ix2 a b) k = ix2 a k := fun k => funext fun d => by match d with | ⟨0, _⟩ => rfl | ⟨1, _⟩ => rfl
  have e_r : ∀ k : Fin 64, idx_main_v17 (ridx_main_v18 (ix2 a b) k) = ix2 b k := fun k => funext fun d => by match d with | ⟨0, _⟩ => rfl | ⟨1, _⟩ => rfl
  simp only [val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_cst_apply, val_main_cst_0_apply, val_main_cst_1_apply, val_main_cst_2_apply]
  simp only [e_row, e_col, e_l, e_r, Ideal.ofBits_def, Ideal.addf_def, Ideal.subf_def, Ideal.mulf_def, Ideal.hostNegf_def, Ideal.negf_def, Ideal.hostDivf_def, Ideal.hostUnary_exp_def, Ideal.ofBits_zero_f32, zero_add,
    Cert.Spec.kern, Cert.Spec.sqn, Cert.Spec.gram]

theorem kern_ll (x0 : (⟨S8192x1024, .f32⟩ : BufTy).Contents (Elt Ideal)) (x2 : (⟨S1024x64, .f32⟩ : BufTy).Contents (Elt Ideal)) (x3 : (⟨S64, .f32⟩ : BufTy).Contents (Elt Ideal)) (a b : Fin 8192) :
    val_main_v45 (F := Ideal) x0 x2 x3 (ix2 a b) = Cert.Spec.kern (Cert.Spec.latent x0 x2 x3) (Cert.Spec.latent x0 x2 x3) a b := by
  have e_row : ∀ k : Fin 64, idx_main_v29 (idx_main_v30 (idx_main_v34 (ix2 a b))) k = ix2 a k := fun k => funext fun d => by match d with | ⟨0, _⟩ => rfl | ⟨1, _⟩ => rfl
  have e_col : ∀ k : Fin 64, idx_main_v32 (idx_main_v33 (idx_main_v35 (ix2 a b))) k = ix2 b k := fun k => funext fun d => by match d with | ⟨0, _⟩ => rfl | ⟨1, _⟩ => rfl
  have e_l : ∀ k : Fin 64, lidx_main_v38 (ix2 a b) k = ix2 a k := fun k => funext fun d => by match d with | ⟨0, _⟩ => rfl | ⟨1, _⟩ => rfl
  have e_r : ∀ k : Fin 64, idx_main_v37 (ridx_main_v38 (ix2 a b) k) = ix2 b k := fun k => funext fun d => by match d with | ⟨0, _⟩ => rfl | ⟨1, _⟩ => rfl
  simp only [val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_cst_5_apply, val_main_cst_6_apply, val_main_cst_7_apply, val_main_cst_8_apply]
  simp only [ref_latent, e_row, e_col, e_l, e_r, Ideal.ofBits_def, Ideal.addf_def, Ideal.subf_def, Ideal.mulf_def, Ideal.hostNegf_def, Ideal.negf_def, Ideal.hostDivf_def, Ideal.hostUnary_exp_def, Ideal.ofBits_zero_f32, zero_add,
    Cert.Spec.kern, Cert.Spec.sqn, Cert.Spec.gram]

theorem kern_tl (x0 : (⟨S8192x1024, .f32⟩ : BufTy).Contents (Elt Ideal)) (x1 : (⟨S8192x64, .f32⟩ : BufTy).Contents (Elt Ideal)) (x2 : (⟨S1024x64, .f32⟩ : BufTy).Contents (Elt Ideal)) (x3 : (⟨S64, .f32⟩ : BufTy).Contents (Elt Ideal)) (a b : Fin 8192) :
    val_main_v66 (F := Ideal) x0 x1 x2 x3 (ix2 a b) = Cert.Spec.kern x1 (Cert.Spec.latent x0 x2 x3) a b := by
  have e_row : ∀ k : Fin 64, idx_main_v50 (idx_main_v51 (idx_main_v55 (ix2 a b))) k = ix2 a k := fun k => funext fun d => by match d with | ⟨0, _⟩ => rfl | ⟨1, _⟩ => rfl
  have e_col : ∀ k : Fin 64, idx_main_v53 (idx_main_v54 (idx_main_v56 (ix2 a b))) k = ix2 b k := fun k => funext fun d => by match d with | ⟨0, _⟩ => rfl | ⟨1, _⟩ => rfl
  have e_l : ∀ k : Fin 64, lidx_main_v59 (ix2 a b) k = ix2 a k := fun k => funext fun d => by match d with | ⟨0, _⟩ => rfl | ⟨1, _⟩ => rfl
  have e_r : ∀ k : Fin 64, idx_main_v58 (ridx_main_v59 (ix2 a b) k) = ix2 b k := fun k => funext fun d => by match d with | ⟨0, _⟩ => rfl | ⟨1, _⟩ => rfl
  simp only [val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_cst_11_apply, val_main_cst_12_apply, val_main_cst_13_apply, val_main_cst_14_apply]
  simp only [ref_latent, e_row, e_col, e_l, e_r, Ideal.ofBits_def, Ideal.addf_def, Ideal.subf_def, Ideal.mulf_def, Ideal.hostNegf_def, Ideal.negf_def, Ideal.hostDivf_def, Ideal.hostUnary_exp_def, Ideal.ofBits_zero_f32, zero_add,
    Cert.Spec.kern, Cert.Spec.sqn, Cert.Spec.gram]

/-! ## The loss -/

/-- The reference's loss is the specification's, of the true samples and the specification's latent rows: each full
    reduce is the double sum over the pairs `(i, j)` from the zero word, each mean its quotient by the word 2²⁶. -/
theorem ref_loss (x0 : (⟨S8192x1024, .f32⟩ : BufTy).Contents (Elt Ideal)) (x1 : (⟨S8192x64, .f32⟩ : BufTy).Contents (Elt Ideal)) (x2 : (⟨S1024x64, .f32⟩ : BufTy).Contents (Elt Ideal)) (x3 : (⟨S64, .f32⟩ : BufTy).Contents (Elt Ideal)) :
    val_main_v70 (F := Ideal) x0 x1 x2 x3 = fun _ => Cert.Spec.loss x1 (Cert.Spec.latent x0 x2 x3) := by
  funext i
  rw [val_main_v70_apply, val_main_v48_apply, val_main_v69_apply, val_main_v27_apply, val_main_v47_apply, val_main_v68_apply,
    val_main_v26_apply, val_main_v46_apply, val_main_v67_apply, sum_idx2, sum_idx2, sum_idx2]
  simp only [kern_tt, kern_ll, kern_tl, val_main_cst_3_apply, val_main_cst_4_apply, val_main_cst_9_apply, val_main_cst_10_apply,
    val_main_cst_15_apply, val_main_cst_16_apply, val_main_cst_17_apply, Ideal.ofBits_def, Ideal.addf_def, Ideal.subf_def, Ideal.mulf_def, Ideal.hostNegf_def, Ideal.negf_def, Ideal.hostDivf_def, Ideal.hostUnary_exp_def, Ideal.ofBits_zero_f32, zero_add, Cert.Spec.loss, Cert.Spec.mean]

/-! ## The run -/

/-- Every weakly fair execution of the reference terminates with its three results at the specification of the
    launch contents of its arguments, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v7) = Cert.Spec.recon (Cert.Spec.latent (m' ((c.tc : Thread nD τ).loc main_arg0)) (m' ((c.tc : Thread nD τ).loc main_arg2)) (m' ((c.tc : Thread nD τ).loc main_arg3))) (m' ((c.tc : Thread nD τ).loc main_arg4)) (m' ((c.tc : Thread nD τ).loc main_arg5))
      ∧ r.2.mem ((c.tc : Thread nD τ).loc main_v3) = Cert.Spec.latent (m' ((c.tc : Thread nD τ).loc main_arg0)) (m' ((c.tc : Thread nD τ).loc main_arg2)) (m' ((c.tc : Thread nD τ).loc main_arg3))
      ∧ r.2.mem ((c.tc : Thread nD τ).loc main_v70) = (fun _ => Cert.Spec.loss (m' ((c.tc : Thread nD τ).loc main_arg1)) (Cert.Spec.latent (m' ((c.tc : Thread nD τ).loc main_arg0)) (m' ((c.tc : Thread nD τ).loc main_arg2)) (m' ((c.tc : Thread nD τ).loc main_arg3))))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run defs _ _).mono (fun _ h c => ⟨(h c).1.trans ((val_main_v7_eq _ _ _ _ _).trans (ref_recon _ _ _ _ _)),
      (h c).2.1.trans ((val_main_v3_eq _ _ _).trans (ref_latent _ _ _)),
      (h c).2.2.1.trans ((val_main_v70_eq m' c).trans (ref_loss _ _ _ _)),
      (h c).2.2.2⟩)
    (Cert.ReferenceIdeal.Value.run (F := Ideal) m' ρ')

end Cert.ReferenceIdeal.RefValue

end
-- ==== Proof.Ref.RefRunOf.lean ====
/-
  The reference's run stated for argument arrays given by name: when the reference is launched on arrays `a0 … a5`,
  its three results are the specification of those arrays.
-/
import proofs.«125475_j62268435857718_1_alg».proof.Proof.Ref.RefValue

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- When the reference's argument arrays are the arrays
    `a0 … a5` on every device, its results are the specification of those. -/
theorem ref_run_of (m' : (ℓ : Loc nD τ sig) → Buf (Elt Ideal) ℓ) (ρ' : Dev nD → PrngReg)
    (a0 : Dev nD → (⟨S8192x1024, .f32⟩ : BufTy).Contents (Elt Ideal)) (a1 : Dev nD → (⟨S8192x64, .f32⟩ : BufTy).Contents (Elt Ideal)) (a2 : Dev nD → (⟨S1024x64, .f32⟩ : BufTy).Contents (Elt Ideal))
    (a3 : Dev nD → (⟨S64, .f32⟩ : BufTy).Contents (Elt Ideal)) (a4 : Dev nD → (⟨S64x1024, .f32⟩ : BufTy).Contents (Elt Ideal)) (a5 : Dev nD → (⟨S1024, .f32⟩ : BufTy).Contents (Elt Ideal))
    (hag : ∀ c : Dev nD, m' ((c.tc : Thread nD τ).loc main_arg0) = a0 c ∧ m' ((c.tc : Thread nD τ).loc main_arg1) = a1 c
      ∧ m' ((c.tc : Thread nD τ).loc main_arg2) = a2 c ∧ m' ((c.tc : Thread nD τ).loc main_arg3) = a3 c
      ∧ m' ((c.tc : Thread nD τ).loc main_arg4) = a4 c ∧ m' ((c.tc : Thread nD τ).loc main_arg5) = a5 c) :
    θ_run (defs (F := Ideal)) (onTc (τ := τ) (main (F := Ideal))) ⟨m', fun _ => 0, ρ'⟩ (fun r => ∀ c : Dev nD,
      r.2.mem ((c.tc : Thread nD τ).loc main_v7) = Cert.Spec.recon (Cert.Spec.latent (a0 c) (a2 c) (a3 c)) (a4 c) (a5 c)
      ∧ r.2.mem ((c.tc : Thread nD τ).loc main_v3) = Cert.Spec.latent (a0 c) (a2 c) (a3 c)
      ∧ r.2.mem ((c.tc : Thread nD τ).loc main_v70) = (fun _ => Cert.Spec.loss (a1 c) (Cert.Spec.latent (a0 c) (a2 c) (a3 c)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run defs _ _).mono (fun _ h c => by
    obtain ⟨h0, h1, h2, h3, h4, h5⟩ := hag c
    rw [← h0, ← h1, ← h2, ← h3, ← h4, ← h5]
    exact h c) (ref_run m' ρ')

end Cert.ReferenceIdeal.RefValue

end
-- ==== Proof.lean ====
/-
  The certificate of the fused encoder/decoder and pairwise-kernel-sum program against its array reference.

  The program computes, for an input of 8192 rows, the latent rows `x · W_enc + b_enc`, the reconstruction
  `latent · W_dec + b_dec`, and the maximum-mean-discrepancy loss between the true samples and the latent rows:
  `mean k(ts, ts) + mean k(lat, lat) − 2 · mean k(ts, lat)` with `k(a, b)(i, j) = exp(−‖a_i − b_j‖² / 4096)` spelt
  through the squared norms and the inner product. The kernel computes the two products block of rows by block of rows,
  and the three double sums over 8192 × 8192 pairs as 256 blocks of 512 × 512 pairs accumulated across a 16 × 16 grid,
  scaling by the exact dyadic 2⁻¹² where the reference divides by 4096.

  The three frames: the two kernel programs (the word-level one and its reading at the exact instance) run from any
  memory to the end of the entry computation with the six argument arrays unchanged — the whole run, item by item,
  each call entered by splitting its arrays out of the unscoped buffers and left by putting them back; the reference's
  frame is its run with the results dropped. The idealization rewrote nothing. At the exact instance both programs end
  with the same three results: each side's results are one specification of the argument arrays — sums and products of
  extended reals regrouped, which needs only that their addition is commutative and associative.
-/
import proofs.«125475_j62268435857718_1_alg».proof.Defs
import proofs.«125475_j62268435857718_1_alg».proof.Proof.Gen.Kernel
import proofs.«125475_j62268435857718_1_alg».proof.Proof.Gen.KernelIdeal
import proofs.«125475_j62268435857718_1_alg».proof.Proof.Gen.ReferenceIdeal
import proofs.«125475_j62268435857718_1_alg».proof.Proof.Gen.Pre_finite_inputs
import proofs.«125475_j62268435857718_1_alg».proof.Proof.Bits.WholeRun
import proofs.«125475_j62268435857718_1_alg».proof.Proof.Value.WholeValue
import proofs.«125475_j62268435857718_1_alg».proof.Proof.Ref.RefRunOf

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => (θ_run Cert.ReferenceIdeal.defs _ _).mono (fun _ h c => (h c).2.2.2) (Cert.ReferenceIdeal.Value.run (F := Ideal) m ρ),
  trivial,
  fun m ρ m' ρ' _ hagree =>
    ⟨fun c => Cert.Spec.recon (Cert.Spec.latent (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
     fun c => Cert.Spec.latent (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
     fun c => fun _ => Cert.Spec.loss (m ((c.tc : Thread Cert.KernelIdeal.nD Cert.KernelIdeal.τ).loc Cert.KernelIdeal.main_arg1)) (Cert.Spec.latent (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
     Cert.KernelIdeal.WholeValue.kernel_run m ρ,
     Cert.ReferenceIdeal.RefValue.ref_run_of m' ρ' (fun c => m ((c.tc : Thread Cert.KernelIdeal.nD Cert.KernelIdeal.τ).loc Cert.KernelIdeal.main_arg0)) (fun c => m ((c.tc : Thread Cert.KernelIdeal.nD Cert.KernelIdeal.τ).loc Cert.KernelIdeal.main_arg1)) (fun c => m ((c.tc : Thread Cert.KernelIdeal.nD Cert.KernelIdeal.τ).loc Cert.KernelIdeal.main_arg2))
       (fun c => m ((c.tc : Thread Cert.KernelIdeal.nD Cert.KernelIdeal.τ).loc Cert.KernelIdeal.main_arg3)) (fun c => m ((c.tc : Thread Cert.KernelIdeal.nD Cert.KernelIdeal.τ).loc Cert.KernelIdeal.main_arg4)) (fun c => m ((c.tc : Thread Cert.KernelIdeal.nD Cert.KernelIdeal.τ).loc Cert.KernelIdeal.main_arg5)) hagree⟩⟩

end Cert.Proof

end
